-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S1024x3072 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S48x4096x64 : Shape := ⟨3, ![48, 4096, 64]⟩
abbrev S512x1024 : Shape := ⟨2, ![512, 1024]⟩
abbrev S48x512x64 : Shape := ⟨3, ![48, 512, 64]⟩
abbrev S512x3072 : Shape := ⟨2, ![512, 3072]⟩
abbrev S1x3072 : Shape := ⟨2, ![1, 3072]⟩
abbrev S512x64 : Shape := ⟨2, ![512, 64]⟩
abbrev S1x512x64 : Shape := ⟨3, ![1, 512, 64]⟩
abbrev S32x2048x64 : Shape := ⟨3, ![32, 2048, 64]⟩
abbrev S1x2048x64 : Shape := ⟨3, ![1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S16x64x1024 : Shape := ⟨3, ![16, 64, 1024]⟩
abbrev S1x64x1024 : Shape := ⟨3, ![1, 64, 1024]⟩
abbrev S64x1024 : Shape := ⟨2, ![64, 1024]⟩
abbrev S1x1024 : Shape := ⟨2, ![1, 1024]⟩

abbrev nBuf : Space → Nat
  | .hbm => 13
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S1024x3072, .bf16⟩
  | .hbm, ⟨7, _⟩ => ⟨S1024x1024, .bf16⟩
  | .hbm, ⟨8, _⟩ => ⟨S48x4096x64, .bf16⟩
  | .hbm, ⟨9, _⟩ => ⟨S32x2048x64, .bf16⟩
  | .hbm, ⟨10, _⟩ => ⟨S16x64x1024, .bf16⟩
  | .hbm, ⟨11, _⟩ => ⟨S4096x1024, .f32⟩
  | .hbm, ⟨12, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S48x512x64, .bf16⟩
  | .local _ .vmem, ⟨5, _⟩ => ⟨S48x512x64, .bf16⟩
  | .local _ .vmem, ⟨6, _⟩ => ⟨S1x512x64, .bf16⟩
  | .local _ .vmem, ⟨7, _⟩ => ⟨S1x512x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x512x64, .bf16⟩
  | .local _ .vmem, ⟨13, _⟩ => ⟨S1x512x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x64x1024, .bf16⟩
  | .local _ .vmem, ⟨17, _⟩ => ⟨S1x64x1024, .bf16⟩
  | .local _ .vmem, ⟨18, _⟩ => ⟨S1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S48x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c3_i32 : BitVec 32 := 3#32
  let v10 : BitVec 32 := Scalar.muli v9 c3_i32
  let c0_i32_3 : BitVec 32 := 0#32
  let v11 : BitVec 32 := Scalar.addi v10 c0_i32_3
  let c16_i32_4 : BitVec 32 := 16#32
  let v12 : BitVec 32 := Scalar.divsi arg0 c16_i32_4
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .slt arg0 c0_i32_6
  let v16 : BitVec 32 := Scalar.extui v15
  let v17 : BitVec 32 := Scalar.subi v14 v16
  let c0_i32_7 : BitVec 32 := 0#32
  let v18 : BitVec 1 := Scalar.cmpi .sgt c16_i32_4 c0_i32_7
  let v19 : BitVec 32 := Scalar.extui v18
  let c0_i32_8 : BitVec 32 := 0#32
  let v20 : BitVec 1 := Scalar.cmpi .slt c16_i32_4 c0_i32_8
  let v21 : BitVec 32 := Scalar.extui v20
  let v22 : BitVec 32 := Scalar.subi v19 v21
  let v23 : BitVec 1 := Scalar.cmpi .ne v17 v22
  let v24 : BitVec 32 := Scalar.remsi arg0 c16_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32 : BitVec 32 := 4#32
  let v29 : BitVec 32 := Scalar.muli v28 c4_i32
  let v30 : BitVec 32 := Scalar.addi v29 arg1
  let c0_i32_11 : BitVec 32 := 0#32
  let c0_i32_12 : BitVec 32 := 0#32
  ![v11.toNat, v30.toNat, c0_i32_11.toNat]

def cc1_transform_1 (i : grid1.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c3_i32 : BitVec 32 := 3#32
  let v10 : BitVec 32 := Scalar.muli v9 c3_i32
  let c1_i32_3 : BitVec 32 := 1#32
  let v11 : BitVec 32 := Scalar.addi v10 c1_i32_3
  let c16_i32_4 : BitVec 32 := 16#32
  let v12 : BitVec 32 := Scalar.divsi arg0 c16_i32_4
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .slt arg0 c0_i32_6
  let v16 : BitVec 32 := Scalar.extui v15
  let v17 : BitVec 32 := Scalar.subi v14 v16
  let c0_i32_7 : BitVec 32 := 0#32
  let v18 : BitVec 1 := Scalar.cmpi .sgt c16_i32_4 c0_i32_7
  let v19 : BitVec 32 := Scalar.extui v18
  let c0_i32_8 : BitVec 32 := 0#32
  let v20 : BitVec 1 := Scalar.cmpi .slt c16_i32_4 c0_i32_8
  let v21 : BitVec 32 := Scalar.extui v20
  let v22 : BitVec 32 := Scalar.subi v19 v21
  let v23 : BitVec 1 := Scalar.cmpi .ne v17 v22
  let v24 : BitVec 32 := Scalar.remsi arg0 c16_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  let c0_i32_12 : BitVec 32 := 0#32
  ![v11.toNat, v28.toNat, c0_i32_11.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c3_i32 : BitVec 32 := 3#32
  let v10 : BitVec 32 := Scalar.muli v9 c3_i32
  let c2_i32 : BitVec 32 := 2#32
  let v11 : BitVec 32 := Scalar.addi v10 c2_i32
  let c16_i32_3 : BitVec 32 := 16#32
  let v12 : BitVec 32 := Scalar.divsi arg0 c16_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi arg0 c16_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let c0_i32_10 : BitVec 32 := 0#32
  let c0_i32_11 : BitVec 32 := 0#32
  ![v11.toNat, v28.toNat, c0_i32_10.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 16], ![false, false]⟩

def k2_cond2 (i : grid2.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_10 : BitVec 32 := 0#32
  let v15 : BitVec 1 := Scalar.cmpi .ne v14 c0_i32_10
  v15

def cc2_transform_0 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v16 c16_i32
  let v28 : BitVec 32 := Scalar.addi v27 arg1
  let c0_i32_10 : BitVec 32 := 0#32
  let c0_i32_11 : BitVec 32 := 0#32
  ![v28.toNat, v26.toNat, c0_i32_10.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S2x2048x1024_S4096x1024 : S2x2048x1024.ShapeCasts S4096x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  slices_S512x3072_o0_0_S512x64 : S512x3072.Slices ![0, 0] S512x64
  inb_S48x512x64_S1x512x64_0_0_0 : ∀ a, (![0, 0, 0] : Fin 3 → Nat) a + S1x512x64.size a ≤ S48x512x64.size a
  h_S1x512x64 : 0 < S1x512x64.numel
  shapeCasts_S1x512x64_S512x64 : S1x512x64.ShapeCasts S512x64
  shapeCasts_S512x64_S1x512x64 : S512x64.ShapeCasts S1x512x64
  packedbf16_S48x512x64_S1x512x64_0_0_0 : (Rect.unit (s := S48x512x64) ![0, 0, 0] S1x512x64.size inb_S48x512x64_S1x512x64_0_0_0).PackedRows (EltTy.packing .bf16)
  slices_S512x3072_o0_64_S512x64 : S512x3072.Slices ![0, 64] S512x64
  inb_S48x512x64_S1x512x64_1_0_0 : ∀ a, (![1, 0, 0] : Fin 3 → Nat) a + S1x512x64.size a ≤ S48x512x64.size a
  packedbf16_S48x512x64_S1x512x64_1_0_0 : (Rect.unit (s := S48x512x64) ![1, 0, 0] S1x512x64.size inb_S48x512x64_S1x512x64_1_0_0).PackedRows (EltTy.packing .bf16)
  slices_S512x3072_o0_128_S512x64 : S512x3072.Slices ![0, 128] S512x64
  inb_S48x512x64_S1x512x64_2_0_0 : ∀ a, (![2, 0, 0] : Fin 3 → Nat) a + S1x512x64.size a ≤ S48x512x64.size a
  packedbf16_S48x512x64_S1x512x64_2_0_0 : (Rect.unit (s := S48x512x64) ![2, 0, 0] S1x512x64.size inb_S48x512x64_S1x512x64_2_0_0).PackedRows (EltTy.packing .bf16)
  slices_S512x3072_o0_192_S512x64 : S512x3072.Slices ![0, 192] S512x64
  inb_S48x512x64_S1x512x64_3_0_0 : ∀ a, (![3, 0, 0] : Fin 3 → Nat) a + S1x512x64.size a ≤ S48x512x64.size a
  packedbf16_S48x512x64_S1x512x64_3_0_0 : (Rect.unit (s := S48x512x64) ![3, 0, 0] S1x512x64.size inb_S48x512x64_S1x512x64_3_0_0).PackedRows (EltTy.packing .bf16)
  slices_S512x3072_o0_256_S512x64 : S512x3072.Slices ![0, 256] S512x64
  inb_S48x512x64_S1x512x64_4_0_0 : ∀ a, (![4, 0, 0] : Fin 3 → Nat) a + S1x512x64.size a ≤ S48x512x64.size a
  packedbf16_S48x512x64_S1x512x64_4_0_0 : (Rect.unit (s := S48x512x64) ![4, 0, 0] S1x512x64.size inb_S48x512x64_S1x512x64_4_0_0).PackedRows (EltTy.packing .bf16)
  slices_S512x3072_o0_320_S512x64 : S512x3072.Slices ![0, 320] S512x64
  inb_S48x512x64_S1x512x64_5_0_0 : ∀ a, (![5, 0, 0] : Fin 3 → Nat) a + S1x512x64.size a ≤ S48x512x64.size a
  packedbf16_S48x512x64_S1x512x64_5_0_0 : (Rect.unit (s := S48x512x64) ![5, 0, 0] S1x512x64.size inb_S48x512x64_S1x512x64_5_0_0).PackedRows (EltTy.packing .bf16)
  slices_S512x3072_o0_384_S512x64 : S512x3072.Slices ![0, 384] S512x64
  inb_S48x512x64_S1x512x64_6_0_0 : ∀ a, (![6, 0, 0] : Fin 3 → Nat) a + S1x512x64.size a ≤ S48x512x64.size a
  packedbf16_S48x512x64_S1x512x64_6_0_0 : (Rect.unit (s := S48x512x64) ![6, 0, 0] S1x512x64.size inb_S48x512x64_S1x512x64_6_0_0).PackedRows (EltTy.packing .bf16)
  slices_S512x3072_o0_448_S512x64 : S512x3072.Slices ![0, 448] S512x64
  inb_S48x512x64_S1x512x64_7_0_0 : ∀ a, (![7, 0, 0] : Fin 3 → Nat) a + S1x512x64.size a ≤ S48x512x64.size a
  packedbf16_S48x512x64_S1x512x64_7_0_0 : (Rect.unit (s := S48x512x64) ![7, 0, 0] S1x512x64.size inb_S48x512x64_S1x512x64_7_0_0).PackedRows (EltTy.packing .bf16)
  slices_S512x3072_o0_512_S512x64 : S512x3072.Slices ![0, 512] S512x64
  inb_S48x512x64_S1x512x64_8_0_0 : ∀ a, (![8, 0, 0] : Fin 3 → Nat) a + S1x512x64.size a ≤ S48x512x64.size a
  packedbf16_S48x512x64_S1x512x64_8_0_0 : (Rect.unit (s := S48x512x64) ![8, 0, 0] S1x512x64.size inb_S48x512x64_S1x512x64_8_0_0).PackedRows (EltTy.packing .bf16)
  slices_S512x3072_o0_576_S512x64 : S512x3072.Slices ![0, 576] S512x64
  inb_S48x512x64_S1x512x64_9_0_0 : ∀ a, (![9, 0, 0] : Fin 3 → Nat) a + S1x512x64.size a ≤ S48x512x64.size a
  packedbf16_S48x512x64_S1x512x64_9_0_0 : (Rect.unit (s := S48x512x64) ![9, 0, 0] S1x512x64.size inb_S48x512x64_S1x512x64_9_0_0).PackedRows (EltTy.packing .bf16)
  slices_S512x3072_o0_640_S512x64 : S512x3072.Slices ![0, 640] S512x64
  inb_S48x512x64_S1x512x64_10_0_0 : ∀ a, (![10, 0, 0] : Fin 3 → Nat) a + S1x512x64.size a ≤ S48x512x64.size a
  packedbf16_S48x512x64_S1x512x64_10_0_0 : (Rect.unit (s := S48x512x64) ![10, 0, 0] S1x512x64.size inb_S48x512x64_S1x512x64_10_0_0).PackedRows (EltTy.packing .bf16)
  slices_S512x3072_o0_704_S512x64 : S512x3072.Slices ![0, 704] S512x64
  inb_S48x512x64_S1x512x64_11_0_0 : ∀ a, (![11, 0, 0] : Fin 3 → Nat) a + S1x512x64.size a ≤ S48x512x64.size a
  packedbf16_S48x512x64_S1x512x64_11_0_0 : (Rect.unit (s := S48x512x64) ![11, 0, 0] S1x512x64.size inb_S48x512x64_S1x512x64_11_0_0).PackedRows (EltTy.packing .bf16)
  slices_S512x3072_o0_768_S512x64 : S512x3072.Slices ![0, 768] S512x64
  inb_S48x512x64_S1x512x64_12_0_0 : ∀ a, (![12, 0, 0] : Fin 3 → Nat) a + S1x512x64.size a ≤ S48x512x64.size a
  packedbf16_S48x512x64_S1x512x64_12_0_0 : (Rect.unit (s := S48x512x64) ![12, 0, 0] S1x512x64.size inb_S48x512x64_S1x512x64_12_0_0).PackedRows (EltTy.packing .bf16)
  slices_S512x3072_o0_832_S512x64 : S512x3072.Slices ![0, 832] S512x64
  inb_S48x512x64_S1x512x64_13_0_0 : ∀ a, (![13, 0, 0] : Fin 3 → Nat) a + S1x512x64.size a ≤ S48x512x64.size a
  packedbf16_S48x512x64_S1x512x64_13_0_0 : (Rect.unit (s := S48x512x64) ![13, 0, 0] S1x512x64.size inb_S48x512x64_S1x512x64_13_0_0).PackedRows (EltTy.packing .bf16)
  slices_S512x3072_o0_896_S512x64 : S512x3072.Slices ![0, 896] S512x64
  inb_S48x512x64_S1x512x64_14_0_0 : ∀ a, (![14, 0, 0] : Fin 3 → Nat) a + S1x512x64.size a ≤ S48x512x64.size a
  packedbf16_S48x512x64_S1x512x64_14_0_0 : (Rect.unit (s := S48x512x64) ![14, 0, 0] S1x512x64.size inb_S48x512x64_S1x512x64_14_0_0).PackedRows (EltTy.packing .bf16)
  slices_S512x3072_o0_960_S512x64 : S512x3072.Slices ![0, 960] S512x64
  inb_S48x512x64_S1x512x64_15_0_0 : ∀ a, (![15, 0, 0] : Fin 3 → Nat) a + S1x512x64.size a ≤ S48x512x64.size a
  packedbf16_S48x512x64_S1x512x64_15_0_0 : (Rect.unit (s := S48x512x64) ![15, 0, 0] S1x512x64.size inb_S48x512x64_S1x512x64_15_0_0).PackedRows (EltTy.packing .bf16)
  slices_S512x3072_o0_1024_S512x64 : S512x3072.Slices ![0, 1024] S512x64
  inb_S48x512x64_S1x512x64_16_0_0 : ∀ a, (![16, 0, 0] : Fin 3 → Nat) a + S1x512x64.size a ≤ S48x512x64.size a
  packedbf16_S48x512x64_S1x512x64_16_0_0 : (Rect.unit (s := S48x512x64) ![16, 0, 0] S1x512x64.size inb_S48x512x64_S1x512x64_16_0_0).PackedRows (EltTy.packing .bf16)
  slices_S512x3072_o0_1088_S512x64 : S512x3072.Slices ![0, 1088] S512x64
  inb_S48x512x64_S1x512x64_17_0_0 : ∀ a, (![17, 0, 0] : Fin 3 → Nat) a + S1x512x64.size a ≤ S48x512x64.size a
  packedbf16_S48x512x64_S1x512x64_17_0_0 : (Rect.unit (s := S48x512x64) ![17, 0, 0] S1x512x64.size inb_S48x512x64_S1x512x64_17_0_0).PackedRows (EltTy.packing .bf16)
  slices_S512x3072_o0_1152_S512x64 : S512x3072.Slices ![0, 1152] S512x64
  inb_S48x512x64_S1x512x64_18_0_0 : ∀ a, (![18, 0, 0] : Fin 3 → Nat) a + S1x512x64.size a ≤ S48x512x64.size a
  packedbf16_S48x512x64_S1x512x64_18_0_0 : (Rect.unit (s := S48x512x64) ![18, 0, 0] S1x512x64.size inb_S48x512x64_S1x512x64_18_0_0).PackedRows (EltTy.packing .bf16)
  slices_S512x3072_o0_1216_S512x64 : S512x3072.Slices ![0, 1216] S512x64
  inb_S48x512x64_S1x512x64_19_0_0 : ∀ a, (![19, 0, 0] : Fin 3 → Nat) a + S1x512x64.size a ≤ S48x512x64.size a
  packedbf16_S48x512x64_S1x512x64_19_0_0 : (Rect.unit (s := S48x512x64) ![19, 0, 0] S1x512x64.size inb_S48x512x64_S1x512x64_19_0_0).PackedRows (EltTy.packing .bf16)
  slices_S512x3072_o0_1280_S512x64 : S512x3072.Slices ![0, 1280] S512x64
  inb_S48x512x64_S1x512x64_20_0_0 : ∀ a, (![20, 0, 0] : Fin 3 → Nat) a + S1x512x64.size a ≤ S48x512x64.size a
  packedbf16_S48x512x64_S1x512x64_20_0_0 : (Rect.unit (s := S48x512x64) ![20, 0, 0] S1x512x64.size inb_S48x512x64_S1x512x64_20_0_0).PackedRows (EltTy.packing .bf16)
  slices_S512x3072_o0_1344_S512x64 : S512x3072.Slices ![0, 1344] S512x64
  inb_S48x512x64_S1x512x64_21_0_0 : ∀ a, (![21, 0, 0] : Fin 3 → Nat) a + S1x512x64.size a ≤ S48x512x64.size a
  packedbf16_S48x512x64_S1x512x64_21_0_0 : (Rect.unit (s := S48x512x64) ![21, 0, 0] S1x512x64.size inb_S48x512x64_S1x512x64_21_0_0).PackedRows (EltTy.packing .bf16)
  slices_S512x3072_o0_1408_S512x64 : S512x3072.Slices ![0, 1408] S512x64
  inb_S48x512x64_S1x512x64_22_0_0 : ∀ a, (![22, 0, 0] : Fin 3 → Nat) a + S1x512x64.size a ≤ S48x512x64.size a
  packedbf16_S48x512x64_S1x512x64_22_0_0 : (Rect.unit (s := S48x512x64) ![22, 0, 0] S1x512x64.size inb_S48x512x64_S1x512x64_22_0_0).PackedRows (EltTy.packing .bf16)
  slices_S512x3072_o0_1472_S512x64 : S512x3072.Slices ![0, 1472] S512x64
  inb_S48x512x64_S1x512x64_23_0_0 : ∀ a, (![23, 0, 0] : Fin 3 → Nat) a + S1x512x64.size a ≤ S48x512x64.size a
  packedbf16_S48x512x64_S1x512x64_23_0_0 : (Rect.unit (s := S48x512x64) ![23, 0, 0] S1x512x64.size inb_S48x512x64_S1x512x64_23_0_0).PackedRows (EltTy.packing .bf16)
  slices_S512x3072_o0_1536_S512x64 : S512x3072.Slices ![0, 1536] S512x64
  inb_S48x512x64_S1x512x64_24_0_0 : ∀ a, (![24, 0, 0] : Fin 3 → Nat) a + S1x512x64.size a ≤ S48x512x64.size a
  packedbf16_S48x512x64_S1x512x64_24_0_0 : (Rect.unit (s := S48x512x64) ![24, 0, 0] S1x512x64.size inb_S48x512x64_S1x512x64_24_0_0).PackedRows (EltTy.packing .bf16)
  slices_S512x3072_o0_1600_S512x64 : S512x3072.Slices ![0, 1600] S512x64
  inb_S48x512x64_S1x512x64_25_0_0 : ∀ a, (![25, 0, 0] : Fin 3 → Nat) a + S1x512x64.size a ≤ S48x512x64.size a
  packedbf16_S48x512x64_S1x512x64_25_0_0 : (Rect.unit (s := S48x512x64) ![25, 0, 0] S1x512x64.size inb_S48x512x64_S1x512x64_25_0_0).PackedRows (EltTy.packing .bf16)
  slices_S512x3072_o0_1664_S512x64 : S512x3072.Slices ![0, 1664] S512x64
  inb_S48x512x64_S1x512x64_26_0_0 : ∀ a, (![26, 0, 0] : Fin 3 → Nat) a + S1x512x64.size a ≤ S48x512x64.size a
  packedbf16_S48x512x64_S1x512x64_26_0_0 : (Rect.unit (s := S48x512x64) ![26, 0, 0] S1x512x64.size inb_S48x512x64_S1x512x64_26_0_0).PackedRows (EltTy.packing .bf16)
  slices_S512x3072_o0_1728_S512x64 : S512x3072.Slices ![0, 1728] S512x64
  inb_S48x512x64_S1x512x64_27_0_0 : ∀ a, (![27, 0, 0] : Fin 3 → Nat) a + S1x512x64.size a ≤ S48x512x64.size a
  packedbf16_S48x512x64_S1x512x64_27_0_0 : (Rect.unit (s := S48x512x64) ![27, 0, 0] S1x512x64.size inb_S48x512x64_S1x512x64_27_0_0).PackedRows (EltTy.packing .bf16)
  slices_S512x3072_o0_1792_S512x64 : S512x3072.Slices ![0, 1792] S512x64
  inb_S48x512x64_S1x512x64_28_0_0 : ∀ a, (![28, 0, 0] : Fin 3 → Nat) a + S1x512x64.size a ≤ S48x512x64.size a
  packedbf16_S48x512x64_S1x512x64_28_0_0 : (Rect.unit (s := S48x512x64) ![28, 0, 0] S1x512x64.size inb_S48x512x64_S1x512x64_28_0_0).PackedRows (EltTy.packing .bf16)
  slices_S512x3072_o0_1856_S512x64 : S512x3072.Slices ![0, 1856] S512x64
  inb_S48x512x64_S1x512x64_29_0_0 : ∀ a, (![29, 0, 0] : Fin 3 → Nat) a + S1x512x64.size a ≤ S48x512x64.size a
  packedbf16_S48x512x64_S1x512x64_29_0_0 : (Rect.unit (s := S48x512x64) ![29, 0, 0] S1x512x64.size inb_S48x512x64_S1x512x64_29_0_0).PackedRows (EltTy.packing .bf16)
  slices_S512x3072_o0_1920_S512x64 : S512x3072.Slices ![0, 1920] S512x64
  inb_S48x512x64_S1x512x64_30_0_0 : ∀ a, (![30, 0, 0] : Fin 3 → Nat) a + S1x512x64.size a ≤ S48x512x64.size a
  packedbf16_S48x512x64_S1x512x64_30_0_0 : (Rect.unit (s := S48x512x64) ![30, 0, 0] S1x512x64.size inb_S48x512x64_S1x512x64_30_0_0).PackedRows (EltTy.packing .bf16)
  slices_S512x3072_o0_1984_S512x64 : S512x3072.Slices ![0, 1984] S512x64
  inb_S48x512x64_S1x512x64_31_0_0 : ∀ a, (![31, 0, 0] : Fin 3 → Nat) a + S1x512x64.size a ≤ S48x512x64.size a
  packedbf16_S48x512x64_S1x512x64_31_0_0 : (Rect.unit (s := S48x512x64) ![31, 0, 0] S1x512x64.size inb_S48x512x64_S1x512x64_31_0_0).PackedRows (EltTy.packing .bf16)
  slices_S512x3072_o0_2048_S512x64 : S512x3072.Slices ![0, 2048] S512x64
  inb_S48x512x64_S1x512x64_32_0_0 : ∀ a, (![32, 0, 0] : Fin 3 → Nat) a + S1x512x64.size a ≤ S48x512x64.size a
  packedbf16_S48x512x64_S1x512x64_32_0_0 : (Rect.unit (s := S48x512x64) ![32, 0, 0] S1x512x64.size inb_S48x512x64_S1x512x64_32_0_0).PackedRows (EltTy.packing .bf16)
  slices_S512x3072_o0_2112_S512x64 : S512x3072.Slices ![0, 2112] S512x64
  inb_S48x512x64_S1x512x64_33_0_0 : ∀ a, (![33, 0, 0] : Fin 3 → Nat) a + S1x512x64.size a ≤ S48x512x64.size a
  packedbf16_S48x512x64_S1x512x64_33_0_0 : (Rect.unit (s := S48x512x64) ![33, 0, 0] S1x512x64.size inb_S48x512x64_S1x512x64_33_0_0).PackedRows (EltTy.packing .bf16)
  slices_S512x3072_o0_2176_S512x64 : S512x3072.Slices ![0, 2176] S512x64
  inb_S48x512x64_S1x512x64_34_0_0 : ∀ a, (![34, 0, 0] : Fin 3 → Nat) a + S1x512x64.size a ≤ S48x512x64.size a
  packedbf16_S48x512x64_S1x512x64_34_0_0 : (Rect.unit (s := S48x512x64) ![34, 0, 0] S1x512x64.size inb_S48x512x64_S1x512x64_34_0_0).PackedRows (EltTy.packing .bf16)
  slices_S512x3072_o0_2240_S512x64 : S512x3072.Slices ![0, 2240] S512x64
  inb_S48x512x64_S1x512x64_35_0_0 : ∀ a, (![35, 0, 0] : Fin 3 → Nat) a + S1x512x64.size a ≤ S48x512x64.size a
  packedbf16_S48x512x64_S1x512x64_35_0_0 : (Rect.unit (s := S48x512x64) ![35, 0, 0] S1x512x64.size inb_S48x512x64_S1x512x64_35_0_0).PackedRows (EltTy.packing .bf16)
  slices_S512x3072_o0_2304_S512x64 : S512x3072.Slices ![0, 2304] S512x64
  inb_S48x512x64_S1x512x64_36_0_0 : ∀ a, (![36, 0, 0] : Fin 3 → Nat) a + S1x512x64.size a ≤ S48x512x64.size a
  packedbf16_S48x512x64_S1x512x64_36_0_0 : (Rect.unit (s := S48x512x64) ![36, 0, 0] S1x512x64.size inb_S48x512x64_S1x512x64_36_0_0).PackedRows (EltTy.packing .bf16)
  slices_S512x3072_o0_2368_S512x64 : S512x3072.Slices ![0, 2368] S512x64
  inb_S48x512x64_S1x512x64_37_0_0 : ∀ a, (![37, 0, 0] : Fin 3 → Nat) a + S1x512x64.size a ≤ S48x512x64.size a
  packedbf16_S48x512x64_S1x512x64_37_0_0 : (Rect.unit (s := S48x512x64) ![37, 0, 0] S1x512x64.size inb_S48x512x64_S1x512x64_37_0_0).PackedRows (EltTy.packing .bf16)
  slices_S512x3072_o0_2432_S512x64 : S512x3072.Slices ![0, 2432] S512x64
  inb_S48x512x64_S1x512x64_38_0_0 : ∀ a, (![38, 0, 0] : Fin 3 → Nat) a + S1x512x64.size a ≤ S48x512x64.size a
  packedbf16_S48x512x64_S1x512x64_38_0_0 : (Rect.unit (s := S48x512x64) ![38, 0, 0] S1x512x64.size inb_S48x512x64_S1x512x64_38_0_0).PackedRows (EltTy.packing .bf16)
  slices_S512x3072_o0_2496_S512x64 : S512x3072.Slices ![0, 2496] S512x64
  inb_S48x512x64_S1x512x64_39_0_0 : ∀ a, (![39, 0, 0] : Fin 3 → Nat) a + S1x512x64.size a ≤ S48x512x64.size a
  packedbf16_S48x512x64_S1x512x64_39_0_0 : (Rect.unit (s := S48x512x64) ![39, 0, 0] S1x512x64.size inb_S48x512x64_S1x512x64_39_0_0).PackedRows (EltTy.packing .bf16)
  slices_S512x3072_o0_2560_S512x64 : S512x3072.Slices ![0, 2560] S512x64
  inb_S48x512x64_S1x512x64_40_0_0 : ∀ a, (![40, 0, 0] : Fin 3 → Nat) a + S1x512x64.size a ≤ S48x512x64.size a
  packedbf16_S48x512x64_S1x512x64_40_0_0 : (Rect.unit (s := S48x512x64) ![40, 0, 0] S1x512x64.size inb_S48x512x64_S1x512x64_40_0_0).PackedRows (EltTy.packing .bf16)
  slices_S512x3072_o0_2624_S512x64 : S512x3072.Slices ![0, 2624] S512x64
  inb_S48x512x64_S1x512x64_41_0_0 : ∀ a, (![41, 0, 0] : Fin 3 → Nat) a + S1x512x64.size a ≤ S48x512x64.size a
  packedbf16_S48x512x64_S1x512x64_41_0_0 : (Rect.unit (s := S48x512x64) ![41, 0, 0] S1x512x64.size inb_S48x512x64_S1x512x64_41_0_0).PackedRows (EltTy.packing .bf16)
  slices_S512x3072_o0_2688_S512x64 : S512x3072.Slices ![0, 2688] S512x64
  inb_S48x512x64_S1x512x64_42_0_0 : ∀ a, (![42, 0, 0] : Fin 3 → Nat) a + S1x512x64.size a ≤ S48x512x64.size a
  packedbf16_S48x512x64_S1x512x64_42_0_0 : (Rect.unit (s := S48x512x64) ![42, 0, 0] S1x512x64.size inb_S48x512x64_S1x512x64_42_0_0).PackedRows (EltTy.packing .bf16)
  slices_S512x3072_o0_2752_S512x64 : S512x3072.Slices ![0, 2752] S512x64
  inb_S48x512x64_S1x512x64_43_0_0 : ∀ a, (![43, 0, 0] : Fin 3 → Nat) a + S1x512x64.size a ≤ S48x512x64.size a
  packedbf16_S48x512x64_S1x512x64_43_0_0 : (Rect.unit (s := S48x512x64) ![43, 0, 0] S1x512x64.size inb_S48x512x64_S1x512x64_43_0_0).PackedRows (EltTy.packing .bf16)
  slices_S512x3072_o0_2816_S512x64 : S512x3072.Slices ![0, 2816] S512x64
  inb_S48x512x64_S1x512x64_44_0_0 : ∀ a, (![44, 0, 0] : Fin 3 → Nat) a + S1x512x64.size a ≤ S48x512x64.size a
  packedbf16_S48x512x64_S1x512x64_44_0_0 : (Rect.unit (s := S48x512x64) ![44, 0, 0] S1x512x64.size inb_S48x512x64_S1x512x64_44_0_0).PackedRows (EltTy.packing .bf16)
  slices_S512x3072_o0_2880_S512x64 : S512x3072.Slices ![0, 2880] S512x64
  inb_S48x512x64_S1x512x64_45_0_0 : ∀ a, (![45, 0, 0] : Fin 3 → Nat) a + S1x512x64.size a ≤ S48x512x64.size a
  packedbf16_S48x512x64_S1x512x64_45_0_0 : (Rect.unit (s := S48x512x64) ![45, 0, 0] S1x512x64.size inb_S48x512x64_S1x512x64_45_0_0).PackedRows (EltTy.packing .bf16)
  slices_S512x3072_o0_2944_S512x64 : S512x3072.Slices ![0, 2944] S512x64
  inb_S48x512x64_S1x512x64_46_0_0 : ∀ a, (![46, 0, 0] : Fin 3 → Nat) a + S1x512x64.size a ≤ S48x512x64.size a
  packedbf16_S48x512x64_S1x512x64_46_0_0 : (Rect.unit (s := S48x512x64) ![46, 0, 0] S1x512x64.size inb_S48x512x64_S1x512x64_46_0_0).PackedRows (EltTy.packing .bf16)
  slices_S512x3072_o0_3008_S512x64 : S512x3072.Slices ![0, 3008] S512x64
  inb_S48x512x64_S1x512x64_47_0_0 : ∀ a, (![47, 0, 0] : Fin 3 → Nat) a + S1x512x64.size a ≤ S48x512x64.size a
  packedbf16_S48x512x64_S1x512x64_47_0_0 : (Rect.unit (s := S48x512x64) ![47, 0, 0] S1x512x64.size inb_S48x512x64_S1x512x64_47_0_0).PackedRows (EltTy.packing .bf16)
  inb_S1x512x64_S1x512x64_0_0_0 : ∀ a, (![0, 0, 0] : Fin 3 → Nat) a + S1x512x64.size a ≤ S1x512x64.size a
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  packedbf16_S1x512x64_S1x512x64_0_0_0 : (Rect.unit (s := S1x512x64) ![0, 0, 0] S1x512x64.size inb_S1x512x64_S1x512x64_0_0_0).PackedRows (EltTy.packing .bf16)
  shapeCasts_S1024x1024_S16x64x1024 : S1024x1024.ShapeCasts S16x64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S48x512x64.size a ≤ S48x4096x64.size a
  hwx0_3 : ∀ i : grid0.Coords, EltTy.bits .bf16 = 32 ∨ (Rect.block (s := S48x4096x64) S48x512x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S48x4096x64.size a
  hwx1_0 : ∀ i : grid1.Coords, EltTy.bits .bf16 = 32 ∨ (Rect.block (s := S48x4096x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S48x4096x64.size a
  hwx1_1 : ∀ i : grid1.Coords, EltTy.bits .bf16 = 32 ∨ (Rect.block (s := S48x4096x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S48x4096x64.size a
  hwx1_2 : ∀ i : grid1.Coords, EltTy.bits .bf16 = 32 ∨ (Rect.block (s := S48x4096x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .bf16 = 32 ∨ (Rect.block (s := S32x2048x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x64.size a ≤ S32x2048x64.size a
  hwx2_0 : ∀ i : grid2.Coords, EltTy.bits .bf16 = 32 ∨ (Rect.block (s := S32x2048x64) S1x512x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x1024.size a ≤ S16x64x1024.size a
  hwx2_1 : ∀ i : grid2.Coords, EltTy.bits .bf16 = 32 ∨ (Rect.block (s := S16x64x1024) S1x64x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S48x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S1x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x16x192, .f32⟩
  | .hbm, ⟨10, _⟩ => ⟨S2x16x2048x192, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x64, .f32⟩
  | .hbm, ⟨36, _⟩ => ⟨S2x2048x16x64, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.SpecRef.lean ====
/-
  The reference computation as one function of its five argument arrays, index by index.

  x : [2, 2048, 1024], wqkv : [1024, 3072], bqkv : [3072], wo : [1024, 1024], bo : [1024], all extended reals.

  * fused projection     qkv b s e   = (∑ d, x[b,s,d] · wqkv[d,e]) + bqkv[e]
  * the heads            q / k / v of head h at (s, j) are qkv b s (h·192 + {0, 64, 128} + j)
  * scores               score b h s t = (∑ j, q[b,h,s,j] · k[b,h,t,j]) · scale,  scale = 1 / sqrt 64
  * softmax over t       rowmax = the maximum over t of the scores from −∞;  p = exp (score − rowmax);
                         den = ∑ t, p;  attn = p / den
  * values               values b h s j = ∑ t, attn[b,h,s,t] · v[b,h,t,j]
  * output projection    out b s e = (∑ d, values[b, d / 64, s, d % 64] · wo[d,e]) + bo[e]

  Float literals stay the words the program prints; only the scale is also identified with a real number
  (sqrt 64 = 8, so the scale is exactly 1/8, which is the f32 word 0x3E000000).
-/
import Idealize.ShloMosaic.PureOps.Ideal
import Idealize.ShloMosaic.Lib.ValueIdx

noncomputable section

open scoped BigOperators

namespace Cert.ReferenceIdeal.RefValue

open Idealize.ShloMosaic Idealize.ShloMosaic.ValueIdx

/-- The argument arrays' types. -/
abbrev ArrX : Type := (⟨3, ![2, 2048, 1024]⟩ : Shape).Idx → EReal
abbrev ArrWqkv : Type := (⟨2, ![1024, 3072]⟩ : Shape).Idx → EReal
abbrev ArrBqkv : Type := (⟨1, ![3072]⟩ : Shape).Idx → EReal
abbrev ArrWo : Type := (⟨2, ![1024, 1024]⟩ : Shape).Idx → EReal
abbrev ArrBo : Type := (⟨1, ![1024]⟩ : Shape).Idx → EReal

/-- The fused projection: row (b, s) of x against column e of wqkv, plus the bias. -/
def qkv (x : ArrX) (wqkv : ArrWqkv) (bqkv : ArrBqkv) (b : Fin 2) (s : Fin 2048) (e : Fin 3072) : EReal :=
  (∑ d : Fin 1024, x (ix3 b s d) * wqkv (ix2 d e)) + bqkv (ix1 e)

/-- Column h·192 + off + j of the fused projection: head h's query (off = 0), key (off = 64) or value (off = 128) lane j. -/
def headCol (h : Fin 16) (off : Nat) (hoff : off + 64 ≤ 192) (j : Fin 64) : Fin 3072 :=
  ⟨h.val * 192 + off + j.val, by have := h.isLt; have := j.isLt; omega⟩

/-- Head h's query at position s, lane j. -/
def qh (x : ArrX) (wqkv : ArrWqkv) (bqkv : ArrBqkv) (b : Fin 2) (h : Fin 16) (s : Fin 2048) (j : Fin 64) : EReal :=
  qkv x wqkv bqkv b s (headCol h 0 (by omega) j)
/-- Head h's key at position t, lane j. -/
def kh (x : ArrX) (wqkv : ArrWqkv) (bqkv : ArrBqkv) (b : Fin 2) (h : Fin 16) (t : Fin 2048) (j : Fin 64) : EReal :=
  qkv x wqkv bqkv b t (headCol h 64 (by omega) j)
/-- Head h's value at position t, lane j. -/
def vh (x : ArrX) (wqkv : ArrWqkv) (bqkv : ArrBqkv) (b : Fin 2) (h : Fin 16) (t : Fin 2048) (j : Fin 64) : EReal :=
  qkv x wqkv bqkv b t (headCol h 128 (by omega) j)

/-- The scale as the reference computes it: the word of 1.0 divided by the square root of the word of 64.0. -/
def scale : EReal :=
  Ideal.div (Ideal.ofBits .f32 0x3F800000#32) (Ideal.sqrt (Ideal.ofBits .f32 0x42800000#32))

/-- The scaled score of query position s against key position t. -/
def score (x : ArrX) (wqkv : ArrWqkv) (bqkv : ArrBqkv) (b : Fin 2) (h : Fin 16) (s t : Fin 2048) : EReal :=
  (∑ j : Fin 64, qh x wqkv bqkv b h s j * kh x wqkv bqkv b h t j) * scale

/-- The row maximum: the fold of max over the key positions, from the word of −∞. -/
def rowmax (x : ArrX) (wqkv : ArrWqkv) (bqkv : ArrBqkv) (b : Fin 2) (h : Fin 16) (s : Fin 2048) : EReal :=
  (Finset.univ : Finset (Fin 2048)).fold max (Ideal.ofBits .f32 0xFF800000#32) (fun t => score x wqkv bqkv b h s t)

/-- The exponential of the score less the row maximum. -/
def pexp (x : ArrX) (wqkv : ArrWqkv) (bqkv : ArrBqkv) (b : Fin 2) (h : Fin 16) (s t : Fin 2048) : EReal :=
  Ideal.exp (score x wqkv bqkv b h s t - rowmax x wqkv bqkv b h s)

/-- The softmax denominator: the sum of the exponentials over the key positions. -/
def den (x : ArrX) (wqkv : ArrWqkv) (bqkv : ArrBqkv) (b : Fin 2) (h : Fin 16) (s : Fin 2048) : EReal :=
  ∑ t : Fin 2048, pexp x wqkv bqkv b h s t

/-- The attention weight: the exponential divided by the denominator. -/
def attn (x : ArrX) (wqkv : ArrWqkv) (bqkv : ArrBqkv) (b : Fin 2) (h : Fin 16) (s t : Fin 2048) : EReal :=
  Ideal.div (pexp x wqkv bqkv b h s t) (den x wqkv bqkv b h s)

/-- The attention output of head h at position s, lane j. -/
def values (x : ArrX) (wqkv : ArrWqkv) (bqkv : ArrBqkv) (b : Fin 2) (h : Fin 16) (s : Fin 2048) (j : Fin 64) : EReal :=
  ∑ t : Fin 2048, attn x wqkv bqkv b h s t * vh x wqkv bqkv b h t j

/-- Column d of the concatenated heads is head d / 64, lane d % 64. -/
def headOf (d : Fin 1024) : Fin 16 := ⟨d.val / 64, by have := d.isLt; omega⟩
def laneOf (d : Fin 1024) : Fin 64 := ⟨d.val % 64, by omega⟩

/-- The output projection at (b, s, e). -/
def out (x : ArrX) (wqkv : ArrWqkv) (bqkv : ArrBqkv) (wo : ArrWo) (bo : ArrBo) (b : Fin 2) (s : Fin 2048) (e : Fin 1024) : EReal :=
  (∑ d : Fin 1024, values x wqkv bqkv b (headOf d) s (laneOf d) * wo (ix2 d e)) + bo (ix1 e)

/-- The reference's result as one function of the five argument arrays. -/
def RefG (x : ArrX) (wqkv : ArrWqkv) (bqkv : ArrBqkv) (wo : ArrWo) (bo : ArrBo) : (⟨3, ![2, 2048, 1024]⟩ : Shape).Idx → EReal :=
  fun i => out x wqkv bqkv wo bo (i 0) (i 1) (i 2)

theorem RefG_ix3 (x : ArrX) (wqkv : ArrWqkv) (bqkv : ArrBqkv) (wo : ArrWo) (bo : ArrBo) (b : Fin 2) (s : Fin 2048) (e : Fin 1024) :
    RefG x wqkv bqkv wo bo (ix3 b s e) = out x wqkv bqkv wo bo b s e := rfl

/-! ## The scale is one eighth -/

/-- The word 0x42800000 is 64. -/
theorem word_64 : Ideal.ofBits .f32 0x42800000#32 = ((64 : ℝ) : EReal) := by
  simp [Ideal.ofBits, Ideal.ieee, -EReal.coe_mul]; norm_num
/-- The word 0x3F800000 is 1. -/
theorem word_1 : Ideal.ofBits .f32 0x3F800000#32 = ((1 : ℝ) : EReal) := by
  simp [Ideal.ofBits, Ideal.ieee, -EReal.coe_mul]; norm_num
/-- The word 0x3E000000 is 1/8. -/
theorem word_eighth : Ideal.ofBits .f32 0x3E000000#32 = ((1 / 8 : ℝ) : EReal) := by
  simp [Ideal.ofBits, Ideal.ieee, -EReal.coe_mul]; norm_num

/-- The square root of 64 is 8. -/
theorem sqrt_64 : Real.sqrt 64 = 8 := by
  rw [show (64 : ℝ) = 8 ^ 2 by norm_num, Real.sqrt_sq (by norm_num)]

/-- The reference's scale, 1 / sqrt 64, is the real number 1/8 … -/
theorem scale_eq_eighth : scale = ((1 / 8 : ℝ) : EReal) := by
  unfold scale
  rw [word_64, word_1, Ideal.sqrt_coe, if_neg (by norm_num), sqrt_64, Ideal.div_coe (by norm_num), ← EReal.coe_mul]
  norm_num
/-- … which is the f32 word 0x3E000000 (0.125). -/
theorem scale_eq_word : scale = Ideal.ofBits .f32 0x3E000000#32 := by
  rw [scale_eq_eighth, word_eighth]

end Cert.ReferenceIdeal.RefValue

end
-- ==== Proof.RefQkv.lean ====
/-
  The fused projection read at an index: entry (b, s, e) of the reference's first sum-plus-bias stage is
  the row (b, s) of x against column e of wqkv, plus bqkv[e].
-/
import proofs.«143892_j7258494730873_2_alg».proof.Proof.Gen.ReferenceIdeal.Read
import proofs.«143892_j7258494730873_2_alg».proof.Proof.SpecRef

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The projection stage at (b, s, e). -/
theorem v3_at (x0 : ArrX) (x1 : ArrWqkv) (x2 : ArrBqkv) (b : Fin 2) (s : Fin 2048) (e : Fin 3072) :
    val_main_v3 (F := Ideal) x0 x1 x2 (ix3 b s e) = qkv x0 x1 x2 b s e := by
  have e1 : ∀ k : Fin 1024, lidx_main_v0 (ix3 b s e) k = ix3 b s k := fun k => funext fun a => Fin.ext (by
    match a with | ⟨0, _⟩ => rfl | ⟨1, _⟩ => rfl | ⟨2, _⟩ => rfl)
  have e2 : ∀ k : Fin 1024, ridx_main_v0 (ix3 b s e) k = ix2 k e := fun k => funext fun a => Fin.ext (by
    match a with | ⟨0, _⟩ => rfl | ⟨1, _⟩ => rfl)
  have e3 : idx_main_v1 (idx_main_v2 (ix3 b s e)) = ix1 e := funext fun a => Fin.ext (by
    match a with | ⟨0, _⟩ => rfl)
  rw [val_main_v3_apply, val_main_v0_apply, val_main_v2_apply, val_main_v1_apply, e3]
  simp only [e1, e2, Ideal.addf_def]
  rfl

end Cert.ReferenceIdeal.RefValue

end
-- ==== Proof.RefHeads.lean ====
/-
  The split into heads read at an index. The projection [2, 2048, 3072] is viewed as [2, 2048, 16, 192], the
  sequence and head axes are exchanged, and the last axis is cut into three pieces of 64: entry (b, h, s, j) of
  the query / key / value piece is the projection at (b, s, h·192 + {0, 64, 128} + j).
-/
import proofs.«143892_j7258494730873_2_alg».proof.Proof.Gen.ReferenceIdeal.Read
import proofs.«143892_j7258494730873_2_alg».proof.Proof.SpecRef
import proofs.«143892_j7258494730873_2_alg».proof.Proof.RefQkv

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reshaped and transposed projection at (b, h, s, c) is the projection at (b, s, h·192 + c). -/
theorem v5_at (x0 : ArrX) (x1 : ArrWqkv) (x2 : ArrBqkv) (b : Fin 2) (h : Fin 16) (s : Fin 2048) (c : Fin 192) :
    val_main_v5 (F := Ideal) x0 x1 x2 (ix4 b h s c)
      = qkv x0 x1 x2 b s ⟨h.val * 192 + c.val, by have := h.isLt; have := c.isLt; omega⟩ := by
  have hb := b.isLt; have hh := h.isLt; have hs := s.isLt; have hc := c.isLt
  have e4 : idx_main_v4 (idx_main_v5 (ix4 b h s c))
      = ix3 b s (⟨h.val * 192 + c.val, by omega⟩ : Fin 3072) := funext fun a => Fin.ext (by
    match a with
    | ⟨0, _⟩ => show (((b.val * 2048 + s.val) * 16 + h.val) * 192 + c.val) / 6291456 = b.val; omega
    | ⟨1, _⟩ => show (((b.val * 2048 + s.val) * 16 + h.val) * 192 + c.val) / 3072 % 2048 = s.val; omega
    | ⟨2, _⟩ => show (((b.val * 2048 + s.val) * 16 + h.val) * 192 + c.val) % 3072 = h.val * 192 + c.val; omega)
  rw [val_main_v5_apply, val_main_v4_apply, e4, v3_at]

/-- The query piece at (b, h, s, j). -/
theorem v6_at (x0 : ArrX) (x1 : ArrWqkv) (x2 : ArrBqkv) (b : Fin 2) (h : Fin 16) (s : Fin 2048) (j : Fin 64) :
    val_main_v6 (F := Ideal) x0 x1 x2 (ix4 b h s j) = qh x0 x1 x2 b h s j := by
  have hj := j.isLt
  have e6 : idx_main_v6 (ix4 b h s j) = ix4 b h s (⟨j.val, by omega⟩ : Fin 192) := funext fun a => Fin.ext (by
    match a with | ⟨0, _⟩ => rfl | ⟨1, _⟩ => rfl | ⟨2, _⟩ => rfl | ⟨3, _⟩ => rfl)
  rw [val_main_v6_apply, e6, v5_at]
  exact congrArg (qkv x0 x1 x2 b s) (Fin.ext (by show h.val * 192 + j.val = h.val * 192 + 0 + j.val; omega))

/-- The key piece at (b, h, t, j). -/
theorem v7_at (x0 : ArrX) (x1 : ArrWqkv) (x2 : ArrBqkv) (b : Fin 2) (h : Fin 16) (t : Fin 2048) (j : Fin 64) :
    val_main_v7 (F := Ideal) x0 x1 x2 (ix4 b h t j) = kh x0 x1 x2 b h t j := by
  have hj := j.isLt
  have e7 : idx_main_v7 (ix4 b h t j) = ix4 b h t (⟨64 + j.val, by omega⟩ : Fin 192) := funext fun a => Fin.ext (by
    match a with | ⟨0, _⟩ => rfl | ⟨1, _⟩ => rfl | ⟨2, _⟩ => rfl | ⟨3, _⟩ => rfl)
  rw [val_main_v7_apply, e7, v5_at]
  exact congrArg (qkv x0 x1 x2 b t) (Fin.ext (by show h.val * 192 + (64 + j.val) = h.val * 192 + 64 + j.val; omega))

/-- The value piece at (b, h, t, j). -/
theorem v8_at (x0 : ArrX) (x1 : ArrWqkv) (x2 : ArrBqkv) (b : Fin 2) (h : Fin 16) (t : Fin 2048) (j : Fin 64) :
    val_main_v8 (F := Ideal) x0 x1 x2 (ix4 b h t j) = vh x0 x1 x2 b h t j := by
  have hj := j.isLt
  have e8 : idx_main_v8 (ix4 b h t j) = ix4 b h t (⟨128 + j.val, by omega⟩ : Fin 192) := funext fun a => Fin.ext (by
    match a with | ⟨0, _⟩ => rfl | ⟨1, _⟩ => rfl | ⟨2, _⟩ => rfl | ⟨3, _⟩ => rfl)
  rw [val_main_v8_apply, e8, v5_at]
  exact congrArg (qkv x0 x1 x2 b t) (Fin.ext (by show h.val * 192 + (128 + j.val) = h.val * 192 + 128 + j.val; omega))

end Cert.ReferenceIdeal.RefValue

end
-- ==== Proof.RefScores.lean ====
/-
  The scores and the softmax read at an index.

  score (b, h, s, t) = (∑ j, q[b,h,s,j] · k[b,h,t,j]) · scale; the row maximum is the fold of max over the key
  positions from −∞ (a further maximum with −∞ changes nothing: −∞ is the least extended real); the
  exponential of the score less the maximum; the denominator is their sum over the key positions (the zero
  the sum starts from changes nothing); the weight is the exponential divided by the denominator.
-/
import proofs.«143892_j7258494730873_2_alg».proof.Proof.Gen.ReferenceIdeal.Read
import proofs.«143892_j7258494730873_2_alg».proof.Proof.SpecRef
import proofs.«143892_j7258494730873_2_alg».proof.Proof.RefHeads

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The word 0xFF800000 is −∞, the least extended real. -/
theorem word_neg_inf : Ideal.ofBits .f32 0xFF800000#32 = (⊥ : EReal) := by
  simp [Ideal.ofBits, Ideal.ieee]

/-- The scaled scores at (b, h, s, t). -/
theorem v13_at (x0 : ArrX) (x1 : ArrWqkv) (x2 : ArrBqkv) (b : Fin 2) (h : Fin 16) (s t : Fin 2048) :
    val_main_v13 (F := Ideal) x0 x1 x2 (ix4 b h s t) = score x0 x1 x2 b h s t := by
  have el : ∀ k : Fin 64, lidx_main_v11 (ix4 b h s t) k = ix4 b h s k := fun k => funext fun a => Fin.ext (by
    match a with | ⟨0, _⟩ => rfl | ⟨1, _⟩ => rfl | ⟨2, _⟩ => rfl | ⟨3, _⟩ => rfl)
  have er : ∀ k : Fin 64, ridx_main_v11 (ix4 b h s t) k = ix4 b h t k := fun k => funext fun a => Fin.ext (by
    match a with | ⟨0, _⟩ => rfl | ⟨1, _⟩ => rfl | ⟨2, _⟩ => rfl | ⟨3, _⟩ => rfl)
  rw [val_main_v13_apply, val_main_v11_apply, val_main_v12_apply, val_main_v10_apply, val_main_v9_apply,
    val_main_cst_apply, val_main_cst_0_apply]
  simp only [el, er, v6_at, v7_at, Ideal.mulf_def, Ideal.hostDivf_def, Ideal.hostUnary_sqrt_def, Ideal.ofBits_def]
  rfl

/-- A maximum-reduce over the last axis of a [2, 16, 2048, 2048] array, at (b, h, s): the fold of max over the
    last coordinate, from the initial value. -/
theorem reduce_max_at (y : S2x16x2048x2048.Idx → EReal) (c : S_.Idx → EReal)
    (hT : S2x16x2048x2048.ReducesTo [3] S2x16x2048) (hu : 0 < S_.numel) (b : Fin 2) (h : Fin 16) (s : Fin 2048) :
    Host.reduce (FloatOps.maximumf (F := Ideal) (φ := .f32)) y c hT hu (ix3 b h s)
      = (Finset.univ : Finset (Fin 2048)).fold max (c (Shape.Idx.first hu)) (fun t => y (ix4 b h s t)) := by
  have hR : S2x16x2048x2048.Reduces [3] S2x16x2048 := by decide
  have hl : ∀ t : Fin 2048, hR.lift (ix3 b h s) t = ix4 b h s t := fun t => funext fun a => Fin.ext (by
    match a with | ⟨0, _⟩ => rfl | ⟨1, _⟩ => rfl | ⟨2, _⟩ => rfl | ⟨3, _⟩ => rfl)
  refine (Host.reduce_eq_fold_single (FloatOps.maximumf (F := Ideal) (φ := .f32)) y c hT hR hu (ix3 b h s)).trans ?_
  exact congrArg (fun f : Fin 2048 → EReal => (Finset.univ : Finset (Fin 2048)).fold max (c (Shape.Idx.first hu)) f)
    (funext fun t => congrArg y (hl t))

/-- The row maximum at (b, h, s). -/
theorem v16_at (x0 : ArrX) (x1 : ArrWqkv) (x2 : ArrBqkv) (b : Fin 2) (h : Fin 16) (s : Fin 2048) :
    val_main_v16 (F := Ideal) x0 x1 x2 (ix3 b h s) = rowmax x0 x1 x2 b h s := by
  rw [val_main_v16_apply, val_main_v15_apply, val_main_cst_2_apply]
  unfold val_main_v14
  rw [reduce_max_at, val_main_cst_1_apply]
  simp only [v13_at, Ideal.maximumf_def, Ideal.ofBits_def]
  unfold rowmax
  rw [word_neg_inf]
  exact max_eq_right bot_le

/-- The exponentials at (b, h, s, t). -/
theorem v20_at (x0 : ArrX) (x1 : ArrWqkv) (x2 : ArrBqkv) (b : Fin 2) (h : Fin 16) (s t : Fin 2048) :
    val_main_v20 (F := Ideal) x0 x1 x2 (ix4 b h s t) = pexp x0 x1 x2 b h s t := by
  have e18 : idx_main_v17 (idx_main_v18 (ix4 b h s t)) = ix3 b h s := funext fun a => Fin.ext (by
    match a with | ⟨0, _⟩ => rfl | ⟨1, _⟩ => rfl | ⟨2, _⟩ => rfl)
  rw [val_main_v20_apply, val_main_v19_apply, val_main_v18_apply, val_main_v17_apply, e18, v16_at, v13_at]
  simp only [Ideal.subf_def, Ideal.hostUnary_exp_def]
  rfl

/-- The denominator at (b, h, s). -/
theorem v21_at (x0 : ArrX) (x1 : ArrWqkv) (x2 : ArrBqkv) (b : Fin 2) (h : Fin 16) (s : Fin 2048) :
    val_main_v21 (F := Ideal) x0 x1 x2 (ix3 b h s) = den x0 x1 x2 b h s := by
  have e21 : ∀ k : Fin 2048, idx_main_v21 (ix3 b h s) k = ix4 b h s k := fun k => funext fun a => Fin.ext (by
    match a with | ⟨0, _⟩ => rfl | ⟨1, _⟩ => rfl | ⟨2, _⟩ => rfl | ⟨3, _⟩ => rfl)
  rw [val_main_v21_apply, val_main_cst_3_apply]
  simp only [e21, v20_at, Ideal.ofBits_def, Ideal.ofBits_zero_f32, zero_add]
  rfl

/-- The attention weights at (b, h, s, t). -/
theorem v24_at (x0 : ArrX) (x1 : ArrWqkv) (x2 : ArrBqkv) (b : Fin 2) (h : Fin 16) (s t : Fin 2048) :
    val_main_v24 (F := Ideal) x0 x1 x2 (ix4 b h s t) = attn x0 x1 x2 b h s t := by
  have e23 : idx_main_v22 (idx_main_v23 (ix4 b h s t)) = ix3 b h s := funext fun a => Fin.ext (by
    match a with | ⟨0, _⟩ => rfl | ⟨1, _⟩ => rfl | ⟨2, _⟩ => rfl)
  rw [val_main_v24_apply, val_main_v23_apply, val_main_v22_apply, e23, v21_at, v20_at]
  simp only [Ideal.hostDivf_def]
  rfl

end Cert.ReferenceIdeal.RefValue

end
-- ==== Proof.RefValues.lean ====
/-
  The attention output read at an index, and its return to the [2, 2048, 1024] layout.

  values (b, h, s, j) = ∑ t, attn[b,h,s,t] · v[b,h,t,j]; the head and sequence axes are exchanged back and the
  last two axes merged, so column d of row (b, s) is head d / 64, lane d % 64.
-/
import proofs.«143892_j7258494730873_2_alg».proof.Proof.Gen.ReferenceIdeal.Read
import proofs.«143892_j7258494730873_2_alg».proof.Proof.SpecRef
import proofs.«143892_j7258494730873_2_alg».proof.Proof.RefScores

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The attention output at (b, h, s, j). -/
theorem v25_at (x0 : ArrX) (x1 : ArrWqkv) (x2 : ArrBqkv) (b : Fin 2) (h : Fin 16) (s : Fin 2048) (j : Fin 64) :
    val_main_v25 (F := Ideal) x0 x1 x2 (ix4 b h s j) = values x0 x1 x2 b h s j := by
  have el : ∀ k : Fin 2048, lidx_main_v25 (ix4 b h s j) k = ix4 b h s k := fun k => funext fun a => Fin.ext (by
    match a with | ⟨0, _⟩ => rfl | ⟨1, _⟩ => rfl | ⟨2, _⟩ => rfl | ⟨3, _⟩ => rfl)
  have er : ∀ k : Fin 2048, ridx_main_v25 (ix4 b h s j) k = ix4 b h k j := fun k => funext fun a => Fin.ext (by
    match a with | ⟨0, _⟩ => rfl | ⟨1, _⟩ => rfl | ⟨2, _⟩ => rfl | ⟨3, _⟩ => rfl)
  rw [val_main_v25_apply]
  simp only [el, er, v24_at, v8_at]
  rfl

/-- The merged heads at (b, s, d): head d / 64, lane d % 64. -/
theorem v27_at (x0 : ArrX) (x1 : ArrWqkv) (x2 : ArrBqkv) (b : Fin 2) (s : Fin 2048) (d : Fin 1024) :
    val_main_v27 (F := Ideal) x0 x1 x2 (ix3 b s d) = values x0 x1 x2 b (headOf d) s (laneOf d) := by
  have hb := b.isLt; have hs := s.isLt; have hd := d.isLt
  have e27 : idx_main_v26 (idx_main_v27 (ix3 b s d)) = ix4 b (headOf d) s (laneOf d) := funext fun a => Fin.ext (by
    match a with
    | ⟨0, _⟩ => show ((b.val * 2048 + s.val) * 1024 + d.val) / 2097152 = b.val; omega
    | ⟨1, _⟩ => show ((b.val * 2048 + s.val) * 1024 + d.val) / 64 % 16 = d.val / 64; omega
    | ⟨2, _⟩ => show ((b.val * 2048 + s.val) * 1024 + d.val) / 1024 % 2048 = s.val; omega
    | ⟨3, _⟩ => show ((b.val * 2048 + s.val) * 1024 + d.val) % 64 = d.val % 64; omega)
  rw [val_main_v27_apply, val_main_v26_apply, e27, v25_at]

end Cert.ReferenceIdeal.RefValue

end
-- ==== Proof.RefIsSpec.lean ====
/-
  The reference is the specification: its last stage, the output projection plus bias, is RefG of the five
  argument arrays at every index.

  out (b, s, e) = (∑ d, values[b, d / 64, s, d % 64] · wo[d,e]) + bo[e].
-/
import proofs.«143892_j7258494730873_2_alg».proof.Proof.Gen.ReferenceIdeal.Read
import proofs.«143892_j7258494730873_2_alg».proof.Proof.SpecRef
import proofs.«143892_j7258494730873_2_alg».proof.Proof.RefValues

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The output projection at (b, s, e). -/
theorem v31_at (x0 : ArrX) (x1 : ArrWqkv) (x2 : ArrBqkv) (x3 : ArrWo) (x4 : ArrBo) (b : Fin 2) (s : Fin 2048) (e : Fin 1024) :
    val_main_v31 (F := Ideal) x0 x1 x2 x3 x4 (ix3 b s e) = out x0 x1 x2 x3 x4 b s e := by
  have el : ∀ k : Fin 1024, lidx_main_v28 (ix3 b s e) k = ix3 b s k := fun k => funext fun a => Fin.ext (by
    match a with | ⟨0, _⟩ => rfl | ⟨1, _⟩ => rfl | ⟨2, _⟩ => rfl)
  have er : ∀ k : Fin 1024, ridx_main_v28 (ix3 b s e) k = ix2 k e := fun k => funext fun a => Fin.ext (by
    match a with | ⟨0, _⟩ => rfl | ⟨1, _⟩ => rfl)
  have e30 : idx_main_v29 (idx_main_v30 (ix3 b s e)) = ix1 e := funext fun a => Fin.ext (by
    match a with | ⟨0, _⟩ => rfl)
  rw [val_main_v31_apply, val_main_v28_apply, val_main_v30_apply, val_main_v29_apply, e30]
  simp only [el, er, v27_at, Ideal.addf_def]
  rfl

/-- The reference's result is RefG of its five arguments. -/
theorem ref_eq (x : S2x2048x1024.Idx → EReal) (wqkv : S1024x3072.Idx → EReal) (bqkv : S3072.Idx → EReal)
    (wo : S1024x1024.Idx → EReal) (bo : S1024.Idx → EReal) :
    val_main_v31 (F := Ideal) x wqkv bqkv wo bo = RefG x wqkv bqkv wo bo := by
  funext i
  obtain ⟨b, s, e, rfl⟩ : ∃ (b : Fin 2) (s : Fin 2048) (e : Fin 1024), i = ix3 b s e := ⟨i 0, i 1, i 2, eq_ix3 i⟩
  rw [v31_at, RefG_ix3]

open Idealize.ShloMosaic.TcCoe Idealize.SL.Sem in
/-- The same for the run's own term: from a memory m, on device c, the result buffer's composed term is RefG of the five
    argument buffers' contents in m. -/
theorem res_eq (m : (ℓ : Loc nD τ sig) → Buf (Elt Ideal) ℓ) (c : Dev nD) :
    Cert.ReferenceIdeal.Value.res_main_v31 (F := Ideal) m c
      = RefG (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  (val_main_v31_eq m c).trans (ref_eq _ _ _ _ _)

/-- The scale the reference computes, 1 / sqrt 64 on rank-0 tensors, is the word of 0.125 read as an extended real. -/
theorem ref_scale_eq_word (i : S_.Idx) :
    val_main_v10 (F := Ideal) i = Ideal.ofBits .f32 0x3E000000#32 := by
  rw [val_main_v10_apply, val_main_v9_apply, val_main_cst_apply, val_main_cst_0_apply]
  simp only [Ideal.hostDivf_def, Ideal.hostUnary_sqrt_def, Ideal.ofBits_def]
  exact scale_eq_word

end Cert.ReferenceIdeal.RefValue

end
-- ==== Proof.Bits.R0Out.lean ====
/-
  Region 0 (the fused query/key/value projection): what the body leaves in its output block.

  The body reads its three input blocks whole — a [512,1024] block of activations, the [1024,3072] weights, the
  [3072] bias —, forms the [512,3072] product-plus-bias once, and stores it as 48 slabs: slab g of the
  [48,512,64] output block receives columns 64·g … 64·g+63 of the product. The 48 slabs are disjoint and
  together are the whole block, so whatever the buffer held before is overwritten everywhere.
-/
import proofs.«143892_j7258494730873_2_alg».proof.Proof.Gen.Kernel.Launch
import proofs.«143892_j7258494730873_2_alg».proof.Proof.Gen.Kernel.Skeleton
import proofs.«143892_j7258494730873_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

/-! ## The body's accesses -/

/-- The three input blocks are loaded whole. -/
abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0

/-- Slab g of the output block: the rectangle [g, 0, 0] of extent [1, 512, 64]. -/
local notation "slab(" g ", " h ")" => Rect.unit (s := S48x512x64) ![g, 0, 0] S1x512x64.size h

/-! ## What the body leaves in the output block -/

/-- The [512,3072] product plus bias, rounded to the output's format, from the three input blocks. -/
def acc0 (x0 : Vec F S512x1024 .f32) (x1 : Vec F S1024x3072 .bf16) (x2 : Vec F S3072 .f32) : FVec F S512x3072 .bf16 :=
  k0_pay7 (View.ld x0 r0_0) (View.ld x1 r0_1) (View.ld x2 r0_2)

/-- The 48 stores as pieces, last first: slab g with the payload the body stores there. -/
def pieces0_3 (x0 : Vec F S512x1024 .f32) (x1 : Vec F S1024x3072 .bf16) (x2 : Vec F S3072 .f32) :
    List (View.Piece (Elt F) S48x512x64 .bf16) :=
  [⟨slab(47, inb_S48x512x64_S1x512x64_47_0_0), k0_pay6 (acc0 x0 x1 x2)⟩,
   ⟨slab(46, inb_S48x512x64_S1x512x64_46_0_0), k0_pay5 (acc0 x0 x1 x2)⟩,
   ⟨slab(45, inb_S48x512x64_S1x512x64_45_0_0), k0_pay4 (acc0 x0 x1 x2)⟩,
   ⟨slab(44, inb_S48x512x64_S1x512x64_44_0_0), k0_pay3 (acc0 x0 x1 x2)⟩,
   ⟨slab(43, inb_S48x512x64_S1x512x64_43_0_0), k0_pay2 (acc0 x0 x1 x2)⟩,
   ⟨slab(42, inb_S48x512x64_S1x512x64_42_0_0), k0_pay1 (k0_pay55 (acc0 x0 x1 x2))⟩,
   ⟨slab(41, inb_S48x512x64_S1x512x64_41_0_0), k0_pay54 (acc0 x0 x1 x2)⟩,
   ⟨slab(40, inb_S48x512x64_S1x512x64_40_0_0), k0_pay53 (acc0 x0 x1 x2)⟩,
   ⟨slab(39, inb_S48x512x64_S1x512x64_39_0_0), k0_pay52 (acc0 x0 x1 x2)⟩,
   ⟨slab(38, inb_S48x512x64_S1x512x64_38_0_0), k0_pay51 (acc0 x0 x1 x2)⟩,
   ⟨slab(37, inb_S48x512x64_S1x512x64_37_0_0), k0_pay50 (acc0 x0 x1 x2)⟩,
   ⟨slab(36, inb_S48x512x64_S1x512x64_36_0_0), k0_pay49 (acc0 x0 x1 x2)⟩,
   ⟨slab(35, inb_S48x512x64_S1x512x64_35_0_0), k0_pay48 (k0_pay47 (acc0 x0 x1 x2))⟩,
   ⟨slab(34, inb_S48x512x64_S1x512x64_34_0_0), k0_pay46 (acc0 x0 x1 x2)⟩,
   ⟨slab(33, inb_S48x512x64_S1x512x64_33_0_0), k0_pay45 (acc0 x0 x1 x2)⟩,
   ⟨slab(32, inb_S48x512x64_S1x512x64_32_0_0), k0_pay44 (acc0 x0 x1 x2)⟩,
   ⟨slab(31, inb_S48x512x64_S1x512x64_31_0_0), k0_pay43 (acc0 x0 x1 x2)⟩,
   ⟨slab(30, inb_S48x512x64_S1x512x64_30_0_0), k0_pay42 (acc0 x0 x1 x2)⟩,
   ⟨slab(29, inb_S48x512x64_S1x512x64_29_0_0), k0_pay41 (acc0 x0 x1 x2)⟩,
   ⟨slab(28, inb_S48x512x64_S1x512x64_28_0_0), k0_pay40 (acc0 x0 x1 x2)⟩,
   ⟨slab(27, inb_S48x512x64_S1x512x64_27_0_0), k0_pay39 (k0_pay38 (acc0 x0 x1 x2))⟩,
   ⟨slab(26, inb_S48x512x64_S1x512x64_26_0_0), k0_pay37 (acc0 x0 x1 x2)⟩,
   ⟨slab(25, inb_S48x512x64_S1x512x64_25_0_0), k0_pay36 (acc0 x0 x1 x2)⟩,
   ⟨slab(24, inb_S48x512x64_S1x512x64_24_0_0), k0_pay35 (acc0 x0 x1 x2)⟩,
   ⟨slab(23, inb_S48x512x64_S1x512x64_23_0_0), k0_pay34 (acc0 x0 x1 x2)⟩,
   ⟨slab(22, inb_S48x512x64_S1x512x64_22_0_0), k0_pay33 (acc0 x0 x1 x2)⟩,
   ⟨slab(21, inb_S48x512x64_S1x512x64_21_0_0), k0_pay32 (acc0 x0 x1 x2)⟩,
   ⟨slab(20, inb_S48x512x64_S1x512x64_20_0_0), k0_pay31 (k0_pay30 (acc0 x0 x1 x2))⟩,
   ⟨slab(19, inb_S48x512x64_S1x512x64_19_0_0), k0_pay29 (acc0 x0 x1 x2)⟩,
   ⟨slab(18, inb_S48x512x64_S1x512x64_18_0_0), k0_pay28 (acc0 x0 x1 x2)⟩,
   ⟨slab(17, inb_S48x512x64_S1x512x64_17_0_0), k0_pay27 (acc0 x0 x1 x2)⟩,
   ⟨slab(16, inb_S48x512x64_S1x512x64_16_0_0), k0_pay26 (acc0 x0 x1 x2)⟩,
   ⟨slab(15, inb_S48x512x64_S1x512x64_15_0_0), k0_pay25 (acc0 x0 x1 x2)⟩,
   ⟨slab(14, inb_S48x512x64_S1x512x64_14_0_0), k0_pay24 (acc0 x0 x1 x2)⟩,
   ⟨slab(13, inb_S48x512x64_S1x512x64_13_0_0), k0_pay23 (acc0 x0 x1 x2)⟩,
   ⟨slab(12, inb_S48x512x64_S1x512x64_12_0_0), k0_pay22 (k0_pay21 (acc0 x0 x1 x2))⟩,
   ⟨slab(11, inb_S48x512x64_S1x512x64_11_0_0), k0_pay20 (acc0 x0 x1 x2)⟩,
   ⟨slab(10, inb_S48x512x64_S1x512x64_10_0_0), k0_pay19 (acc0 x0 x1 x2)⟩,
   ⟨slab(9, inb_S48x512x64_S1x512x64_9_0_0), k0_pay18 (acc0 x0 x1 x2)⟩,
   ⟨slab(8, inb_S48x512x64_S1x512x64_8_0_0), k0_pay17 (acc0 x0 x1 x2)⟩,
   ⟨slab(7, inb_S48x512x64_S1x512x64_7_0_0), k0_pay16 (acc0 x0 x1 x2)⟩,
   ⟨slab(6, inb_S48x512x64_S1x512x64_6_0_0), k0_pay15 (acc0 x0 x1 x2)⟩,
   ⟨slab(5, inb_S48x512x64_S1x512x64_5_0_0), k0_pay14 (k0_pay13 (View.ld x0 r0_0) (View.ld x1 r0_1) (View.ld x2 r0_2))⟩,
   ⟨slab(4, inb_S48x512x64_S1x512x64_4_0_0), k0_pay12 (View.ld x0 r0_0) (View.ld x1 r0_1) (View.ld x2 r0_2)⟩,
   ⟨slab(3, inb_S48x512x64_S1x512x64_3_0_0), k0_pay11 (View.ld x0 r0_0) (View.ld x1 r0_1) (View.ld x2 r0_2)⟩,
   ⟨slab(2, inb_S48x512x64_S1x512x64_2_0_0), k0_pay10 (View.ld x0 r0_0) (View.ld x1 r0_1) (View.ld x2 r0_2)⟩,
   ⟨slab(1, inb_S48x512x64_S1x512x64_1_0_0), k0_pay9 (View.ld x0 r0_0) (View.ld x1 r0_1) (View.ld x2 r0_2)⟩,
   ⟨slab(0, inb_S48x512x64_S1x512x64_0_0_0), k0_pay8 (View.ld x0 r0_0) (View.ld x1 r0_1) (View.ld x2 r0_2)⟩]

/-- The output block after the body, from the three input blocks: at each index the payload of the slab holding it. -/
def out0_3 (x0 : Vec F S512x1024 .f32) (x1 : Vec F S1024x3072 .bf16) (x2 : Vec F S3072 .f32) : Vec F S48x512x64 .bf16 :=
  View.canon (pieces0_3 x0 x1 x2)

/-- The 48 slabs tile the block, so every index of the block lies in one of them. -/
theorem cover0_3 (x0 : Vec F S512x1024 .f32) (x1 : Vec F S1024x3072 .bf16) (x2 : Vec F S3072 .f32) (y : S48x512x64.Idx) :
    ∃ pc ∈ pieces0_3 x0 x1 x2, y ∈ pc.1.set :=
  View.cover_of_tiledL (pieces0_3 x0 x1 x2) S1x512x64.size (by unfold pieces0_3; sl_kernel_rfl) y

end Cert.Kernel.Hand
end
-- ==== Proof.Bits.R0Kernel.lean ====
/-
  Region 0: the body's triple.

  From the three input buffers held at contents x0, x1, x2 and the output buffer held at anything, the body runs to
  its return with the inputs as they were and the output at out0_3 x0 x1 x2. Before each store the body also loads the
  slab it is about to overwrite; no store made so far touches that slab and the loaded value is never used, so these
  loads leave nothing behind.
-/
import proofs.«143892_j7258494730873_2_alg».proof.Proof.Bits.R0Out
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

set_option maxHeartbeats 4000000 in
/-- The body on whole staging memrefs: inputs at x0, x1, x2, the output at anything, to the inputs unchanged and the
    output at out0_3 of them. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S3072 .f32) (harg3 : arg3.IsWhole)
    (arg4 : Memref sig .tc .vmem S48x512x64 .bf16) (harg4 : arg4.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _)

end Cert.Kernel.Hand
end
-- ==== Proof.Bits.Region0.lean ====
/-
  Region 0 (the fused query/key/value projection) as one pipeline's proof data, at the buffer contents V the region
  is entered with.

  Window 0 stages block i of the activations (rows 512·i … 512·i+511), windows 1 and 2 the whole weights and the
  whole bias, window 3 the output block [:, 512·i … 512·i+511, :]. After the body at point t each input buffer
  still holds its block and the output buffer holds out0_3 of the three input blocks. The invariant is the class's
  (the scoped rest and the generator register, untouched); nothing is owed; full shares.
-/
import proofs.«143892_j7258494730873_2_alg».proof.Proof.Bits.R0Kernel
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is V's and whose body leaves the block in place: where the window is not fetched its block index has
    not moved, so the block of the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the ends, the debts, the recorded pairs, the shares -/

/-- The class invariant goes in at the first point -/
theorem Phi_in0 (c : Dev nD) : Pipeline.ΦA spec0 c ⊢ (dat0 V c).Φ 0 := .rfl
/-- and comes back at the last. -/
theorem Phi_out0 (c : Dev nD) : (dat0 V c).Φ (Fin.last cfg0.N) ⊢ Pipeline.ΦA spec0 c := .rfl
/-- Nothing is owed at any point. -/
theorem owed0 (c : Dev nD) (t) : (dat0 V c).owed t = 0 := rfl
/-- The bound on the recorded pairs is the trivial one. -/
theorem recorded0 (c : Dev nD) (t) : (dat0 V c).recorded t = Set.univ := rfl
/-- Every array is held whole. -/
theorem q0 (c : Dev nD) (w) : (dat0 V c).q w = fullShare := rfl

end Cert.Kernel.Hand
end
-- ==== Proof.Bits.R1Body.lean ====
/-
  The attention region, the body's half.  One grid point handles one (batch·head, query tile) pair: the
  body reads a 512-row query block, the 2048-row key block and the 2048-row value block of the same
  packed array, and writes one 512-row output block.  This module names each window's block at a point,
  shows an input's staging buffer holds that block whether or not the point fetched it, writes what the
  body leaves in the output buffer as the reading of its single store, and runs the body symbolically.
-/
import proofs.«143892_j7258494730873_2_alg».proof.Proof.Gen.Kernel.Launch
import proofs.«143892_j7258494730873_2_alg».proof.Proof.Gen.Kernel.Skeleton
import proofs.«143892_j7258494730873_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, for any proof data whose array is `V`'s and
    whose body leaves the block in place: the window is an input, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's staging buffer holds its block at every point.  The key block depends on the batch·head
    coordinate only, so it is fetched at every fourth point; at the others the block index has not moved and the
    buffer still holds the block of this point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's staging buffer holds its block at every point, for the same reason as the key window's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_0 : Rect S1x512x64 := Rect.unit (s := S1x512x64) ![0, 0, 0] S1x512x64.size inb_S1x512x64_S1x512x64_0_0_0
abbrev r1_1 : Rect S1x2048x64 := Rect.unit (s := S1x2048x64) ![0, 0, 0] S1x2048x64.size inb_S1x2048x64_S1x2048x64_0_0_0

/-! ## What the body leaves in the output window's buffer -/

/-- The output staging buffer after the body, from the three input blocks: the reading of its one store, whose
    value is the body's arithmetic on what the three loads returned. -/
def out1_3 (x0 : Vec F S1x512x64 .bf16) (x1 : Vec F S1x2048x64 .bf16) (x2 : Vec F S1x2048x64 .bf16) : Vec F S1x512x64 .bf16 :=
  View.canon [⟨r1_0, k1_pay1 (View.ld x0 r1_0) (View.ld x1 r1_1) (View.ld x2 r1_1)⟩]

/-- The one store takes the whole buffer, so it covers it. -/
theorem cover1_3 (p0 : Vec F S1x512x64 .bf16) (y : S1x512x64.Idx) :
    ∃ pc ∈ ([⟨r1_0, p0⟩] : List (View.Piece (Elt F) S1x512x64 .bf16)), y ∈ pc.1.set :=
  View.cover_of_tiled [⟨r1_0, p0⟩] S1x512x64.size (by rfl) y

/-! ## The body's triple -/

set_option maxHeartbeats 1000000 in
/-- The body on whole staging memrefs, the inputs' at contents `x0 x1 x2` and the output's at anything, runs to the
    continuation holding the inputs' as they were and the output's at `out1_3` of them.  The body also loads the
    output buffer before storing to it; the value read is not used. -/
theorem sound_kernel1 (c : Dev nD) (E : Set ℕ) (i : grid1.Coords)
    (arg0 : Memref sig .tc .vmem S1x512x64 .bf16) (harg0 : arg0.IsWhole)
    (arg1 : Memref sig .tc .vmem S1x2048x64 .bf16) (harg1 : arg1.IsWhole)
    (arg2 : Memref sig .tc .vmem S1x2048x64 .bf16) (harg2 : arg2.IsWhole)
    (arg3 : Memref sig .tc .vmem S1x512x64 .bf16) (harg3 : arg3.IsWhole)
    (x0 : Vec F S1x512x64 .bf16) (x1 : Vec F S1x2048x64 .bf16) (x2 : Vec F S1x2048x64 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

end Cert.Kernel.Hand
end
-- ==== Proof.Bits.Region1.lean ====
/-
  The attention region, the frame half.  The proof data of the region on one core: the arrays as the
  region finds them; after the body at a point each input buffer still at its block and the output buffer
  at the body's result on the three input blocks; the invariant of a body that keeps no state between
  points; nothing owed.  The query, key and value windows stage blocks of one and the same array, so the
  share of it each window holds is a parameter here; the body itself only ever touches the staging
  buffers, which it holds whole, so nothing below depends on that choice.
-/
import proofs.«143892_j7258494730873_2_alg».proof.Proof.Bits.R1Body
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The region's proof data -/

/-- The proof data of the attention region on core `c`, the windows' shares of their arrays being `q1`. -/
def dat1 (q1 : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

variable (q1 : Fin cfg1.W → PosShare TreeShare)

/-- The proof data's arrays are the region-entry contents. -/
theorem A_eq1 (c : Dev nD) (w : Fin cfg1.W) : (dat1 V q1 c).A w = V c (Pipeline.arrRef spec1 w) := by
  dsimp only [dat1]

/-- What the body leaves, window by window. -/
theorem after1_0 (c : Dev nD) (t : Fin cfg1.N) : (dat1 V q1 c).after 0 t = iblk1 V c 0 t := by dsimp only [dat1]
theorem after1_1 (c : Dev nD) (t : Fin cfg1.N) : (dat1 V q1 c).after 1 t = iblk1 V c 1 t := by dsimp only [dat1]
theorem after1_2 (c : Dev nD) (t : Fin cfg1.N) : (dat1 V q1 c).after 2 t = iblk1 V c 2 t := by dsimp only [dat1]
theorem after1_3 (c : Dev nD) (t : Fin cfg1.N) :
    (dat1 V q1 c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V q1 c).before 0 t d = iblk1 V c 0 t :=
  before1_0_of V (dat1 V q1 c) (A_eq1 V q1 c 0) (after1_0 V q1 c) t d
theorem before1_1 (c : Dev nD) (t : Fin cfg1.N) (d) : (dat1 V q1 c).before 1 t d = iblk1 V c 1 t :=
  before1_1_of V (dat1 V q1 c) (A_eq1 V q1 c 1) (after1_1 V q1 c) t d
theorem before1_2 (c : Dev nD) (t : Fin cfg1.N) (d) : (dat1 V q1 c).before 2 t d = iblk1 V c 2 t :=
  before1_2_of V (dat1 V q1 c) (A_eq1 V q1 c 2) (after1_2 V q1 c) t d

/-! ## The body obligation, at a generic point -/

/-- What the body is called with at point `t`, the windows one by one, -/
def bodyPre1 (c : Dev nD) (t : Fin cfg1.N) : sProp 𝕄 :=
  iprop((dat1 V q1 c).Φ t.castSucc ∗ (dat1 V q1 c).owesAt () t.castSucc
    ∗ (∃ d, owns (c : Thread nD τ) (st1_0 t) fullShare ((dat1 V q1 c).before 0 t d))
    ∗ (∃ d, owns (c : Thread nD τ) (st1_1 t) fullShare ((dat1 V q1 c).before 1 t d))
    ∗ (∃ d, owns (c : Thread nD τ) (st1_2 t) fullShare ((dat1 V q1 c).before 2 t d))
    ∗ (∃ d, owns (c : Thread nD τ) (st1_3 t) fullShare ((dat1 V q1 c).before 3 t d)))

/-- and what it returns. -/
def bodyPost1 (c : Dev nD) (t : Fin cfg1.N) : sProp 𝕄 :=
  iprop((dat1 V q1 c).Φ t.succ ∗ (dat1 V q1 c).owesAt () t.succ
    ∗ owns (c : Thread nD τ) (st1_0 t) fullShare ((dat1 V q1 c).after 0 t)
    ∗ owns (c : Thread nD τ) (st1_1 t) fullShare ((dat1 V q1 c).after 1 t)
    ∗ owns (c : Thread nD τ) (st1_2 t) fullShare ((dat1 V q1 c).after 2 t)
    ∗ owns (c : Thread nD τ) (st1_3 t) fullShare ((dat1 V q1 c).after 3 t))

/-- The body at any point: the inputs' memrefs hold their blocks, so the body's triple applies; the invariant
    and what the core owes pass through unread. -/
theorem sound_body1 (c : Dev nD) (t : Fin cfg1.N) :
    bodyPre1 V q1 c t ⊢ wp frame (wpE (defs₀ (F := F)) Variants.none c none) Set.univ (bodyAt1 t) (fun _ => bodyPost1 V q1 c t) := by
  unfold bodyPre1 bodyPost1 bodyAt1
  simp only [before1_0, before1_1, before1_2]
  rw [show (dat1 V q1 c).Φ t.succ = (dat1 V q1 c).Φ t.castSucc from rfl,
    show (dat1 V q1 c).owesAt () t.succ = (dat1 V q1 c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation1 (c : Dev nD) : BodyObligation (dat1 (F := F) V q1 c) (defs₀ (F := F)) Variants.none () Set.univ := fun t => by
  rw [bigSep_W1, bigSep_W1]
  exact sound_body1 V q1 c t

/-! ## The invariant at the ends, and what is owed -/

/-- The invariant goes in at the first point as it is, -/
theorem Phi_in1 (c : Dev nD) : Pipeline.ΦA spec1 c ⊢ (dat1 (F := F) V q1 c).Φ 0 := .rfl

/-- and comes back at the last. -/
theorem Phi_out1 (c : Dev nD) : (dat1 (F := F) V q1 c).Φ (Fin.last cfg1.N) ⊢ Pipeline.ΦA spec1 c := .rfl

/-- The core owes nothing at any point. -/
theorem owed1 (c : Dev nD) (t) : (dat1 (F := F) V q1 c).owed t = 0 := rfl

/-- No bound is put on what the core's waits have recorded. -/
theorem recorded1 (c : Dev nD) (t) : (dat1 (F := F) V q1 c).recorded t = Set.univ := rfl

/-- Each window holds of its array the share it was dealt. -/
theorem q1_eq (c : Dev nD) (w) : (dat1 (F := F) V q1 c).q w = q1 w := rfl

end Cert.Kernel.Hand
end
-- ==== Proof.Bits.R2Runs.lean ====
import proofs.«143892_j7258494730873_2_alg».proof.Proof.Gen.Kernel.Launch
import proofs.«143892_j7258494730873_2_alg».proof.Proof.Gen.Kernel.Skeleton
import proofs.«143892_j7258494730873_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions -/

/-- The condition of the body's first conditional (the head coordinate is 0), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 16) — decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second conditional (the head coordinate is 15), from the grid coordinates. -/
abbrev cond2_1 (i : grid2.Coords) : Prop := k2_cond2 i = 1#1
/-- It holds at the points ≡ 15 (mod 16) — decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- At the first head the configuration calls output 3 idle: nothing is stored into it. -/
theorem idleAt2_3_A : ∀ t : Fin cfg2.N, cond2_0 (grid2.coords t) → ¬cond2_1 (grid2.coords t) → cfg2.idle 3 (grid2.coords t) = true := by decide +kernel
/-- and its block is not written back there. -/
theorem noFlush2_3_A : ∀ t : Fin cfg2.N, cond2_0 (grid2.coords t) → ¬cond2_1 (grid2.coords t) → (cfg2.win 3).flush t = false := by decide +kernel
/-- The same at a middle head. -/
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At the last head output 3 is live: the body stores into it. -/
theorem liveAt2_3_C : ∀ t : Fin cfg2.N, ¬cond2_0 (grid2.coords t) → cond2_1 (grid2.coords t) → cfg2.idle 3 (grid2.coords t) = false := by decide +kernel

/-! ## The staging memrefs and the scratch -/

/-- One staging buffer of output window 3, through which its contents are stated. -/
abbrev VO2_3 : View sig .tc .vmem S512x1024 .f32 := (Memref.whole cc2_stg3_0 : Memref sig .tc .vmem S512x1024 .f32).view
abbrev ms2_0 (t : Fin cfg2.N) : Memref sig .tc .vmem S1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The scratch operand: a whole scoped buffer of the kernel's own, passed beside the windows. -/
abbrev scM2_0 : Memref sig .tc .vmem S512x1024 .f32 := Memref.whole cc2_scratch0
/-- The carried scratch as a view: what it holds is stated through it. -/
abbrev VS2_0 : View sig .tc .vmem S512x1024 .f32 := scM2_0.view

/-- The scoped buffers of the other two calls, each whole at some contents: they ride through the region untouched. -/
def Oth2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant opened: the other calls' scoped buffers, the scratch as a memref owned at some contents, the generator register. -/
theorem PhiA2_open (c : Dev nD) :
    (Pipeline.ΦA spec2 c : sProp 𝕄) ⊢ iprop(Oth2 (F := F) c ∗ (∃ d, owns (c : Thread nD τ) scM2_0 fullShare d) ∗ (∃ r, prngReg c r)) := by
  unfold Pipeline.ΦA Oth2; rw [scopedRest2_eq]; simp only [scM2_0, owns_whole]
  iintro ⟨⟨G0, G1, G2, G3, G4, G5, G6, G7, G8, G9, G10, G11, G12, G13, HS⟩, Hg⟩
  isplitl [G0 G1 G2 G3 G4 G5 G6 G7 G8 G9 G10 G11 G12 G13]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    iexact G13
  isplitl [HS]; · iexact HS
  iexact Hg

/-- and closed again. -/
theorem PhiA2_close (c : Dev nD) :
    iprop(Oth2 (F := F) c ∗ (∃ d, owns (c : Thread nD τ) scM2_0 fullShare d) ∗ (∃ r, prngReg c r)) ⊢ (Pipeline.ΦA spec2 c : sProp 𝕄) := by
  unfold Pipeline.ΦA Oth2; rw [scopedRest2_eq]; simp only [scM2_0, owns_whole]
  iintro ⟨⟨G0, G1, G2, G3, G4, G5, G6, G7, G8, G9, G10, G11, G12, G13⟩, HS, Hg⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    iexact HS
  iexact Hg

end Cert.Kernel.Hand

end
-- ==== Proof.Bits.R2RunA.lean ====
import proofs.«143892_j7258494730873_2_alg».proof.Proof.Bits.R2Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the body's stores leave in output 3's staging memref and in the scratch, as pieces (last first), in this case of the two
    conditionals, with the proof that on whole memrefs — the inputs' at their contents, the idle output's at contents handed back untouched, the scratch
    at anything — the body runs to the continuation holding the inputs' as they were and each stored buffer with its pieces written. -/
noncomputable def kernelRun2_A (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S1x64x1024 .bf16) (x2 : Vec F S1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__outproj_kernel i arg2 harg2 arg3 harg3 arg4 harg4 arg5 harg5 arg6 harg6) K } := by
  refine ⟨[], ?_, fun xi3 E K => ?run⟩
  case run =>
    simp only [cc2__outproj_kernel_eq_skeleton]; unfold cc2__outproj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Bits.R2RunB.lean ====
import proofs.«143892_j7258494730873_2_alg».proof.Proof.Bits.R2RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the body's stores leave in output 3's staging memref and in the scratch, as pieces (last first), in this case of the two
    conditionals, with the proof that on whole memrefs — the inputs' at their contents, the idle output's at contents handed back untouched, the scratch
    at what the point before left — the body runs to the continuation holding the inputs' as they were and each stored buffer with its pieces written. -/
noncomputable def kernelRun2_B (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S1x64x1024 .bf16) (x2 : Vec F S1024 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__outproj_kernel i arg2 harg2 arg3 harg3 arg4 harg4 arg5 harg5 arg6 harg6) K } := by
  refine ⟨[], ?_, fun xi3 E K => ?run⟩
  case run =>
    simp only [cc2__outproj_kernel_eq_skeleton]; unfold cc2__outproj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Bits.R2RunC.lean ====
import proofs.«143892_j7258494730873_2_alg».proof.Proof.Bits.R2RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the body's stores leave in output 3's staging memref and in the scratch, as pieces (last first), in this case of the two
    conditionals, with the proof that on whole memrefs — the inputs' at their contents, the output's at anything, the scratch
    at what the point before left — the body runs to the continuation holding the inputs' as they were and each stored buffer with its pieces written. -/
noncomputable def kernelRun2_C (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S1x64x1024 .bf16) (x2 : Vec F S1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__outproj_kernel i arg2 harg2 arg3 harg3 arg4 harg4 arg5 harg5 arg6 harg6) K } := by
  refine ⟨?_, ?_, fun E K => ?run⟩
  case run =>
    simp only [cc2__outproj_kernel_eq_skeleton]; unfold cc2__outproj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.Bits.R2Data.lean ====
import proofs.«143892_j7258494730873_2_alg».proof.Proof.Bits.R2RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## What each case of the two conditionals leaves in the output's buffer and in the scratch -/

/-- This case stores nothing into output 3 (the window is idle there and not written back): a placeholder nothing consults. -/
def out2_A_3 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S1x64x1024 .bf16) (x2 : Vec F S1024 .f32) : Vec F S512x1024 .f32 :=
  VO2_3.read (Elt F) (VO2_3.writes (Elt F) VO2_3.junk (kernelRun2_A c i arg2 harg2 arg3 harg3 arg4 harg4 arg5 harg5 arg6 harg6 hc0 hc1 x0 x1 x2).1)

/-- The pieces this case stores into the carried scratch cover it. -/
theorem scover2_A_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S1x64x1024 .bf16) (x2 : Vec F S1024 .f32) (y : S512x1024.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S512x1024.size (by sl_kernel_rfl) y

/-- What this case leaves in the carried scratch: its pieces read back. -/
def sout2_A_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S1x64x1024 .bf16) (x2 : Vec F S1024 .f32) : Vec F S512x1024 .f32 :=
  VS2_0.read (Elt F) (VS2_0.writes (Elt F) VS2_0.junk (kernelRun2_A c i arg2 harg2 arg3 harg3 arg4 harg4 arg5 harg5 arg6 harg6 hc0 hc1 x0 x1 x2).2.1)

/-- This case stores nothing into output 3 (the window is idle there and not written back): a placeholder nothing consults. -/
def out2_B_3 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S1x64x1024 .bf16) (x2 : Vec F S1024 .f32) (xs0 : Vec F S512x1024 .f32) : Vec F S512x1024 .f32 :=
  VO2_3.read (Elt F) (VO2_3.writes (Elt F) VO2_3.junk (kernelRun2_B c i arg2 harg2 arg3 harg3 arg4 harg4 arg5 harg5 arg6 harg6 hc0 hc1 x0 x1 x2 xs0).1)

/-- The pieces this case stores into the carried scratch cover it. -/
theorem scover2_B_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S1x64x1024 .bf16) (x2 : Vec F S1024 .f32) (xs0 : Vec F S512x1024 .f32) (y : S512x1024.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S512x1024.size (by sl_kernel_rfl) y

/-- What this case leaves in the carried scratch: its pieces read back. -/
def sout2_B_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S1x64x1024 .bf16) (x2 : Vec F S1024 .f32) (xs0 : Vec F S512x1024 .f32) : Vec F S512x1024 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- At the last head the pieces stored into output 3 tile its block, so they cover it. -/
theorem cover2_C_3 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S1x64x1024 .bf16) (x2 : Vec F S1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S512x1024.size (by sl_kernel_rfl) y

/-- What the last head leaves in output 3's staging buffer: its pieces read back. -/
def out2_C_3 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S1x64x1024 .bf16) (x2 : Vec F S1024 .f32) (xs0 : Vec F S512x1024 .f32) : Vec F S512x1024 .f32 :=
  VO2_3.read (Elt F) (VO2_3.writes (Elt F) VO2_3.junk (kernelRun2_C c i arg2 harg2 arg3 harg3 arg4 harg4 arg5 harg5 arg6 harg6 hc0 hc1 x0 x1 x2 xs0).1)

/-- The pieces this case stores into the carried scratch cover it. -/
theorem scover2_C_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S1x64x1024 .bf16) (x2 : Vec F S1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S512x1024.size (by sl_kernel_rfl) y

/-- What this case leaves in the carried scratch: its pieces read back. -/
def sout2_C_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S1x64x1024 .bf16) (x2 : Vec F S1024 .f32) (xs0 : Vec F S512x1024 .f32) : Vec F S512x1024 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output's buffer and the scratch hold after each point -/

/-- The accumulation. What output 3's staging buffer and the carried scratch hold after the body at position `n` (a pair): the case
    the closed forms select at `n`, run at the point's memrefs and input blocks, the scratch read at what position `n - 1` left. -/
def outsAt2 (c : Dev nD) : (n : ℕ) → n < cfg2.N → Vec F S512x1024 .f32 × Vec F S512x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 16 = 0 then
      if h1 : (n + 1) % 16 = 15 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 16 = 15 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a first head: that case's contents. -/
theorem outsAt2_A (c : Dev nD) (t : Fin cfg2.N) (h0 : t.val % 16 = 0) (h1 : ¬t.val % 16 = 15) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a middle head: that case's contents, over what the point before left. -/
theorem outsAt2_B (c : Dev nD) (t : Fin cfg2.N) (h0 : ¬t.val % 16 = 0) (h1 : ¬t.val % 16 = 15) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a last head: that case's contents, over what the point before left. -/
theorem outsAt2_C (c : Dev nD) (t : Fin cfg2.N) (h0 : ¬t.val % 16 = 0) (h1 : t.val % 16 = 15) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the other calls' scoped buffers at
    anything, the carried scratch at what the point before left in it, and the generator register at some state. -/
def PhiS2 (c : Dev nD) : (n : ℕ) → n ≤ cfg2.N → sProp 𝕄
  | 0, _ => Pipeline.ΦA spec2 c
  | n + 1, hn => iprop(Oth2 (F := F) c ∗ owns (c : Thread nD τ) scM2_0 fullShare ((outsAt2 V c n hn).2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(Oth2 (F := F) c ∗ owns (c : Thread nD τ) scM2_0 fullShare ((outsAt2 V c n hn).2) ∗ (∃ r, prngReg c r)) := rfl

theorem PhiS2_pos (c : Dev nD) (n : ℕ) (h : n ≤ cfg2.N) (hz : n ≠ 0) :
    PhiS2 V c n h = iprop(Oth2 (F := F) c ∗ owns (c : Thread nD τ) scM2_0 fullShare ((outsAt2 V c (n - 1) (by omega)).2) ∗ (∃ r, prngReg c r)) := by
  cases n with
  | zero => exact absurd rfl hz
  | succ n => rfl

/-! ## The pipeline's proof data -/

/-- The proof data of the pipeline on core `c`: the arrays as the region finds them (`V`); after the body at point `t` each input's
    buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem owed2 (c : Dev nD) (t) : (dat2 V c).owed t = 0 := rfl
theorem recorded2 (c : Dev nD) (t) : (dat2 V c).recorded t = Set.univ := rfl
theorem q2 (c : Dev nD) (w) : (dat2 V c).q w = fullShare := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the launch hands the region is the invariant before the first point. -/
theorem Phi_in2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch's named contents are forgotten. -/
theorem Phi_out2' (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  refine BIBase.Entails.trans ?_ (PhiA2_close (F := F) c)
  iintro ⟨HOth, HS0, Hg⟩
  isplitl [HOth]; · iexact HOth
  isplitl [HS0]; · iexists _; iexact HS0
  iexact Hg

/-- The same after the last point. -/
theorem Phi_out2 (c : Dev nD) : (dat2 V c).Φ (Fin.last cfg2.N) ⊢ Pipeline.ΦA spec2 c :=
  Phi_out2' V c _ (by rw [Fin.val_last]; have : cfg2.N = 128 := N_2; omega)

end Region2

end Cert.Kernel.Hand

end
-- ==== Proof.Bits.Region2.lean ====
import proofs.«143892_j7258494730873_2_alg».proof.Proof.Bits.R2Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case of the two conditionals the point is
    in; the invariant hands the body the carried scratch at what the point before left (at anything at the first point) and takes it
    back at this point's contents; the other calls' scoped buffers, the generator register and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 16 = 0
  · by_cases h1 : t.val % 16 = 15
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz]
        iintro ⟨HΦ, Ho, ⟨%d0, H0⟩, ⟨%d1, H1⟩, ⟨%d2, H2⟩, ⟨%d3, H3⟩⟩
        ihave HΦ' := PhiA2_open (F := F) c $$ HΦ
        icases HΦ' with ⟨HOth, HS0, Hg⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HOth HS0 Hg]
        · isplitl [HOth]; · iexact HOth
          isplitl [HS0]
          · unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨HOth, HS0, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HOth HS0 Hg]
        · isplitl [HOth]; · iexact HOth
          isplitl [HS0]
          · unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 16 = 15
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨HOth, HS0, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HOth HS0 Hg]
        · isplitl [HOth]; · iexact HOth
          isplitl [HS0]
          · unfold owns; iexists _; isplitr
            swap; · iexact HS0
            ipureintro; exact View.read_writes_of_cover _ _ _ _ _ (scover2_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨HOth, HS0, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HOth HS0 Hg]
        · isplitl [HOth]; · iexact HOth
          isplitl [HS0]
          · unfold owns; iexists _; isplitr
            swap; · iexact HS0
            ipureintro; exact View.read_writes_of_cover _ _ _ _ _ (scover2_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.Bits.Assembly.lean ====
/-
  The program runs three kernel regions between short stretches of host operations:
      flatten x, narrow the two weight matrices          (host)
      region 0: the fused query/key/value projection     → the packed array  [48, 4096, 64]
      region 1: attention, one (batch, head) pair and one tile of 512 queries per grid point → [32, 2048, 64]
      cut the output weights into 16 heads               (host)
      region 2: the output projection summed over heads  → [4096, 1024]
      unflatten                                          (host)
  This module follows every buffer outside the kernels' scratch through the six items: after a host stretch a buffer holds
  what the stretch's operations make of the buffers before it; after a region, the region's output array holds what its
  write-backs left and every other buffer what it held. The three input windows of the attention region read ONE array,
  whose ownership is therefore dealt among them in three shares and put together again at the region's exit.
  The conclusion: every execution of the program ends, nothing faults, the five arguments are unchanged and the result is
  the last reshape of what region 2 left.
-/
import proofs.«143892_j7258494730873_2_alg».proof.Proof.Gen.Kernel.Launch
import proofs.«143892_j7258494730873_2_alg».proof.Proof.Gen.Kernel.Skeleton
import proofs.«143892_j7258494730873_2_alg».proof.Proof.Gen.Kernel.Points
import proofs.«143892_j7258494730873_2_alg».proof.Proof.Gen.Kernel.Regions
import proofs.«143892_j7258494730873_2_alg».proof.Proof.Bits.Region0
import proofs.«143892_j7258494730873_2_alg».proof.Proof.Bits.Region1
import proofs.«143892_j7258494730873_2_alg».proof.Proof.Bits.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The buffers' contents between the items of @main -/

variable (m : (ℓ : Loc nD τ sig) → Buf (Elt F) ℓ)

/-- the shares of the attention region's windows: the three input windows read one array, whose full share is dealt
    left, right-left, right-right; the output window's entry is not read -/
def q1 : Fin cfg1.W → PosShare TreeShare
  | ⟨0, _⟩ => fullShare.left
  | ⟨1, _⟩ => fullShare.right.left
  | ⟨2, _⟩ => fullShare.right.right
  | _ => fullShare

/-- entry contents of region 0, read at the TensorCore's references -/
abbrev E1 : (c : Dev nD) → (b : Ref sig .tc) → Buf (Elt F) ((c : Thread nD τ).loc b) := fun c b => V1 m c b
/-- what region 0 leaves in its output array -/
def X2 (c : Dev nD) : Buf (Elt F) ((c : Thread nD τ).loc main_v3) := (dat0 (E1 m) c).arrAt 3 cfg0.N
def U2 (c : Dev nD) : Valuation τ sig (Elt F) := Function.update (V1 m c) main_v3 (X2 m c)
abbrev E2 : (c : Dev nD) → (b : Ref sig .tc) → Buf (Elt F) ((c : Thread nD τ).loc b) := fun c b => U2 m c b
def X3 (c : Dev nD) : Buf (Elt F) ((c : Thread nD τ).loc main_v4) := (dat1 (E2 m) q1 c).arrAt 3 cfg1.N
def U3 (c : Dev nD) : Valuation τ sig (Elt F) := Function.update (U2 m c) main_v4 (X3 m c)
def U4 (c : Dev nD) : Valuation τ sig (Elt F) := StableHlo.after hostOps2 (U3 m c)
abbrev E4 : (c : Dev nD) → (b : Ref sig .tc) → Buf (Elt F) ((c : Thread nD τ).loc b) := fun c b => U4 m c b
def X5 (c : Dev nD) : Buf (Elt F) ((c : Thread nD τ).loc main_v6) := (dat2 (E4 m) c).arrAt 3 cfg2.N
def U5 (c : Dev nD) : Valuation τ sig (Elt F) := Function.update (U4 m c) main_v6 (X5 m c)
def U6 (c : Dev nD) : Valuation τ sig (Elt F) := StableHlo.after hostOps3 (U5 m c)

/-- the regions' results as the conditional frame's unknowns -/
def outs : Outs (F := F) := fun n r c => match n with
  | 2 => U2 m c r
  | 3 => U3 m c r
  | 5 => U5 m c r
  | _ => V0 m c r

theorem U2_self (c : Dev nD) : U2 m c main_v3 = X2 m c := by unfold U2; exact Function.update_self ..
theorem U3_self (c : Dev nD) : U3 m c main_v4 = X3 m c := by unfold U3; exact Function.update_self ..
theorem U5_self (c : Dev nD) : U5 m c main_v6 = X5 m c := by unfold U5; exact Function.update_self ..
theorem V2_eq (c : Dev nD) : V2 m (outs m) c = U2 m c :=
  congrArg (Function.update (V1 m c) main_v3) (U2_self m c)
theorem V3_eq (c : Dev nD) : V3 m (outs m) c = U3 m c := by
  show Function.update (V2 m (outs m) c) main_v4 (U3 m c main_v4) = U3 m c
  rw [V2_eq]; exact congrArg (Function.update (U2 m c) main_v4) (U3_self m c)
theorem V4_eq (c : Dev nD) : V4 m (outs m) c = U4 m c := by
  show StableHlo.after hostOps2 (V3 m (outs m) c) = _; rw [V3_eq]; rfl
theorem V5_eq (c : Dev nD) : V5 m (outs m) c = U5 m c := by
  show Function.update (V4 m (outs m) c) main_v6 (U5 m c main_v6) = U5 m c
  rw [V4_eq]; exact congrArg (Function.update (U4 m c) main_v6) (U5_self m c)
theorem V6_eq (c : Dev nD) : V6 m (outs m) c = U6 m c := by
  show StableHlo.after hostOps3 (V5 m (outs m) c) = _; rw [V5_eq]; rfl

/-- every pipeline's proof data, each at its region's entry contents -/
def pdats : (p : Fin 3) → (c : Dev nD) → Dat τ (Elt F) Unit ℕ (UR sig nD τ) ℕ (cfgs p) c
  | ⟨0, _⟩ => fun c => dat0 (E1 m) c
  | ⟨1, _⟩ => fun c => dat1 (E2 m) q1 c
  | ⟨2, _⟩ => fun c => dat2 (E4 m) c

theorem U2_of (c : Dev nD) (b : Ref sig .tc) (h : b ≠ main_v3) : U2 m c b = V1 m c b := by
  unfold U2; exact Function.update_of_ne (StableHlo.devRef_ne_of_ne h) ..
theorem U3_of (c : Dev nD) (b : Ref sig .tc) (h : b ≠ main_v4) : U3 m c b = U2 m c b := by
  unfold U3; exact Function.update_of_ne (StableHlo.devRef_ne_of_ne h) ..
theorem U5_of (c : Dev nD) (b : Ref sig .tc) (h : b ≠ main_v6) : U5 m c b = U4 m c b := by
  unfold U5; exact Function.update_of_ne (StableHlo.devRef_ne_of_ne h) ..

/-- At a region's exit its input arrays hold what they held (never written) and its output array what the write-backs left. -/
theorem hF0 (c : Dev nD) (w : Fin cfg0.W) : (pdats m 0 c).arrAt w cfg0.N = U2 m c (Pipeline.arrRef spec0 w) := by
  match w with
  | ⟨0, _⟩ => exact ((dat0 (E1 m) c).arrAt_in 0 rfl _).trans ((A_eq0 (E1 m) c 0).trans (U2_of m c main_v0 (by decide)).symm)
  | ⟨1, _⟩ => exact ((dat0 (E1 m) c).arrAt_in 1 rfl _).trans ((A_eq0 (E1 m) c 1).trans (U2_of m c main_v1 (by decide)).symm)
  | ⟨2, _⟩ => exact ((dat0 (E1 m) c).arrAt_in 2 rfl _).trans ((A_eq0 (E1 m) c 2).trans (U2_of m c main_arg2 (by decide)).symm)
  | ⟨3, _⟩ => exact (U2_self m c).symm
theorem hrest0 (c : Dev nD) : ∀ b, b ∉ Finset.univ.image (Pipeline.arrRef spec0) → U2 m c b = E1 m c b :=
  fun b hb => U2_of m c b fun h => hb (by subst h; exact Finset.mem_image.mpr ⟨3, Finset.mem_univ _, rfl⟩)

theorem hF1 (c : Dev nD) (w : Fin cfg1.W) : (pdats m 1 c).arrAt w cfg1.N = U3 m c (Pipeline.arrRef spec1 w) := by
  match w with
  | ⟨0, _⟩ => exact ((dat1 (E2 m) q1 c).arrAt_in 0 rfl _).trans ((A_eq1 (E2 m) q1 c 0).trans (U3_of m c main_v3 (by decide)).symm)
  | ⟨1, _⟩ => exact ((dat1 (E2 m) q1 c).arrAt_in 1 rfl _).trans ((A_eq1 (E2 m) q1 c 1).trans (U3_of m c main_v3 (by decide)).symm)
  | ⟨2, _⟩ => exact ((dat1 (E2 m) q1 c).arrAt_in 2 rfl _).trans ((A_eq1 (E2 m) q1 c 2).trans (U3_of m c main_v3 (by decide)).symm)
  | ⟨3, _⟩ => exact (U3_self m c).symm
theorem hrest1 (c : Dev nD) : ∀ b, b ∉ Finset.univ.image (Pipeline.arrRef spec1) → U3 m c b = E2 m c b :=
  fun b hb => U3_of m c b fun h => hb (by subst h; exact Finset.mem_image.mpr ⟨3, Finset.mem_univ _, rfl⟩)

theorem hF2 (c : Dev nD) (w : Fin cfg2.W) : (pdats m 2 c).arrAt w cfg2.N = U5 m c (Pipeline.arrRef spec2 w) := by
  match w with
  | ⟨0, _⟩ => exact ((dat2 (E4 m) c).arrAt_in 0 rfl _).trans ((A_eq2 (E4 m) c 0).trans (U5_of m c main_v4 (by decide)).symm)
  | ⟨1, _⟩ => exact ((dat2 (E4 m) c).arrAt_in 1 rfl _).trans ((A_eq2 (E4 m) c 1).trans (U5_of m c main_v5 (by decide)).symm)
  | ⟨2, _⟩ => exact ((dat2 (E4 m) c).arrAt_in 2 rfl _).trans ((A_eq2 (E4 m) c 2).trans (U5_of m c main_arg4 (by decide)).symm)
  | ⟨3, _⟩ => exact (U5_self m c).symm
theorem hrest2 (c : Dev nD) : ∀ b, b ∉ Finset.univ.image (Pipeline.arrRef spec2) → U5 m c b = E4 m c b :=
  fun b hb => U5_of m c b fun h => hb (by subst h; exact Finset.mem_image.mpr ⟨3, Finset.mem_univ _, rfl⟩)

/-! ## The thread state between items, and the regions as segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
def R (c : Dev nD) : sProp 𝕄 := iprop((∃ r, prngReg c r) ∗ ∃ W, owes (c : Thread nD τ) (0 : CellTallies nD τ sig Unit) W)
abbrev E : Fin 4 → Dev nD → sProp 𝕄 := fun _ c => R c

/-- The two buffers behind the attention region's four windows are the region's arrays at the dealt shares: the
    projected array's full share splits left / right-left / right-right among the three windows that read it. -/
theorem arrays1_iff (c : Dev nD) (Vv : (b : Ref sig .tc) → Buf (Elt F) ((c : Thread nD τ).loc b))
    (dat : Dat τ (Elt F) Unit ℕ (UR sig nD τ) ℕ cfg1 c) (hq : ∀ w, dat.q w = q1 w)
    (Fa : (w : Fin cfg1.W) → Buf (Elt F) ((cfg1.win w).arr.view.loc (c : Thread nD τ)))
    (h0 : Fa 0 = Vv main_v3) (h1 : Fa 1 = Vv main_v3) (h2 : Fa 2 = Vv main_v3) (h3 : Fa 3 = Vv main_v4) :
    (Pipeline.arrBufs spec1 c Vv : sProp 𝕄) ⊣⊢ dat.arrays Fa := by
  have s0 : dat.share 0 = fullShare.left := by unfold Pipeline.Dat.share; rw [if_neg (by decide), hq]; rfl
  have s1 : dat.share 1 = fullShare.right.left := by unfold Pipeline.Dat.share; rw [if_neg (by decide), hq]; rfl
  have s2 : dat.share 2 = fullShare.right.right := by unfold Pipeline.Dat.share; rw [if_neg (by decide), hq]; rfl
  have s3 : dat.share 3 = fullShare := by unfold Pipeline.Dat.share; rw [if_pos (by decide)]
  unfold Pipeline.Dat.arrays Pipeline.arrBufs
  rw [bigSep_W1]
  rw [show Finset.univ.image (Pipeline.arrRef spec1) = {main_v3, main_v4} from by decide]
  rw [BI.bigSep_insert (by decide : main_v3 ∉ ({main_v4} : Finset (Ref sig .tc))), BI.bigSep_singleton]
  rw [(arr_whole1 0).set_eq_univ, (arr_whole1 3).set_eq_univ]
  rw [s0, s1, s2, s3, h0, h1, h2, h3]
  change iprop(_ ∗ _) ⊣⊢ _
  have e1 := pointsTo_share (Ix := Unit) (Name := ℕ) (U := UR sig nD τ) (Lvl := ℕ) (ℓ := (c : Thread nD τ).loc main_v3) (I := Finset.univ) (f := Vv main_v3)
    (PosShare.mem_left_op_right fullShare)
  have e2 := pointsTo_share (Ix := Unit) (Name := ℕ) (U := UR sig nD τ) (Lvl := ℕ) (ℓ := (c : Thread nD τ).loc main_v3) (I := Finset.univ) (f := Vv main_v3)
    (PosShare.mem_left_op_right fullShare.right)
  have e1l := e1.1
  have e1r := e1.2
  have e2l := e2.1
  have e2r := e2.2
  constructor
  · iintro ⟨Hx, Hy⟩
    ihave H := e1l $$ Hx
    icases H with ⟨Hl, Hr⟩
    ihave H' := e2l $$ Hr
    icases H' with ⟨Hrl, Hrr⟩
    isplitl [Hl]; · iexact Hl
    isplitl [Hrl]; · iexact Hrl
    isplitl [Hrr]; · iexact Hrr
    iexact Hy
  · iintro ⟨Hl, Hrl, Hrr, Hy⟩
    isplitr [Hy]
    · iapply e1r
      isplitl [Hl]; · iexact Hl
      iapply e2r
      isplitl [Hrl]; · iexact Hrl
      iexact Hrr
    iexact Hy

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun c t => owed0 (E1 m) c t
  pre c := iprop(StableHlo.held (c : Thread nD τ) (Pipeline.ucRefs τ sig) (V1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    unfold R
    rw [Pipeline.ownSems0_none]
    have hsplit := Pipeline.arrays_of_unscopedBufs (p := 0) (pcfgs (F := F)) adm (pdats m) launch0.win launch0.arr_whole c
      ((pdats m 0 c).share_full fun w => q0 (E1 m) c w) (E1 m c) fun w => A_eq0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed0 (E1 m) c 0]
      icases HO with ⟨%W, HO⟩; iexists W; isplitr
      · ipureintro; intro x _; left; show x ∈ (dat0 (E1 m) c).recorded 0; rw [recorded0]; trivial
      iexact HO
    isplitl [Hp]; · iexact Hp
    iexact Hrest
  hin c := by
    refine BIBase.Entails.trans ?_ (Phi_in0 (E1 m) c)
    unfold Pipeline.ΦA
    iintro ⟨Hp, -, Hr⟩
    isplitl [Hr]; · iexact Hr
    iexact Hp
  hout c := by
    refine (Phi_out0 (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q0 (E1 m) c w)
      (E1 m c) (fun b => U2 m c b) ((pdats m 0 c).arrAt · cfg0.N) (hF0 m c) (hrest0 m c)
    rw [Pipeline.unscopedBufs_held] at hjoin
    unfold R
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from owed0 (E1 m) c _]; iexact HO

theorem hsplit1 (c : Dev nD) :
    (StableHlo.held (c : Thread nD τ) (Pipeline.ucRefs τ sig) (U2 m c) : sProp 𝕄)
      ⊢ iprop((pdats m 1 c).arrays (pdats m 1 c).A ∗ Pipeline.unscopedRest spec1 c (E2 m c)) := by
  rw [← Pipeline.unscopedBufs_held (Ix := Unit) (Name := ℕ) (U := UR sig nD τ) (Lvl := ℕ) c (U2 m c),
    Pipeline.unscopedBufs_split₀ cfgs (1 : Fin 3) winFacts₀1.arr_unscoped c (E2 m c)]
  exact sep_mono (arrays1_iff c (E2 m c) (dat1 (E2 m) q1 c) (q1_eq (E2 m) q1 c) _
    (A_eq1 (E2 m) q1 c 0) (A_eq1 (E2 m) q1 c 1) (A_eq1 (E2 m) q1 c 2) (A_eq1 (E2 m) q1 c 3)).1 .rfl

theorem hjoin1 (c : Dev nD) :
    iprop((pdats m 1 c).arrays ((pdats m 1 c).arrAt · cfg1.N) ∗ Pipeline.unscopedRest spec1 c (E2 m c))
      ⊢ (StableHlo.held (c : Thread nD τ) (Pipeline.ucRefs τ sig) (U3 m c) : sProp 𝕄) := by
  rw [← Pipeline.unscopedBufs_held (Ix := Unit) (Name := ℕ) (U := UR sig nD τ) (Lvl := ℕ) c (U3 m c),
    Pipeline.unscopedBufs_split₀ cfgs (1 : Fin 3) winFacts₀1.arr_unscoped c (fun b => U3 m c b)]
  refine sep_mono (arrays1_iff c (fun b => U3 m c b) (dat1 (E2 m) q1 c) (q1_eq (E2 m) q1 c) _
    (hF1 m c 0) (hF1 m c 1) (hF1 m c 2) (hF1 m c 3)).2 (Entails.of_eq ?_)
  unfold Pipeline.unscopedRest
  exact bigSep_congr fun b hb => congrArg (fun f => (((c : Thread nD τ).loc b) ↦{fullShare} f : sProp 𝕄)) (hrest1 m c b (Finset.mem_sdiff.mp hb).2).symm

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) q1 c).loose
  hwaits := Pipeline.hwaits_of_owed_zero _ _ _ _ L lv 1 fun c t => owed1 (E2 m) q1 c t
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    unfold R
    rw [Pipeline.ownSems0_none]
    have hsplit := hsplit1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed1 (E2 m) q1 c 0]
      icases HO with ⟨%W, HO⟩; iexists W; isplitr
      · ipureintro; intro x _; left; show x ∈ (dat1 (E2 m) q1 c).recorded 0; rw [recorded1]; trivial
      iexact HO
    isplitl [Hp]; · iexact Hp
    iexact Hrest
  hin c := by
    refine BIBase.Entails.trans ?_ (Phi_in1 (E2 m) q1 c)
    unfold Pipeline.ΦA
    iintro ⟨Hp, -, Hr⟩
    isplitl [Hr]; · iexact Hr
    iexact Hp
  hout c := by
    refine (Phi_out1 (E2 m) q1 c).trans ?_
    rw [Pipeline.ownSems0_none]; unfold Pipeline.ΦA
    iintro ⟨Hr, Hp⟩
    isplitl [Hp]; · iexact Hp
    isplitr; · iempintro
    iexact Hr
  hexit c := by
    have hjoin := hjoin1 m c
    unfold R
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 1 c).owed (Fin.last _) = 0 from owed1 (E2 m) q1 c _]; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ L lv 2 fun c t => owed2 (E4 m) c t
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    unfold R
    rw [Pipeline.ownSems0_none]
    have hsplit := Pipeline.arrays_of_unscopedBufs (p := 2) (pcfgs (F := F)) adm (pdats m) launch2.win launch2.arr_whole c
      ((pdats m 2 c).share_full fun w => q2 (E4 m) c w) (E4 m c) fun w => A_eq2 (E4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 2 c).owed 0 = 0 from owed2 (E4 m) c 0]
      icases HO with ⟨%W, HO⟩; iexists W; isplitr
      · ipureintro; intro x _; left; show x ∈ (dat2 (E4 m) c).recorded 0; rw [recorded2]; trivial
      iexact HO
    isplitl [Hp]; · iexact Hp
    iexact Hrest
  hin c := by
    refine BIBase.Entails.trans ?_ (Phi_in2 (E4 m) c)
    unfold Pipeline.ΦA
    iintro ⟨Hp, -, Hr⟩
    isplitl [Hr]; · iexact Hr
    iexact Hp
  hout c := by
    refine (Phi_out2 (E4 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q2 (E4 m) c w)
      (E4 m c) (fun b => U5 m c b) ((pdats m 2 c).arrAt · cfg2.N) (hF2 m c) (hrest2 m c)
    rw [Pipeline.unscopedBufs_held] at hjoin
    unfold R
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 2 c).owed (Fin.last _) = 0 from owed2 (E4 m) c _]; iexact HO

/-! ## The run: @main's six items from the launch to the return -/

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (E (F := F) 0) : sProp 𝕄) := bigSep_mono fun c _ => (show (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄) ⊢ E (F := F) 0 c from by
    show _ ⊢ R c
    unfold R
    iintro ⟨-, HO, -, Hp, -⟩
    isplitl [Hp]; · iexists _; iexact Hp
    iexists ∅; iexact HO)
  iintro ⟨H, -⟩
  imodintro
  iapply hmono; iexact H

theorem hE3 (c : Dev nD) : E (F := F) 3 c ⊢ (iprop(∃ W, owes (c : Thread nD τ) (0 : CellTallies nD τ sig Unit) W) : sProp 𝕄) := by
  show R c ⊢ _
  unfold R
  iintro ⟨-, H⟩; iexact H

theorem hch4 (c : Dev nD) : (iprop(StableHlo.held (c : Thread nD τ) (Pipeline.ucRefs τ sig) (U3 m c) ∗ R c) : sProp 𝕄)
    ⊢ iprop(StableHlo.held (c : Thread nD τ) (Pipeline.ucRefs τ sig) (V3 m (outs m) c) ∗ E 2 c) := by rw [V3_eq]
theorem hch5 (c : Dev nD) : (iprop(StableHlo.held (c : Thread nD τ) (Pipeline.ucRefs τ sig) (V4 m (outs m) c) ∗ E 2 c) : sProp 𝕄)
    ⊢ iprop(StableHlo.held (c : Thread nD τ) (Pipeline.ucRefs τ sig) (U4 m c) ∗ R c) := by rw [V4_eq]
theorem hch6 (c : Dev nD) : (iprop(StableHlo.held (c : Thread nD τ) (Pipeline.ucRefs τ sig) (U5 m c) ∗ R c) : sProp 𝕄)
    ⊢ iprop(StableHlo.held (c : Thread nD τ) (Pipeline.ucRefs τ sig) (V5 m (outs m) c) ∗ E 3 c) := by rw [V5_eq]

set_option backward.isDefEq.respectTransparency.types false in
/-- Every weakly fair execution of @main from memory `m` with zero counters terminates, the result array holding what the
    last reshape makes of the third region's output, each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v7) = U6 m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m))
    (fun c Q => by
      rewrite [main_chain c, Pipeline.Seg.run_eq_chain,
        show (segs m (outs m) 𝒱₀ L lv E () (pdats m) (reg0 m) (reg1 m) (reg2 m) c).map Pipeline.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V6 m (outs m) c))
    (hch := fun c => ⟨.rfl, .rfl, .rfl, hch4 m c, hch5 m c, hch6 m c, sep_mono .rfl (hE3 c)⟩)
    (hinit := ?_) (QY := fun c s => s.mem ((c.tc : Thread nD τ).loc main_v7) = U6 m c main_v7
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h => h)
  · -- the launch: the unscoped buffers are held at the launch contents; the rest makes the riders on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact ⟨(h (Proc.devRef .tc main_v7) (Finset.mem_filter.mpr ⟨StableHlo.devRef_mem_tcRefs main_v7, by decide⟩)).trans (congrFun (V6_eq m c) _),
        (h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c),
        (h (Proc.devRef .tc main_arg2) (Finset.mem_filter.mpr ⟨StableHlo.devRef_mem_tcRefs main_arg2, by decide⟩)).trans (V6_main_arg2 m (outs m) c),
        (h (Proc.devRef .tc main_arg3) (Finset.mem_filter.mpr ⟨StableHlo.devRef_mem_tcRefs main_arg3, by decide⟩)).trans (V6_main_arg3 m (outs m) c),
        (h (Proc.devRef .tc main_arg4) (Finset.mem_filter.mpr ⟨StableHlo.devRef_mem_tcRefs main_arg4, by decide⟩)).trans (V6_main_arg4 m (outs m) c)⟩
    · iexact HSI

end Cert.Kernel.Hand
end
-- ==== Proof.R0Out.lean ====
/-
  Region 0 (the fused query/key/value projection): what the body leaves in its output block.

  The body reads its three input blocks whole — a [512,1024] block of activations, the [1024,3072] weights, the
  [3072] bias —, forms the [512,3072] product-plus-bias once, and stores it as 48 slabs: slab g of the
  [48,512,64] output block receives columns 64·g … 64·g+63 of the product. The 48 slabs are disjoint and
  together are the whole block, so whatever the buffer held before is overwritten everywhere.
-/
import proofs.«143892_j7258494730873_2_alg».proof.Proof.Gen.KernelIdeal.Launch
import proofs.«143892_j7258494730873_2_alg».proof.Proof.Gen.KernelIdeal.Skeleton
import proofs.«143892_j7258494730873_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

/-! ## The body's accesses -/

/-- The three input blocks are loaded whole. -/
abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0

/-- Slab g of the output block: the rectangle [g, 0, 0] of extent [1, 512, 64]. -/
local notation "slab(" g ", " h ")" => Rect.unit (s := S48x512x64) ![g, 0, 0] S1x512x64.size h

/-! ## What the body leaves in the output block -/

/-- The [512,3072] product plus bias, rounded to the output's format, from the three input blocks. -/
def acc0 (x0 : Vec F S512x1024 .f32) (x1 : Vec F S1024x3072 .bf16) (x2 : Vec F S3072 .f32) : FVec F S512x3072 .bf16 :=
  k0_pay7 (View.ld x0 r0_0) (View.ld x1 r0_1) (View.ld x2 r0_2)

/-- The 48 stores as pieces, last first: slab g with the payload the body stores there. -/
def pieces0_3 (x0 : Vec F S512x1024 .f32) (x1 : Vec F S1024x3072 .bf16) (x2 : Vec F S3072 .f32) :
    List (View.Piece (Elt F) S48x512x64 .bf16) :=
  [⟨slab(47, inb_S48x512x64_S1x512x64_47_0_0), k0_pay6 (acc0 x0 x1 x2)⟩,
   ⟨slab(46, inb_S48x512x64_S1x512x64_46_0_0), k0_pay5 (acc0 x0 x1 x2)⟩,
   ⟨slab(45, inb_S48x512x64_S1x512x64_45_0_0), k0_pay4 (acc0 x0 x1 x2)⟩,
   ⟨slab(44, inb_S48x512x64_S1x512x64_44_0_0), k0_pay3 (acc0 x0 x1 x2)⟩,
   ⟨slab(43, inb_S48x512x64_S1x512x64_43_0_0), k0_pay2 (acc0 x0 x1 x2)⟩,
   ⟨slab(42, inb_S48x512x64_S1x512x64_42_0_0), k0_pay1 (k0_pay55 (acc0 x0 x1 x2))⟩,
   ⟨slab(41, inb_S48x512x64_S1x512x64_41_0_0), k0_pay54 (acc0 x0 x1 x2)⟩,
   ⟨slab(40, inb_S48x512x64_S1x512x64_40_0_0), k0_pay53 (acc0 x0 x1 x2)⟩,
   ⟨slab(39, inb_S48x512x64_S1x512x64_39_0_0), k0_pay52 (acc0 x0 x1 x2)⟩,
   ⟨slab(38, inb_S48x512x64_S1x512x64_38_0_0), k0_pay51 (acc0 x0 x1 x2)⟩,
   ⟨slab(37, inb_S48x512x64_S1x512x64_37_0_0), k0_pay50 (acc0 x0 x1 x2)⟩,
   ⟨slab(36, inb_S48x512x64_S1x512x64_36_0_0), k0_pay49 (acc0 x0 x1 x2)⟩,
   ⟨slab(35, inb_S48x512x64_S1x512x64_35_0_0), k0_pay48 (k0_pay47 (acc0 x0 x1 x2))⟩,
   ⟨slab(34, inb_S48x512x64_S1x512x64_34_0_0), k0_pay46 (acc0 x0 x1 x2)⟩,
   ⟨slab(33, inb_S48x512x64_S1x512x64_33_0_0), k0_pay45 (acc0 x0 x1 x2)⟩,
   ⟨slab(32, inb_S48x512x64_S1x512x64_32_0_0), k0_pay44 (acc0 x0 x1 x2)⟩,
   ⟨slab(31, inb_S48x512x64_S1x512x64_31_0_0), k0_pay43 (acc0 x0 x1 x2)⟩,
   ⟨slab(30, inb_S48x512x64_S1x512x64_30_0_0), k0_pay42 (acc0 x0 x1 x2)⟩,
   ⟨slab(29, inb_S48x512x64_S1x512x64_29_0_0), k0_pay41 (acc0 x0 x1 x2)⟩,
   ⟨slab(28, inb_S48x512x64_S1x512x64_28_0_0), k0_pay40 (acc0 x0 x1 x2)⟩,
   ⟨slab(27, inb_S48x512x64_S1x512x64_27_0_0), k0_pay39 (k0_pay38 (acc0 x0 x1 x2))⟩,
   ⟨slab(26, inb_S48x512x64_S1x512x64_26_0_0), k0_pay37 (acc0 x0 x1 x2)⟩,
   ⟨slab(25, inb_S48x512x64_S1x512x64_25_0_0), k0_pay36 (acc0 x0 x1 x2)⟩,
   ⟨slab(24, inb_S48x512x64_S1x512x64_24_0_0), k0_pay35 (acc0 x0 x1 x2)⟩,
   ⟨slab(23, inb_S48x512x64_S1x512x64_23_0_0), k0_pay34 (acc0 x0 x1 x2)⟩,
   ⟨slab(22, inb_S48x512x64_S1x512x64_22_0_0), k0_pay33 (acc0 x0 x1 x2)⟩,
   ⟨slab(21, inb_S48x512x64_S1x512x64_21_0_0), k0_pay32 (acc0 x0 x1 x2)⟩,
   ⟨slab(20, inb_S48x512x64_S1x512x64_20_0_0), k0_pay31 (k0_pay30 (acc0 x0 x1 x2))⟩,
   ⟨slab(19, inb_S48x512x64_S1x512x64_19_0_0), k0_pay29 (acc0 x0 x1 x2)⟩,
   ⟨slab(18, inb_S48x512x64_S1x512x64_18_0_0), k0_pay28 (acc0 x0 x1 x2)⟩,
   ⟨slab(17, inb_S48x512x64_S1x512x64_17_0_0), k0_pay27 (acc0 x0 x1 x2)⟩,
   ⟨slab(16, inb_S48x512x64_S1x512x64_16_0_0), k0_pay26 (acc0 x0 x1 x2)⟩,
   ⟨slab(15, inb_S48x512x64_S1x512x64_15_0_0), k0_pay25 (acc0 x0 x1 x2)⟩,
   ⟨slab(14, inb_S48x512x64_S1x512x64_14_0_0), k0_pay24 (acc0 x0 x1 x2)⟩,
   ⟨slab(13, inb_S48x512x64_S1x512x64_13_0_0), k0_pay23 (acc0 x0 x1 x2)⟩,
   ⟨slab(12, inb_S48x512x64_S1x512x64_12_0_0), k0_pay22 (k0_pay21 (acc0 x0 x1 x2))⟩,
   ⟨slab(11, inb_S48x512x64_S1x512x64_11_0_0), k0_pay20 (acc0 x0 x1 x2)⟩,
   ⟨slab(10, inb_S48x512x64_S1x512x64_10_0_0), k0_pay19 (acc0 x0 x1 x2)⟩,
   ⟨slab(9, inb_S48x512x64_S1x512x64_9_0_0), k0_pay18 (acc0 x0 x1 x2)⟩,
   ⟨slab(8, inb_S48x512x64_S1x512x64_8_0_0), k0_pay17 (acc0 x0 x1 x2)⟩,
   ⟨slab(7, inb_S48x512x64_S1x512x64_7_0_0), k0_pay16 (acc0 x0 x1 x2)⟩,
   ⟨slab(6, inb_S48x512x64_S1x512x64_6_0_0), k0_pay15 (acc0 x0 x1 x2)⟩,
   ⟨slab(5, inb_S48x512x64_S1x512x64_5_0_0), k0_pay14 (k0_pay13 (View.ld x0 r0_0) (View.ld x1 r0_1) (View.ld x2 r0_2))⟩,
   ⟨slab(4, inb_S48x512x64_S1x512x64_4_0_0), k0_pay12 (View.ld x0 r0_0) (View.ld x1 r0_1) (View.ld x2 r0_2)⟩,
   ⟨slab(3, inb_S48x512x64_S1x512x64_3_0_0), k0_pay11 (View.ld x0 r0_0) (View.ld x1 r0_1) (View.ld x2 r0_2)⟩,
   ⟨slab(2, inb_S48x512x64_S1x512x64_2_0_0), k0_pay10 (View.ld x0 r0_0) (View.ld x1 r0_1) (View.ld x2 r0_2)⟩,
   ⟨slab(1, inb_S48x512x64_S1x512x64_1_0_0), k0_pay9 (View.ld x0 r0_0) (View.ld x1 r0_1) (View.ld x2 r0_2)⟩,
   ⟨slab(0, inb_S48x512x64_S1x512x64_0_0_0), k0_pay8 (View.ld x0 r0_0) (View.ld x1 r0_1) (View.ld x2 r0_2)⟩]

/-- The output block after the body, from the three input blocks: at each index the payload of the slab holding it. -/
def out0_3 (x0 : Vec F S512x1024 .f32) (x1 : Vec F S1024x3072 .bf16) (x2 : Vec F S3072 .f32) : Vec F S48x512x64 .bf16 :=
  View.canon (pieces0_3 x0 x1 x2)

/-- The 48 slabs tile the block, so every index of the block lies in one of them. -/
theorem cover0_3 (x0 : Vec F S512x1024 .f32) (x1 : Vec F S1024x3072 .bf16) (x2 : Vec F S3072 .f32) (y : S48x512x64.Idx) :
    ∃ pc ∈ pieces0_3 x0 x1 x2, y ∈ pc.1.set :=
  View.cover_of_tiledL (pieces0_3 x0 x1 x2) S1x512x64.size (by unfold pieces0_3; sl_kernel_rfl) y

end Cert.KernelIdeal.Hand
end
-- ==== Proof.R0Kernel.lean ====
/-
  Region 0: the body's triple.

  From the three input buffers held at contents x0, x1, x2 and the output buffer held at anything, the body runs to
  its return with the inputs as they were and the output at out0_3 x0 x1 x2. Before each store the body also loads the
  slab it is about to overwrite; no store made so far touches that slab and the loaded value is never used, so these
  loads leave nothing behind.
-/
import proofs.«143892_j7258494730873_2_alg».proof.Proof.R0Out
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

set_option maxHeartbeats 4000000 in
/-- The body on whole staging memrefs: inputs at x0, x1, x2, the output at anything, to the inputs unchanged and the
    output at out0_3 of them. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S3072 .f32) (harg3 : arg3.IsWhole)
    (arg4 : Memref sig .tc .vmem S48x512x64 .bf16) (harg4 : arg4.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _)

end Cert.KernelIdeal.Hand
end
-- ==== Proof.Region0.lean ====
/-
  Region 0 (the fused query/key/value projection) as one pipeline's proof data, at the buffer contents V the region
  is entered with.

  Window 0 stages block i of the activations (rows 512·i … 512·i+511), windows 1 and 2 the whole weights and the
  whole bias, window 3 the output block [:, 512·i … 512·i+511, :]. After the body at point t each input buffer
  still holds its block and the output buffer holds out0_3 of the three input blocks. The invariant is the class's
  (the scoped rest and the generator register, untouched); nothing is owed; full shares.
-/
import proofs.«143892_j7258494730873_2_alg».proof.Proof.R0Kernel
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is V's and whose body leaves the block in place: where the window is not fetched its block index has
    not moved, so the block of the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the ends, the debts, the recorded pairs, the shares -/

/-- The class invariant goes in at the first point -/
theorem Phi_in0 (c : Dev nD) : Pipeline.ΦA spec0 c ⊢ (dat0 V c).Φ 0 := .rfl
/-- and comes back at the last. -/
theorem Phi_out0 (c : Dev nD) : (dat0 V c).Φ (Fin.last cfg0.N) ⊢ Pipeline.ΦA spec0 c := .rfl
/-- Nothing is owed at any point. -/
theorem owed0 (c : Dev nD) (t) : (dat0 V c).owed t = 0 := rfl
/-- The bound on the recorded pairs is the trivial one. -/
theorem recorded0 (c : Dev nD) (t) : (dat0 V c).recorded t = Set.univ := rfl
/-- Every array is held whole. -/
theorem q0 (c : Dev nD) (w) : (dat0 V c).q w = fullShare := rfl

end Cert.KernelIdeal.Hand
end
-- ==== Proof.R1Body.lean ====
/-
  The attention region, the body's half.  One grid point handles one (batch·head, query tile) pair: the
  body reads a 512-row query block, the 2048-row key block and the 2048-row value block of the same
  packed array, and writes one 512-row output block.  This module names each window's block at a point,
  shows an input's staging buffer holds that block whether or not the point fetched it, writes what the
  body leaves in the output buffer as the reading of its single store, and runs the body symbolically.
-/
import proofs.«143892_j7258494730873_2_alg».proof.Proof.Gen.KernelIdeal.Launch
import proofs.«143892_j7258494730873_2_alg».proof.Proof.Gen.KernelIdeal.Skeleton
import proofs.«143892_j7258494730873_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, for any proof data whose array is `V`'s and
    whose body leaves the block in place: the window is an input, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's staging buffer holds its block at every point.  The key block depends on the batch·head
    coordinate only, so it is fetched at every fourth point; at the others the block index has not moved and the
    buffer still holds the block of this point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's staging buffer holds its block at every point, for the same reason as the key window's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_0 : Rect S1x512x64 := Rect.unit (s := S1x512x64) ![0, 0, 0] S1x512x64.size inb_S1x512x64_S1x512x64_0_0_0
abbrev r1_1 : Rect S1x2048x64 := Rect.unit (s := S1x2048x64) ![0, 0, 0] S1x2048x64.size inb_S1x2048x64_S1x2048x64_0_0_0

/-! ## What the body leaves in the output window's buffer -/

/-- The output staging buffer after the body, from the three input blocks: the reading of its one store, whose
    value is the body's arithmetic on what the three loads returned. -/
def out1_3 (x0 : Vec F S1x512x64 .bf16) (x1 : Vec F S1x2048x64 .bf16) (x2 : Vec F S1x2048x64 .bf16) : Vec F S1x512x64 .bf16 :=
  View.canon [⟨r1_0, k1_pay1 (View.ld x0 r1_0) (View.ld x1 r1_1) (View.ld x2 r1_1)⟩]

/-- The one store takes the whole buffer, so it covers it. -/
theorem cover1_3 (p0 : Vec F S1x512x64 .bf16) (y : S1x512x64.Idx) :
    ∃ pc ∈ ([⟨r1_0, p0⟩] : List (View.Piece (Elt F) S1x512x64 .bf16)), y ∈ pc.1.set :=
  View.cover_of_tiled [⟨r1_0, p0⟩] S1x512x64.size (by rfl) y

/-! ## The body's triple -/

set_option maxHeartbeats 1000000 in
/-- The body on whole staging memrefs, the inputs' at contents `x0 x1 x2` and the output's at anything, runs to the
    continuation holding the inputs' as they were and the output's at `out1_3` of them.  The body also loads the
    output buffer before storing to it; the value read is not used. -/
theorem sound_kernel1 (c : Dev nD) (E : Set ℕ) (i : grid1.Coords)
    (arg0 : Memref sig .tc .vmem S1x512x64 .bf16) (harg0 : arg0.IsWhole)
    (arg1 : Memref sig .tc .vmem S1x2048x64 .bf16) (harg1 : arg1.IsWhole)
    (arg2 : Memref sig .tc .vmem S1x2048x64 .bf16) (harg2 : arg2.IsWhole)
    (arg3 : Memref sig .tc .vmem S1x512x64 .bf16) (harg3 : arg3.IsWhole)
    (x0 : Vec F S1x512x64 .bf16) (x1 : Vec F S1x2048x64 .bf16) (x2 : Vec F S1x2048x64 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

end Cert.KernelIdeal.Hand
end
-- ==== Proof.Region1.lean ====
/-
  The attention region, the frame half.  The proof data of the region on one core: the arrays as the
  region finds them; after the body at a point each input buffer still at its block and the output buffer
  at the body's result on the three input blocks; the invariant of a body that keeps no state between
  points; nothing owed.  The query, key and value windows stage blocks of one and the same array, so the
  share of it each window holds is a parameter here; the body itself only ever touches the staging
  buffers, which it holds whole, so nothing below depends on that choice.
-/
import proofs.«143892_j7258494730873_2_alg».proof.Proof.R1Body
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The region's proof data -/

/-- The proof data of the attention region on core `c`, the windows' shares of their arrays being `q1`. -/
def dat1 (q1 : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

variable (q1 : Fin cfg1.W → PosShare TreeShare)

/-- The proof data's arrays are the region-entry contents. -/
theorem A_eq1 (c : Dev nD) (w : Fin cfg1.W) : (dat1 V q1 c).A w = V c (Pipeline.arrRef spec1 w) := by
  dsimp only [dat1]

/-- What the body leaves, window by window. -/
theorem after1_0 (c : Dev nD) (t : Fin cfg1.N) : (dat1 V q1 c).after 0 t = iblk1 V c 0 t := by dsimp only [dat1]
theorem after1_1 (c : Dev nD) (t : Fin cfg1.N) : (dat1 V q1 c).after 1 t = iblk1 V c 1 t := by dsimp only [dat1]
theorem after1_2 (c : Dev nD) (t : Fin cfg1.N) : (dat1 V q1 c).after 2 t = iblk1 V c 2 t := by dsimp only [dat1]
theorem after1_3 (c : Dev nD) (t : Fin cfg1.N) :
    (dat1 V q1 c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V q1 c).before 0 t d = iblk1 V c 0 t :=
  before1_0_of V (dat1 V q1 c) (A_eq1 V q1 c 0) (after1_0 V q1 c) t d
theorem before1_1 (c : Dev nD) (t : Fin cfg1.N) (d) : (dat1 V q1 c).before 1 t d = iblk1 V c 1 t :=
  before1_1_of V (dat1 V q1 c) (A_eq1 V q1 c 1) (after1_1 V q1 c) t d
theorem before1_2 (c : Dev nD) (t : Fin cfg1.N) (d) : (dat1 V q1 c).before 2 t d = iblk1 V c 2 t :=
  before1_2_of V (dat1 V q1 c) (A_eq1 V q1 c 2) (after1_2 V q1 c) t d

/-! ## The body obligation, at a generic point -/

/-- What the body is called with at point `t`, the windows one by one, -/
def bodyPre1 (c : Dev nD) (t : Fin cfg1.N) : sProp 𝕄 :=
  iprop((dat1 V q1 c).Φ t.castSucc ∗ (dat1 V q1 c).owesAt () t.castSucc
    ∗ (∃ d, owns (c : Thread nD τ) (st1_0 t) fullShare ((dat1 V q1 c).before 0 t d))
    ∗ (∃ d, owns (c : Thread nD τ) (st1_1 t) fullShare ((dat1 V q1 c).before 1 t d))
    ∗ (∃ d, owns (c : Thread nD τ) (st1_2 t) fullShare ((dat1 V q1 c).before 2 t d))
    ∗ (∃ d, owns (c : Thread nD τ) (st1_3 t) fullShare ((dat1 V q1 c).before 3 t d)))

/-- and what it returns. -/
def bodyPost1 (c : Dev nD) (t : Fin cfg1.N) : sProp 𝕄 :=
  iprop((dat1 V q1 c).Φ t.succ ∗ (dat1 V q1 c).owesAt () t.succ
    ∗ owns (c : Thread nD τ) (st1_0 t) fullShare ((dat1 V q1 c).after 0 t)
    ∗ owns (c : Thread nD τ) (st1_1 t) fullShare ((dat1 V q1 c).after 1 t)
    ∗ owns (c : Thread nD τ) (st1_2 t) fullShare ((dat1 V q1 c).after 2 t)
    ∗ owns (c : Thread nD τ) (st1_3 t) fullShare ((dat1 V q1 c).after 3 t))

/-- The body at any point: the inputs' memrefs hold their blocks, so the body's triple applies; the invariant
    and what the core owes pass through unread. -/
theorem sound_body1 (c : Dev nD) (t : Fin cfg1.N) :
    bodyPre1 V q1 c t ⊢ wp frame (wpE (defs₀ (F := F)) Variants.none c none) Set.univ (bodyAt1 t) (fun _ => bodyPost1 V q1 c t) := by
  unfold bodyPre1 bodyPost1 bodyAt1
  simp only [before1_0, before1_1, before1_2]
  rw [show (dat1 V q1 c).Φ t.succ = (dat1 V q1 c).Φ t.castSucc from rfl,
    show (dat1 V q1 c).owesAt () t.succ = (dat1 V q1 c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation1 (c : Dev nD) : BodyObligation (dat1 (F := F) V q1 c) (defs₀ (F := F)) Variants.none () Set.univ := fun t => by
  rw [bigSep_W1, bigSep_W1]
  exact sound_body1 V q1 c t

/-! ## The invariant at the ends, and what is owed -/

/-- The invariant goes in at the first point as it is, -/
theorem Phi_in1 (c : Dev nD) : Pipeline.ΦA spec1 c ⊢ (dat1 (F := F) V q1 c).Φ 0 := .rfl

/-- and comes back at the last. -/
theorem Phi_out1 (c : Dev nD) : (dat1 (F := F) V q1 c).Φ (Fin.last cfg1.N) ⊢ Pipeline.ΦA spec1 c := .rfl

/-- The core owes nothing at any point. -/
theorem owed1 (c : Dev nD) (t) : (dat1 (F := F) V q1 c).owed t = 0 := rfl

/-- No bound is put on what the core's waits have recorded. -/
theorem recorded1 (c : Dev nD) (t) : (dat1 (F := F) V q1 c).recorded t = Set.univ := rfl

/-- Each window holds of its array the share it was dealt. -/
theorem q1_eq (c : Dev nD) (w) : (dat1 (F := F) V q1 c).q w = q1 w := rfl

end Cert.KernelIdeal.Hand
end
-- ==== Proof.R2Runs.lean ====
import proofs.«143892_j7258494730873_2_alg».proof.Proof.Gen.KernelIdeal.Launch
import proofs.«143892_j7258494730873_2_alg».proof.Proof.Gen.KernelIdeal.Skeleton
import proofs.«143892_j7258494730873_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions -/

/-- The condition of the body's first conditional (the head coordinate is 0), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 16) — decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second conditional (the head coordinate is 15), from the grid coordinates. -/
abbrev cond2_1 (i : grid2.Coords) : Prop := k2_cond2 i = 1#1
/-- It holds at the points ≡ 15 (mod 16) — decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- At the first head the configuration calls output 3 idle: nothing is stored into it. -/
theorem idleAt2_3_A : ∀ t : Fin cfg2.N, cond2_0 (grid2.coords t) → ¬cond2_1 (grid2.coords t) → cfg2.idle 3 (grid2.coords t) = true := by decide +kernel
/-- and its block is not written back there. -/
theorem noFlush2_3_A : ∀ t : Fin cfg2.N, cond2_0 (grid2.coords t) → ¬cond2_1 (grid2.coords t) → (cfg2.win 3).flush t = false := by decide +kernel
/-- The same at a middle head. -/
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At the last head output 3 is live: the body stores into it. -/
theorem liveAt2_3_C : ∀ t : Fin cfg2.N, ¬cond2_0 (grid2.coords t) → cond2_1 (grid2.coords t) → cfg2.idle 3 (grid2.coords t) = false := by decide +kernel

/-! ## The staging memrefs and the scratch -/

/-- One staging buffer of output window 3, through which its contents are stated. -/
abbrev VO2_3 : View sig .tc .vmem S512x1024 .f32 := (Memref.whole cc2_stg3_0 : Memref sig .tc .vmem S512x1024 .f32).view
abbrev ms2_0 (t : Fin cfg2.N) : Memref sig .tc .vmem S1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The scratch operand: a whole scoped buffer of the kernel's own, passed beside the windows. -/
abbrev scM2_0 : Memref sig .tc .vmem S512x1024 .f32 := Memref.whole cc2_scratch0
/-- The carried scratch as a view: what it holds is stated through it. -/
abbrev VS2_0 : View sig .tc .vmem S512x1024 .f32 := scM2_0.view

/-- The scoped buffers of the other two calls, each whole at some contents: they ride through the region untouched. -/
def Oth2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant opened: the other calls' scoped buffers, the scratch as a memref owned at some contents, the generator register. -/
theorem PhiA2_open (c : Dev nD) :
    (Pipeline.ΦA spec2 c : sProp 𝕄) ⊢ iprop(Oth2 (F := F) c ∗ (∃ d, owns (c : Thread nD τ) scM2_0 fullShare d) ∗ (∃ r, prngReg c r)) := by
  unfold Pipeline.ΦA Oth2; rw [scopedRest2_eq]; simp only [scM2_0, owns_whole]
  iintro ⟨⟨G0, G1, G2, G3, G4, G5, G6, G7, G8, G9, G10, G11, G12, G13, HS⟩, Hg⟩
  isplitl [G0 G1 G2 G3 G4 G5 G6 G7 G8 G9 G10 G11 G12 G13]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    iexact G13
  isplitl [HS]; · iexact HS
  iexact Hg

/-- and closed again. -/
theorem PhiA2_close (c : Dev nD) :
    iprop(Oth2 (F := F) c ∗ (∃ d, owns (c : Thread nD τ) scM2_0 fullShare d) ∗ (∃ r, prngReg c r)) ⊢ (Pipeline.ΦA spec2 c : sProp 𝕄) := by
  unfold Pipeline.ΦA Oth2; rw [scopedRest2_eq]; simp only [scM2_0, owns_whole]
  iintro ⟨⟨G0, G1, G2, G3, G4, G5, G6, G7, G8, G9, G10, G11, G12, G13⟩, HS, Hg⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    iexact HS
  iexact Hg

end Cert.KernelIdeal.Hand

end
-- ==== Proof.R2RunA.lean ====
import proofs.«143892_j7258494730873_2_alg».proof.Proof.R2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave in output 3's staging memref and in the scratch, as pieces (last first), in this case of the two
    conditionals, with the proof that on whole memrefs — the inputs' at their contents, the idle output's at contents handed back untouched, the scratch
    at anything — the body runs to the continuation holding the inputs' as they were and each stored buffer with its pieces written. -/
noncomputable def kernelRun2_A (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S1x64x1024 .bf16) (x2 : Vec F S1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__outproj_kernel i arg2 harg2 arg3 harg3 arg4 harg4 arg5 harg5 arg6 harg6) K } := by
  refine ⟨[], ?_, fun xi3 E K => ?run⟩
  case run =>
    simp only [cc2__outproj_kernel_eq_skeleton]; unfold cc2__outproj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.R2RunB.lean ====
import proofs.«143892_j7258494730873_2_alg».proof.Proof.R2RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave in output 3's staging memref and in the scratch, as pieces (last first), in this case of the two
    conditionals, with the proof that on whole memrefs — the inputs' at their contents, the idle output's at contents handed back untouched, the scratch
    at what the point before left — the body runs to the continuation holding the inputs' as they were and each stored buffer with its pieces written. -/
noncomputable def kernelRun2_B (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S1x64x1024 .bf16) (x2 : Vec F S1024 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__outproj_kernel i arg2 harg2 arg3 harg3 arg4 harg4 arg5 harg5 arg6 harg6) K } := by
  refine ⟨[], ?_, fun xi3 E K => ?run⟩
  case run =>
    simp only [cc2__outproj_kernel_eq_skeleton]; unfold cc2__outproj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.R2RunC.lean ====
import proofs.«143892_j7258494730873_2_alg».proof.Proof.R2RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave in output 3's staging memref and in the scratch, as pieces (last first), in this case of the two
    conditionals, with the proof that on whole memrefs — the inputs' at their contents, the output's at anything, the scratch
    at what the point before left — the body runs to the continuation holding the inputs' as they were and each stored buffer with its pieces written. -/
noncomputable def kernelRun2_C (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S1x64x1024 .bf16) (x2 : Vec F S1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__outproj_kernel i arg2 harg2 arg3 harg3 arg4 harg4 arg5 harg5 arg6 harg6) K } := by
  refine ⟨?_, ?_, fun E K => ?run⟩
  case run =>
    simp only [cc2__outproj_kernel_eq_skeleton]; unfold cc2__outproj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.R2Data.lean ====
import proofs.«143892_j7258494730873_2_alg».proof.Proof.R2RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## What each case of the two conditionals leaves in the output's buffer and in the scratch -/

/-- This case stores nothing into output 3 (the window is idle there and not written back): a placeholder nothing consults. -/
def out2_A_3 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S1x64x1024 .bf16) (x2 : Vec F S1024 .f32) : Vec F S512x1024 .f32 :=
  VO2_3.read (Elt F) (VO2_3.writes (Elt F) VO2_3.junk (kernelRun2_A c i arg2 harg2 arg3 harg3 arg4 harg4 arg5 harg5 arg6 harg6 hc0 hc1 x0 x1 x2).1)

/-- The pieces this case stores into the carried scratch cover it. -/
theorem scover2_A_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S1x64x1024 .bf16) (x2 : Vec F S1024 .f32) (y : S512x1024.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S512x1024.size (by sl_kernel_rfl) y

/-- What this case leaves in the carried scratch: its pieces read back. -/
def sout2_A_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x512x64 .bf16) (x1 : Vec F S1x64x1024 .bf16) (x2 : Vec F S1024 .f32) : Vec F S512x1024 .f32 :=
  VS2_0.read (Elt F) (VS2_0.writes (Elt F) VS2_0.junk (kernelRun2_A c i arg2 harg2 arg3 harg3 arg4 harg4 arg5 harg5 arg6 harg6 hc0 hc1 x0 x1 x2).2.1)

/-- This case stores nothing into output 3 (the window is idle there and not written back): a placeholder nothing consults. -/
def out2_B_3 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S1x64x1024 .bf16) (x2 : Vec F S1024 .f32) (xs0 : Vec F S512x1024 .f32) : Vec F S512x1024 .f32 :=
  VO2_3.read (Elt F) (VO2_3.writes (Elt F) VO2_3.junk (kernelRun2_B c i arg2 harg2 arg3 harg3 arg4 harg4 arg5 harg5 arg6 harg6 hc0 hc1 x0 x1 x2 xs0).1)

/-- The pieces this case stores into the carried scratch cover it. -/
theorem scover2_B_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S1x64x1024 .bf16) (x2 : Vec F S1024 .f32) (xs0 : Vec F S512x1024 .f32) (y : S512x1024.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S512x1024.size (by sl_kernel_rfl) y

/-- What this case leaves in the carried scratch: its pieces read back. -/
def sout2_B_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x512x64 .bf16) (x1 : Vec F S1x64x1024 .bf16) (x2 : Vec F S1024 .f32) (xs0 : Vec F S512x1024 .f32) : Vec F S512x1024 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- At the last head the pieces stored into output 3 tile its block, so they cover it. -/
theorem cover2_C_3 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S1x64x1024 .bf16) (x2 : Vec F S1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S512x1024.size (by sl_kernel_rfl) y

/-- What the last head leaves in output 3's staging buffer: its pieces read back. -/
def out2_C_3 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S1x64x1024 .bf16) (x2 : Vec F S1024 .f32) (xs0 : Vec F S512x1024 .f32) : Vec F S512x1024 .f32 :=
  VO2_3.read (Elt F) (VO2_3.writes (Elt F) VO2_3.junk (kernelRun2_C c i arg2 harg2 arg3 harg3 arg4 harg4 arg5 harg5 arg6 harg6 hc0 hc1 x0 x1 x2 xs0).1)

/-- The pieces this case stores into the carried scratch cover it. -/
theorem scover2_C_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S1x64x1024 .bf16) (x2 : Vec F S1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S512x1024.size (by sl_kernel_rfl) y

/-- What this case leaves in the carried scratch: its pieces read back. -/
def sout2_C_0 (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x512x64 .bf16) (x1 : Vec F S1x64x1024 .bf16) (x2 : Vec F S1024 .f32) (xs0 : Vec F S512x1024 .f32) : Vec F S512x1024 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output's buffer and the scratch hold after each point -/

/-- The accumulation. What output 3's staging buffer and the carried scratch hold after the body at position `n` (a pair): the case
    the closed forms select at `n`, run at the point's memrefs and input blocks, the scratch read at what position `n - 1` left. -/
def outsAt2 (c : Dev nD) : (n : ℕ) → n < cfg2.N → Vec F S512x1024 .f32 × Vec F S512x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 16 = 0 then
      if h1 : (n + 1) % 16 = 15 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 16 = 15 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a first head: that case's contents. -/
theorem outsAt2_A (c : Dev nD) (t : Fin cfg2.N) (h0 : t.val % 16 = 0) (h1 : ¬t.val % 16 = 15) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a middle head: that case's contents, over what the point before left. -/
theorem outsAt2_B (c : Dev nD) (t : Fin cfg2.N) (h0 : ¬t.val % 16 = 0) (h1 : ¬t.val % 16 = 15) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a last head: that case's contents, over what the point before left. -/
theorem outsAt2_C (c : Dev nD) (t : Fin cfg2.N) (h0 : ¬t.val % 16 = 0) (h1 : t.val % 16 = 15) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the other calls' scoped buffers at
    anything, the carried scratch at what the point before left in it, and the generator register at some state. -/
def PhiS2 (c : Dev nD) : (n : ℕ) → n ≤ cfg2.N → sProp 𝕄
  | 0, _ => Pipeline.ΦA spec2 c
  | n + 1, hn => iprop(Oth2 (F := F) c ∗ owns (c : Thread nD τ) scM2_0 fullShare ((outsAt2 V c n hn).2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(Oth2 (F := F) c ∗ owns (c : Thread nD τ) scM2_0 fullShare ((outsAt2 V c n hn).2) ∗ (∃ r, prngReg c r)) := rfl

theorem PhiS2_pos (c : Dev nD) (n : ℕ) (h : n ≤ cfg2.N) (hz : n ≠ 0) :
    PhiS2 V c n h = iprop(Oth2 (F := F) c ∗ owns (c : Thread nD τ) scM2_0 fullShare ((outsAt2 V c (n - 1) (by omega)).2) ∗ (∃ r, prngReg c r)) := by
  cases n with
  | zero => exact absurd rfl hz
  | succ n => rfl

/-! ## The pipeline's proof data -/

/-- The proof data of the pipeline on core `c`: the arrays as the region finds them (`V`); after the body at point `t` each input's
    buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem owed2 (c : Dev nD) (t) : (dat2 V c).owed t = 0 := rfl
theorem recorded2 (c : Dev nD) (t) : (dat2 V c).recorded t = Set.univ := rfl
theorem q2 (c : Dev nD) (w) : (dat2 V c).q w = fullShare := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the launch hands the region is the invariant before the first point. -/
theorem Phi_in2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch's named contents are forgotten. -/
theorem Phi_out2' (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  refine BIBase.Entails.trans ?_ (PhiA2_close (F := F) c)
  iintro ⟨HOth, HS0, Hg⟩
  isplitl [HOth]; · iexact HOth
  isplitl [HS0]; · iexists _; iexact HS0
  iexact Hg

/-- The same after the last point. -/
theorem Phi_out2 (c : Dev nD) : (dat2 V c).Φ (Fin.last cfg2.N) ⊢ Pipeline.ΦA spec2 c :=
  Phi_out2' V c _ (by rw [Fin.val_last]; have : cfg2.N = 128 := N_2; omega)

end Region2

end Cert.KernelIdeal.Hand

end
-- ==== Proof.Region2.lean ====
import proofs.«143892_j7258494730873_2_alg».proof.Proof.R2Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case of the two conditionals the point is
    in; the invariant hands the body the carried scratch at what the point before left (at anything at the first point) and takes it
    back at this point's contents; the other calls' scoped buffers, the generator register and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 16 = 0
  · by_cases h1 : t.val % 16 = 15
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz]
        iintro ⟨HΦ, Ho, ⟨%d0, H0⟩, ⟨%d1, H1⟩, ⟨%d2, H2⟩, ⟨%d3, H3⟩⟩
        ihave HΦ' := PhiA2_open (F := F) c $$ HΦ
        icases HΦ' with ⟨HOth, HS0, Hg⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HOth HS0 Hg]
        · isplitl [HOth]; · iexact HOth
          isplitl [HS0]
          · unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨HOth, HS0, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HOth HS0 Hg]
        · isplitl [HOth]; · iexact HOth
          isplitl [HS0]
          · unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 16 = 15
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨HOth, HS0, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HOth HS0 Hg]
        · isplitl [HOth]; · iexact HOth
          isplitl [HS0]
          · unfold owns; iexists _; isplitr
            swap; · iexact HS0
            ipureintro; exact View.read_writes_of_cover _ _ _ _ _ (scover2_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨HOth, HS0, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HOth HS0 Hg]
        · isplitl [HOth]; · iexact HOth
          isplitl [HS0]
          · unfold owns; iexists _; isplitr
            swap; · iexact HS0
            ipureintro; exact View.read_writes_of_cover _ _ _ _ _ (scover2_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.Assembly.lean ====
/-
  The program runs three kernel regions between short stretches of host operations:
      flatten x, narrow the two weight matrices          (host)
      region 0: the fused query/key/value projection     → the packed array  [48, 4096, 64]
      region 1: attention, one (batch, head) pair and one tile of 512 queries per grid point → [32, 2048, 64]
      cut the output weights into 16 heads               (host)
      region 2: the output projection summed over heads  → [4096, 1024]
      unflatten                                          (host)
  This module follows every buffer outside the kernels' scratch through the six items: after a host stretch a buffer holds
  what the stretch's operations make of the buffers before it; after a region, the region's output array holds what its
  write-backs left and every other buffer what it held. The three input windows of the attention region read ONE array,
  whose ownership is therefore dealt among them in three shares and put together again at the region's exit.
  The conclusion: every execution of the program ends, nothing faults, the five arguments are unchanged and the result is
  the last reshape of what region 2 left.
-/
import proofs.«143892_j7258494730873_2_alg».proof.Proof.Gen.KernelIdeal.Launch
import proofs.«143892_j7258494730873_2_alg».proof.Proof.Gen.KernelIdeal.Skeleton
import proofs.«143892_j7258494730873_2_alg».proof.Proof.Gen.KernelIdeal.Points
import proofs.«143892_j7258494730873_2_alg».proof.Proof.Gen.KernelIdeal.Regions
import proofs.«143892_j7258494730873_2_alg».proof.Proof.Region0
import proofs.«143892_j7258494730873_2_alg».proof.Proof.Region1
import proofs.«143892_j7258494730873_2_alg».proof.Proof.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The buffers' contents between the items of @main -/

variable (m : (ℓ : Loc nD τ sig) → Buf (Elt F) ℓ)

/-- the shares of the attention region's windows: the three input windows read one array, whose full share is dealt
    left, right-left, right-right; the output window's entry is not read -/
def q1 : Fin cfg1.W → PosShare TreeShare
  | ⟨0, _⟩ => fullShare.left
  | ⟨1, _⟩ => fullShare.right.left
  | ⟨2, _⟩ => fullShare.right.right
  | _ => fullShare

/-- entry contents of region 0, read at the TensorCore's references -/
abbrev E1 : (c : Dev nD) → (b : Ref sig .tc) → Buf (Elt F) ((c : Thread nD τ).loc b) := fun c b => V1 m c b
/-- what region 0 leaves in its output array -/
def X2 (c : Dev nD) : Buf (Elt F) ((c : Thread nD τ).loc main_v3) := (dat0 (E1 m) c).arrAt 3 cfg0.N
def U2 (c : Dev nD) : Valuation τ sig (Elt F) := Function.update (V1 m c) main_v3 (X2 m c)
abbrev E2 : (c : Dev nD) → (b : Ref sig .tc) → Buf (Elt F) ((c : Thread nD τ).loc b) := fun c b => U2 m c b
def X3 (c : Dev nD) : Buf (Elt F) ((c : Thread nD τ).loc main_v4) := (dat1 (E2 m) q1 c).arrAt 3 cfg1.N
def U3 (c : Dev nD) : Valuation τ sig (Elt F) := Function.update (U2 m c) main_v4 (X3 m c)
def U4 (c : Dev nD) : Valuation τ sig (Elt F) := StableHlo.after hostOps2 (U3 m c)
abbrev E4 : (c : Dev nD) → (b : Ref sig .tc) → Buf (Elt F) ((c : Thread nD τ).loc b) := fun c b => U4 m c b
def X5 (c : Dev nD) : Buf (Elt F) ((c : Thread nD τ).loc main_v6) := (dat2 (E4 m) c).arrAt 3 cfg2.N
def U5 (c : Dev nD) : Valuation τ sig (Elt F) := Function.update (U4 m c) main_v6 (X5 m c)
def U6 (c : Dev nD) : Valuation τ sig (Elt F) := StableHlo.after hostOps3 (U5 m c)

/-- the regions' results as the conditional frame's unknowns -/
def outs : Outs (F := F) := fun n r c => match n with
  | 2 => U2 m c r
  | 3 => U3 m c r
  | 5 => U5 m c r
  | _ => V0 m c r

theorem U2_self (c : Dev nD) : U2 m c main_v3 = X2 m c := by unfold U2; exact Function.update_self ..
theorem U3_self (c : Dev nD) : U3 m c main_v4 = X3 m c := by unfold U3; exact Function.update_self ..
theorem U5_self (c : Dev nD) : U5 m c main_v6 = X5 m c := by unfold U5; exact Function.update_self ..
theorem V2_eq (c : Dev nD) : V2 m (outs m) c = U2 m c :=
  congrArg (Function.update (V1 m c) main_v3) (U2_self m c)
theorem V3_eq (c : Dev nD) : V3 m (outs m) c = U3 m c := by
  show Function.update (V2 m (outs m) c) main_v4 (U3 m c main_v4) = U3 m c
  rw [V2_eq]; exact congrArg (Function.update (U2 m c) main_v4) (U3_self m c)
theorem V4_eq (c : Dev nD) : V4 m (outs m) c = U4 m c := by
  show StableHlo.after hostOps2 (V3 m (outs m) c) = _; rw [V3_eq]; rfl
theorem V5_eq (c : Dev nD) : V5 m (outs m) c = U5 m c := by
  show Function.update (V4 m (outs m) c) main_v6 (U5 m c main_v6) = U5 m c
  rw [V4_eq]; exact congrArg (Function.update (U4 m c) main_v6) (U5_self m c)
theorem V6_eq (c : Dev nD) : V6 m (outs m) c = U6 m c := by
  show StableHlo.after hostOps3 (V5 m (outs m) c) = _; rw [V5_eq]; rfl

/-- every pipeline's proof data, each at its region's entry contents -/
def pdats : (p : Fin 3) → (c : Dev nD) → Dat τ (Elt F) Unit ℕ (UR sig nD τ) ℕ (cfgs p) c
  | ⟨0, _⟩ => fun c => dat0 (E1 m) c
  | ⟨1, _⟩ => fun c => dat1 (E2 m) q1 c
  | ⟨2, _⟩ => fun c => dat2 (E4 m) c

theorem U2_of (c : Dev nD) (b : Ref sig .tc) (h : b ≠ main_v3) : U2 m c b = V1 m c b := by
  unfold U2; exact Function.update_of_ne (StableHlo.devRef_ne_of_ne h) ..
theorem U3_of (c : Dev nD) (b : Ref sig .tc) (h : b ≠ main_v4) : U3 m c b = U2 m c b := by
  unfold U3; exact Function.update_of_ne (StableHlo.devRef_ne_of_ne h) ..
theorem U5_of (c : Dev nD) (b : Ref sig .tc) (h : b ≠ main_v6) : U5 m c b = U4 m c b := by
  unfold U5; exact Function.update_of_ne (StableHlo.devRef_ne_of_ne h) ..

/-- At a region's exit its input arrays hold what they held (never written) and its output array what the write-backs left. -/
theorem hF0 (c : Dev nD) (w : Fin cfg0.W) : (pdats m 0 c).arrAt w cfg0.N = U2 m c (Pipeline.arrRef spec0 w) := by
  match w with
  | ⟨0, _⟩ => exact ((dat0 (E1 m) c).arrAt_in 0 rfl _).trans ((A_eq0 (E1 m) c 0).trans (U2_of m c main_v0 (by decide)).symm)
  | ⟨1, _⟩ => exact ((dat0 (E1 m) c).arrAt_in 1 rfl _).trans ((A_eq0 (E1 m) c 1).trans (U2_of m c main_v1 (by decide)).symm)
  | ⟨2, _⟩ => exact ((dat0 (E1 m) c).arrAt_in 2 rfl _).trans ((A_eq0 (E1 m) c 2).trans (U2_of m c main_arg2 (by decide)).symm)
  | ⟨3, _⟩ => exact (U2_self m c).symm
theorem hrest0 (c : Dev nD) : ∀ b, b ∉ Finset.univ.image (Pipeline.arrRef spec0) → U2 m c b = E1 m c b :=
  fun b hb => U2_of m c b fun h => hb (by subst h; exact Finset.mem_image.mpr ⟨3, Finset.mem_univ _, rfl⟩)

theorem hF1 (c : Dev nD) (w : Fin cfg1.W) : (pdats m 1 c).arrAt w cfg1.N = U3 m c (Pipeline.arrRef spec1 w) := by
  match w with
  | ⟨0, _⟩ => exact ((dat1 (E2 m) q1 c).arrAt_in 0 rfl _).trans ((A_eq1 (E2 m) q1 c 0).trans (U3_of m c main_v3 (by decide)).symm)
  | ⟨1, _⟩ => exact ((dat1 (E2 m) q1 c).arrAt_in 1 rfl _).trans ((A_eq1 (E2 m) q1 c 1).trans (U3_of m c main_v3 (by decide)).symm)
  | ⟨2, _⟩ => exact ((dat1 (E2 m) q1 c).arrAt_in 2 rfl _).trans ((A_eq1 (E2 m) q1 c 2).trans (U3_of m c main_v3 (by decide)).symm)
  | ⟨3, _⟩ => exact (U3_self m c).symm
theorem hrest1 (c : Dev nD) : ∀ b, b ∉ Finset.univ.image (Pipeline.arrRef spec1) → U3 m c b = E2 m c b :=
  fun b hb => U3_of m c b fun h => hb (by subst h; exact Finset.mem_image.mpr ⟨3, Finset.mem_univ _, rfl⟩)

theorem hF2 (c : Dev nD) (w : Fin cfg2.W) : (pdats m 2 c).arrAt w cfg2.N = U5 m c (Pipeline.arrRef spec2 w) := by
  match w with
  | ⟨0, _⟩ => exact ((dat2 (E4 m) c).arrAt_in 0 rfl _).trans ((A_eq2 (E4 m) c 0).trans (U5_of m c main_v4 (by decide)).symm)
  | ⟨1, _⟩ => exact ((dat2 (E4 m) c).arrAt_in 1 rfl _).trans ((A_eq2 (E4 m) c 1).trans (U5_of m c main_v5 (by decide)).symm)
  | ⟨2, _⟩ => exact ((dat2 (E4 m) c).arrAt_in 2 rfl _).trans ((A_eq2 (E4 m) c 2).trans (U5_of m c main_arg4 (by decide)).symm)
  | ⟨3, _⟩ => exact (U5_self m c).symm
theorem hrest2 (c : Dev nD) : ∀ b, b ∉ Finset.univ.image (Pipeline.arrRef spec2) → U5 m c b = E4 m c b :=
  fun b hb => U5_of m c b fun h => hb (by subst h; exact Finset.mem_image.mpr ⟨3, Finset.mem_univ _, rfl⟩)

/-! ## The thread state between items, and the regions as segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
def R (c : Dev nD) : sProp 𝕄 := iprop((∃ r, prngReg c r) ∗ ∃ W, owes (c : Thread nD τ) (0 : CellTallies nD τ sig Unit) W)
abbrev E : Fin 4 → Dev nD → sProp 𝕄 := fun _ c => R c

/-- The two buffers behind the attention region's four windows are the region's arrays at the dealt shares: the
    projected array's full share splits left / right-left / right-right among the three windows that read it. -/
theorem arrays1_iff (c : Dev nD) (Vv : (b : Ref sig .tc) → Buf (Elt F) ((c : Thread nD τ).loc b))
    (dat : Dat τ (Elt F) Unit ℕ (UR sig nD τ) ℕ cfg1 c) (hq : ∀ w, dat.q w = q1 w)
    (Fa : (w : Fin cfg1.W) → Buf (Elt F) ((cfg1.win w).arr.view.loc (c : Thread nD τ)))
    (h0 : Fa 0 = Vv main_v3) (h1 : Fa 1 = Vv main_v3) (h2 : Fa 2 = Vv main_v3) (h3 : Fa 3 = Vv main_v4) :
    (Pipeline.arrBufs spec1 c Vv : sProp 𝕄) ⊣⊢ dat.arrays Fa := by
  have s0 : dat.share 0 = fullShare.left := by unfold Pipeline.Dat.share; rw [if_neg (by decide), hq]; rfl
  have s1 : dat.share 1 = fullShare.right.left := by unfold Pipeline.Dat.share; rw [if_neg (by decide), hq]; rfl
  have s2 : dat.share 2 = fullShare.right.right := by unfold Pipeline.Dat.share; rw [if_neg (by decide), hq]; rfl
  have s3 : dat.share 3 = fullShare := by unfold Pipeline.Dat.share; rw [if_pos (by decide)]
  unfold Pipeline.Dat.arrays Pipeline.arrBufs
  rw [bigSep_W1]
  rw [show Finset.univ.image (Pipeline.arrRef spec1) = {main_v3, main_v4} from by decide]
  rw [BI.bigSep_insert (by decide : main_v3 ∉ ({main_v4} : Finset (Ref sig .tc))), BI.bigSep_singleton]
  rw [(arr_whole1 0).set_eq_univ, (arr_whole1 3).set_eq_univ]
  rw [s0, s1, s2, s3, h0, h1, h2, h3]
  change iprop(_ ∗ _) ⊣⊢ _
  have e1 := pointsTo_share (Ix := Unit) (Name := ℕ) (U := UR sig nD τ) (Lvl := ℕ) (ℓ := (c : Thread nD τ).loc main_v3) (I := Finset.univ) (f := Vv main_v3)
    (PosShare.mem_left_op_right fullShare)
  have e2 := pointsTo_share (Ix := Unit) (Name := ℕ) (U := UR sig nD τ) (Lvl := ℕ) (ℓ := (c : Thread nD τ).loc main_v3) (I := Finset.univ) (f := Vv main_v3)
    (PosShare.mem_left_op_right fullShare.right)
  have e1l := e1.1
  have e1r := e1.2
  have e2l := e2.1
  have e2r := e2.2
  constructor
  · iintro ⟨Hx, Hy⟩
    ihave H := e1l $$ Hx
    icases H with ⟨Hl, Hr⟩
    ihave H' := e2l $$ Hr
    icases H' with ⟨Hrl, Hrr⟩
    isplitl [Hl]; · iexact Hl
    isplitl [Hrl]; · iexact Hrl
    isplitl [Hrr]; · iexact Hrr
    iexact Hy
  · iintro ⟨Hl, Hrl, Hrr, Hy⟩
    isplitr [Hy]
    · iapply e1r
      isplitl [Hl]; · iexact Hl
      iapply e2r
      isplitl [Hrl]; · iexact Hrl
      iexact Hrr
    iexact Hy

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun c t => owed0 (E1 m) c t
  pre c := iprop(StableHlo.held (c : Thread nD τ) (Pipeline.ucRefs τ sig) (V1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    unfold R
    rw [Pipeline.ownSems0_none]
    have hsplit := Pipeline.arrays_of_unscopedBufs (p := 0) (pcfgs (F := F)) adm (pdats m) launch0.win launch0.arr_whole c
      ((pdats m 0 c).share_full fun w => q0 (E1 m) c w) (E1 m c) fun w => A_eq0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed0 (E1 m) c 0]
      icases HO with ⟨%W, HO⟩; iexists W; isplitr
      · ipureintro; intro x _; left; show x ∈ (dat0 (E1 m) c).recorded 0; rw [recorded0]; trivial
      iexact HO
    isplitl [Hp]; · iexact Hp
    iexact Hrest
  hin c := by
    refine BIBase.Entails.trans ?_ (Phi_in0 (E1 m) c)
    unfold Pipeline.ΦA
    iintro ⟨Hp, -, Hr⟩
    isplitl [Hr]; · iexact Hr
    iexact Hp
  hout c := by
    refine (Phi_out0 (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q0 (E1 m) c w)
      (E1 m c) (fun b => U2 m c b) ((pdats m 0 c).arrAt · cfg0.N) (hF0 m c) (hrest0 m c)
    rw [Pipeline.unscopedBufs_held] at hjoin
    unfold R
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from owed0 (E1 m) c _]; iexact HO

theorem hsplit1 (c : Dev nD) :
    (StableHlo.held (c : Thread nD τ) (Pipeline.ucRefs τ sig) (U2 m c) : sProp 𝕄)
      ⊢ iprop((pdats m 1 c).arrays (pdats m 1 c).A ∗ Pipeline.unscopedRest spec1 c (E2 m c)) := by
  rw [← Pipeline.unscopedBufs_held (Ix := Unit) (Name := ℕ) (U := UR sig nD τ) (Lvl := ℕ) c (U2 m c),
    Pipeline.unscopedBufs_split₀ cfgs (1 : Fin 3) winFacts₀1.arr_unscoped c (E2 m c)]
  exact sep_mono (arrays1_iff c (E2 m c) (dat1 (E2 m) q1 c) (q1_eq (E2 m) q1 c) _
    (A_eq1 (E2 m) q1 c 0) (A_eq1 (E2 m) q1 c 1) (A_eq1 (E2 m) q1 c 2) (A_eq1 (E2 m) q1 c 3)).1 .rfl

theorem hjoin1 (c : Dev nD) :
    iprop((pdats m 1 c).arrays ((pdats m 1 c).arrAt · cfg1.N) ∗ Pipeline.unscopedRest spec1 c (E2 m c))
      ⊢ (StableHlo.held (c : Thread nD τ) (Pipeline.ucRefs τ sig) (U3 m c) : sProp 𝕄) := by
  rw [← Pipeline.unscopedBufs_held (Ix := Unit) (Name := ℕ) (U := UR sig nD τ) (Lvl := ℕ) c (U3 m c),
    Pipeline.unscopedBufs_split₀ cfgs (1 : Fin 3) winFacts₀1.arr_unscoped c (fun b => U3 m c b)]
  refine sep_mono (arrays1_iff c (fun b => U3 m c b) (dat1 (E2 m) q1 c) (q1_eq (E2 m) q1 c) _
    (hF1 m c 0) (hF1 m c 1) (hF1 m c 2) (hF1 m c 3)).2 (Entails.of_eq ?_)
  unfold Pipeline.unscopedRest
  exact bigSep_congr fun b hb => congrArg (fun f => (((c : Thread nD τ).loc b) ↦{fullShare} f : sProp 𝕄)) (hrest1 m c b (Finset.mem_sdiff.mp hb).2).symm

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) q1 c).loose
  hwaits := Pipeline.hwaits_of_owed_zero _ _ _ _ L lv 1 fun c t => owed1 (E2 m) q1 c t
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    unfold R
    rw [Pipeline.ownSems0_none]
    have hsplit := hsplit1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed1 (E2 m) q1 c 0]
      icases HO with ⟨%W, HO⟩; iexists W; isplitr
      · ipureintro; intro x _; left; show x ∈ (dat1 (E2 m) q1 c).recorded 0; rw [recorded1]; trivial
      iexact HO
    isplitl [Hp]; · iexact Hp
    iexact Hrest
  hin c := by
    refine BIBase.Entails.trans ?_ (Phi_in1 (E2 m) q1 c)
    unfold Pipeline.ΦA
    iintro ⟨Hp, -, Hr⟩
    isplitl [Hr]; · iexact Hr
    iexact Hp
  hout c := by
    refine (Phi_out1 (E2 m) q1 c).trans ?_
    rw [Pipeline.ownSems0_none]; unfold Pipeline.ΦA
    iintro ⟨Hr, Hp⟩
    isplitl [Hp]; · iexact Hp
    isplitr; · iempintro
    iexact Hr
  hexit c := by
    have hjoin := hjoin1 m c
    unfold R
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 1 c).owed (Fin.last _) = 0 from owed1 (E2 m) q1 c _]; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ L lv 2 fun c t => owed2 (E4 m) c t
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    unfold R
    rw [Pipeline.ownSems0_none]
    have hsplit := Pipeline.arrays_of_unscopedBufs (p := 2) (pcfgs (F := F)) adm (pdats m) launch2.win launch2.arr_whole c
      ((pdats m 2 c).share_full fun w => q2 (E4 m) c w) (E4 m c) fun w => A_eq2 (E4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 2 c).owed 0 = 0 from owed2 (E4 m) c 0]
      icases HO with ⟨%W, HO⟩; iexists W; isplitr
      · ipureintro; intro x _; left; show x ∈ (dat2 (E4 m) c).recorded 0; rw [recorded2]; trivial
      iexact HO
    isplitl [Hp]; · iexact Hp
    iexact Hrest
  hin c := by
    refine BIBase.Entails.trans ?_ (Phi_in2 (E4 m) c)
    unfold Pipeline.ΦA
    iintro ⟨Hp, -, Hr⟩
    isplitl [Hr]; · iexact Hr
    iexact Hp
  hout c := by
    refine (Phi_out2 (E4 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q2 (E4 m) c w)
      (E4 m c) (fun b => U5 m c b) ((pdats m 2 c).arrAt · cfg2.N) (hF2 m c) (hrest2 m c)
    rw [Pipeline.unscopedBufs_held] at hjoin
    unfold R
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 2 c).owed (Fin.last _) = 0 from owed2 (E4 m) c _]; iexact HO

/-! ## The run: @main's six items from the launch to the return -/

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (E (F := F) 0) : sProp 𝕄) := bigSep_mono fun c _ => (show (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄) ⊢ E (F := F) 0 c from by
    show _ ⊢ R c
    unfold R
    iintro ⟨-, HO, -, Hp, -⟩
    isplitl [Hp]; · iexists _; iexact Hp
    iexists ∅; iexact HO)
  iintro ⟨H, -⟩
  imodintro
  iapply hmono; iexact H

theorem hE3 (c : Dev nD) : E (F := F) 3 c ⊢ (iprop(∃ W, owes (c : Thread nD τ) (0 : CellTallies nD τ sig Unit) W) : sProp 𝕄) := by
  show R c ⊢ _
  unfold R
  iintro ⟨-, H⟩; iexact H

theorem hch4 (c : Dev nD) : (iprop(StableHlo.held (c : Thread nD τ) (Pipeline.ucRefs τ sig) (U3 m c) ∗ R c) : sProp 𝕄)
    ⊢ iprop(StableHlo.held (c : Thread nD τ) (Pipeline.ucRefs τ sig) (V3 m (outs m) c) ∗ E 2 c) := by rw [V3_eq]
theorem hch5 (c : Dev nD) : (iprop(StableHlo.held (c : Thread nD τ) (Pipeline.ucRefs τ sig) (V4 m (outs m) c) ∗ E 2 c) : sProp 𝕄)
    ⊢ iprop(StableHlo.held (c : Thread nD τ) (Pipeline.ucRefs τ sig) (U4 m c) ∗ R c) := by rw [V4_eq]
theorem hch6 (c : Dev nD) : (iprop(StableHlo.held (c : Thread nD τ) (Pipeline.ucRefs τ sig) (U5 m c) ∗ R c) : sProp 𝕄)
    ⊢ iprop(StableHlo.held (c : Thread nD τ) (Pipeline.ucRefs τ sig) (V5 m (outs m) c) ∗ E 3 c) := by rw [V5_eq]

set_option backward.isDefEq.respectTransparency.types false in
/-- Every weakly fair execution of @main from memory `m` with zero counters terminates, the result array holding what the
    last reshape makes of the third region's output, each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v7) = U6 m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m))
    (fun c Q => by
      rewrite [main_chain c, Pipeline.Seg.run_eq_chain,
        show (segs m (outs m) 𝒱₀ L lv E () (pdats m) (reg0 m) (reg1 m) (reg2 m) c).map Pipeline.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V6 m (outs m) c))
    (hch := fun c => ⟨.rfl, .rfl, .rfl, hch4 m c, hch5 m c, hch6 m c, sep_mono .rfl (hE3 c)⟩)
    (hinit := ?_) (QY := fun c s => s.mem ((c.tc : Thread nD τ).loc main_v7) = U6 m c main_v7
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h => h)
  · -- the launch: the unscoped buffers are held at the launch contents; the rest makes the riders on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact ⟨(h (Proc.devRef .tc main_v7) (Finset.mem_filter.mpr ⟨StableHlo.devRef_mem_tcRefs main_v7, by decide⟩)).trans (congrFun (V6_eq m c) _),
        (h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c),
        (h (Proc.devRef .tc main_arg2) (Finset.mem_filter.mpr ⟨StableHlo.devRef_mem_tcRefs main_arg2, by decide⟩)).trans (V6_main_arg2 m (outs m) c),
        (h (Proc.devRef .tc main_arg3) (Finset.mem_filter.mpr ⟨StableHlo.devRef_mem_tcRefs main_arg3, by decide⟩)).trans (V6_main_arg3 m (outs m) c),
        (h (Proc.devRef .tc main_arg4) (Finset.mem_filter.mpr ⟨StableHlo.devRef_mem_tcRefs main_arg4, by decide⟩)).trans (V6_main_arg4 m (outs m) c)⟩
    · iexact HSI

end Cert.KernelIdeal.Hand
end
-- ==== Proof.Spec0.lean ====
/-
  What region 0 (the fused query/key/value projection) computes, as one function of the arrays it reads.

  With x the [4096,1024] activations, w the [1024,3072] weights and b the [3072] bias, entry (g, r, j) of the
  [48,4096,64] result is entry (r, 64·g + j) of x·w + b: the product's 3072 columns are dealt out as 48 slabs of
  64 lanes each.
-/
import Idealize.ShloMosaic.Lib.ValueIdx

noncomputable section
open scoped BigOperators
namespace Cert.KernelIdeal.Hand
open Idealize.ShloMosaic Idealize.ShloMosaic.ValueIdx

/-- Column 64·g + j of the product: where lane j of slab g comes from. -/
def col0 (g : Fin 48) (j : Fin 64) : Fin 3072 := ⟨g.val * 64 + j.val, by omega⟩

theorem col0_val (g : Fin 48) (j : Fin 64) : (col0 g j).val = g.val * 64 + j.val := rfl

/-- Region 0's result: (x·w + b) with its columns dealt out in 48 slabs of 64. -/
def G0 (x : (⟨2, ![4096, 1024]⟩ : Shape).Idx → EReal) (w : (⟨2, ![1024, 3072]⟩ : Shape).Idx → EReal)
    (b : (⟨1, ![3072]⟩ : Shape).Idx → EReal) : (⟨3, ![48, 4096, 64]⟩ : Shape).Idx → EReal :=
  fun i => (∑ k : Fin 1024, x (ix2 (i 1 : Fin 4096) k) * w (ix2 k (col0 (i 0) (i 2)))) + b (ix1 (col0 (i 0) (i 2)))

/-- The same at coordinates. -/
theorem G0_apply (x : (⟨2, ![4096, 1024]⟩ : Shape).Idx → EReal) (w : (⟨2, ![1024, 3072]⟩ : Shape).Idx → EReal)
    (b : (⟨1, ![3072]⟩ : Shape).Idx → EReal) (g : Fin 48) (r : Fin 4096) (j : Fin 64) :
    G0 x w b (ix3 g r j) = (∑ k : Fin 1024, x (ix2 r k) * w (ix2 k (col0 g j))) + b (ix1 (col0 g j)) := rfl

end Cert.KernelIdeal.Hand
end
-- ==== Proof.R0Pay.lean ====
/-
  Region 0: the output block the body leaves, read at an index (at the exact values).

  Slab g of the block is columns 64·g … 64·g+63 of the [512,3072] product plus bias, so the block at (g, r, j) is that
  product at (r, 64·g + j): the sum over k of the activation block at (r, k) times the weights at (k, 64·g + j), plus
  the bias at 64·g + j. Changes of float format are the identity on exact values, and the product accumulates
  into zero.
-/
import proofs.«143892_j7258494730873_2_alg».proof.Proof.R0Out
import proofs.«143892_j7258494730873_2_alg».proof.Proof.Spec0
import Idealize.ShloMosaic.Lib.Pipeline.Value
import Idealize.ShloMosaic.Lib.ValueIdx
import Idealize.ShloMosaic.PureOps.Ideal.Laws
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

theorem hz0_1 : (![0] : Fin 1 → Nat) = fun _ => 0 := funext fun a => by fin_cases a <;> rfl
theorem hz0_2 : (![0, 0] : Fin 2 → Nat) = fun _ => 0 := funext fun a => by fin_cases a <;> rfl

/-! ## The product at an index -/

theorem dot0_lhs_row (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl
theorem dot0_lhs_k (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem dot0_rhs_k (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem dot0_rhs_col (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- The matrix product into a zero accumulator, at (r, cc): the sum over the contracted axis. -/
theorem mm0_apply (a : FVec Ideal S512x1024 .bf16) (b : FVec Ideal S1024x3072 .bf16) (r : Fin 512) (cc : Fin 3072) :
    matmul (F := Ideal) dot_S512x1024_S1024x3072_S512x3072_1_0_0_1_n_n none a b (constant (F := Ideal) S512x3072 .f32 0x00000000#32) (ix2 r cc)
      = ∑ k : Fin 1024, a (ix2 r k) * b (ix2 k cc) := by
  simp only [matmul]
  rw [Ideal.matmul_constant_zero_apply, ← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 r cc) ((ValueIdx.contrEquiv1 dot_S512x1024_S1024x3072_S512x3072_1_0_0_1_n_n 1024 rfl rfl).symm k) = ix2 r k := funext fun a => Fin.ext (by
    match a with
    | ⟨0, _⟩ => exact dot0_lhs_row _ _
    | ⟨1, _⟩ => exact (dot0_lhs_k _ _).trans hk)
  have er : dot_S512x1024_S1024x3072_S512x3072_1_0_0_1_n_n.rhsIdx (ix2 r cc) ((ValueIdx.contrEquiv1 dot_S512x1024_S1024x3072_S512x3072_1_0_0_1_n_n 1024 rfl rfl).symm k) = ix2 k cc := funext fun a => Fin.ext (by
    match a with
    | ⟨0, _⟩ => exact (dot0_rhs_k _ _).trans hk
    | ⟨1, _⟩ => exact dot0_rhs_col _ _)
  rw [el, er]

/-- The bias row spread over the 512 rows, at (r, cc): the bias at cc. -/
theorem bias0_apply (v : FVec Ideal S3072 .f32) (hc : S3072.ShapeCasts S1x3072) (hb : S1x3072.Broadcasts S512x3072)
    (r : Fin 512) (cc : Fin 3072) : broadcastTo S512x3072 (shapeCast S1x3072 v hc) hb (ix2 r cc) = v (ix1 cc) := by
  refine (broadcastTo_apply _ hb (ix2 r cc) (ix2 (0 : Fin 1) cc) (fun a => ?_)).trans ?_
  · match a with
    | ⟨0, _⟩ => show 0 = if (1 : Nat) = 1 then 0 else r.val; rw [if_pos rfl]
    | ⟨1, _⟩ => show cc.val = if (3072 : Nat) = 1 then 0 else cc.val; rw [if_neg (by decide)]
  · exact shapeCast_apply v hc (ix2 (0 : Fin 1) cc) (ix1 cc) (by
      rw [Shape.rowMajor_val_one, Shape.rowMajor_val_two]; show cc.val = 0 * 3072 + cc.val; omega)

/-- The product plus bias at (r, cc), from the three input blocks. -/
theorem acc0_apply (x0 : Vec Ideal S512x1024 .f32) (x1 : Vec Ideal S1024x3072 .bf16) (x2 : Vec Ideal S3072 .f32)
    (r : Fin 512) (cc : Fin 3072) :
    acc0 (F := Ideal) x0 x1 x2 (ix2 r cc) = (∑ k : Fin 1024, x0 (ix2 r k) * x1 (ix2 k cc)) + x2 (ix1 cc) := by
  unfold acc0 k0_pay7
  rw [View.ld_unit_zero (S := S512x1024) hz0_2, View.ld_unit_zero (S := S1024x3072) hz0_2, View.ld_unit_zero (S := S3072) hz0_1]
  rw [shapeCast_self, shapeCast_self]
  show matmul (F := Ideal) dot_S512x1024_S1024x3072_S512x3072_1_0_0_1_n_n none x0 x1 (constant (F := Ideal) S512x3072 .f32 0x00000000#32) (ix2 r cc)
      + broadcastTo S512x3072 (shapeCast S1x3072 x2 shapeCasts_S3072_S1x3072) broadcasts_S1x3072_S512x3072 (ix2 r cc) = _
  rw [mm0_apply, bias0_apply]

/-! ## A slab at an index -/

/-- Slab payload: columns o … o+63 of the product, given a leading unit axis; at x it is the product at (x 1, o + x 2). -/
theorem slab0_apply (a : FVec Ideal S512x3072 .bf16) (o : Nat) (hs : S512x3072.Slices ![0, o] S512x64)
    (hc : S512x64.ShapeCasts S1x512x64) (x : S1x512x64.Idx) (cc : Fin 3072) (hcc : cc.val = o + (x 2).val) :
    shapeCast S1x512x64 (extractStridedSlice S512x64 ![0, o] a hs) hc x = a (ix2 (x 1 : Fin 512) cc) := by
  refine (shapeCast_apply _ hc x (ix2 (x 1 : Fin 512) (x 2 : Fin 64)) ?_).trans ?_
  · rw [Shape.rowMajor_val_two, Shape.rowMajor_val_three]
    show (x 1).val * 64 + (x 2).val = ((x 0).val * 512 + (x 1).val) * 64 + (x 2).val
    have h0 : (x 0).val < 1 := (x 0).isLt
    omega
  · exact extractStridedSlice_apply ![0, o] a hs (ix2 (x 1 : Fin 512) (x 2 : Fin 64)) (ix2 (x 1 : Fin 512) cc) (fun b => by
      match b with
      | ⟨0, _⟩ => show (x 1).val = 0 + (x 1).val; omega
      | ⟨1, _⟩ => show cc.val = o + (x 2).val; exact hcc)

end Cert.KernelIdeal.Hand
end
-- ==== Proof.R0Blk.lean ====
/-
  Region 0: the 48 slabs the body stores are one function of the block index — at (g, r, j) the [512,3072]
  product plus bias at (r, 64·g + j) — so the block the body leaves is that function.
-/
import proofs.«143892_j7258494730873_2_alg».proof.Proof.R0Pay
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-- The block the body leaves, from the [512,3072] product a: at (g, r, j) the product at (r, 64·g + j). -/
def blk0 (a : FVec Ideal S512x3072 .bf16) : S48x512x64.Idx → EReal :=
  fun y => a (ix2 (y 1 : Fin 512) (col0 (y 0) (y 2)))

/-- Slab g's payload — columns o = 64·g … of the product under a leading unit axis — is the block function on slab g. -/
theorem slab0_piece (a : FVec Ideal S512x3072 .bf16) {g o : Nat}
    (inb : ∀ b, (![g, 0, 0] : Fin 3 → Nat) b + S1x512x64.size b ≤ S48x512x64.size b)
    (hs : S512x3072.Slices ![0, o] S512x64) (hc : S512x64.ShapeCasts S1x512x64) (ho : o = g * 64)
    (x : (Rect.unit (s := S48x512x64) ![g, 0, 0] S1x512x64.size inb).shape.Idx) :
    shapeCast S1x512x64 (extractStridedSlice S512x64 ![0, o] a hs) hc x
      = blk0 a ((Rect.unit (s := S48x512x64) ![g, 0, 0] S1x512x64.size inb).emb x) := by
  have h0 : (x 0).val < 1 := (x 0).isLt
  have e0 : ((Rect.unit (s := S48x512x64) ![g, 0, 0] S1x512x64.size inb).emb x 0 : Nat) = g + 1 * (x 0).val := rfl
  have e1 : ((Rect.unit (s := S48x512x64) ![g, 0, 0] S1x512x64.size inb).emb x 1 : Nat) = 0 + 1 * (x 1).val := rfl
  have e2 : ((Rect.unit (s := S48x512x64) ![g, 0, 0] S1x512x64.size inb).emb x 2 : Nat) = 0 + 1 * (x 2).val := rfl
  unfold blk0
  refine (slab0_apply a o hs hc x (col0 ((Rect.unit (s := S48x512x64) ![g, 0, 0] S1x512x64.size inb).emb x 0)
    ((Rect.unit (s := S48x512x64) ![g, 0, 0] S1x512x64.size inb).emb x 2)) ?_).trans ?_
  · show ((Rect.unit (s := S48x512x64) ![g, 0, 0] S1x512x64.size inb).emb x 0 : Nat) * 64
        + ((Rect.unit (s := S48x512x64) ![g, 0, 0] S1x512x64.size inb).emb x 2 : Nat) = o + (x 2).val
    rw [e0, e2, ho]; omega
  · exact congrArg a (funext fun b => Fin.ext (by
      match b with
      | ⟨0, _⟩ => show (x 1).val = ((Rect.unit (s := S48x512x64) ![g, 0, 0] S1x512x64.size inb).emb x 1 : Nat); rw [e1]; omega
      | ⟨1, _⟩ => rfl))

/-- Every one of the 48 pieces is the block function on its slab. -/
theorem pieces0_3_blk (x0 : Vec Ideal S512x1024 .f32) (x1 : Vec Ideal S1024x3072 .bf16) (x2 : Vec Ideal S3072 .f32) :
    ∀ p ∈ pieces0_3 (F := Ideal) x0 x1 x2, ∀ x : p.1.shape.Idx, p.2 x = blk0 (acc0 (F := Ideal) x0 x1 x2) (p.1.emb x) := by
  unfold pieces0_3
  dsimp only
  repeat' (first
    | exact fun _ h => absurd h List.not_mem_nil
    | refine List.forall_mem_cons.mpr ⟨fun x => slab0_piece (acc0 (F := Ideal) x0 x1 x2) (by decide) (by decide) _ (by decide) x, ?_⟩)

/-- So the block is that one function: the slabs cover it. -/
theorem out0_3_eq (x0 : Vec Ideal S512x1024 .f32) (x1 : Vec Ideal S1024x3072 .bf16) (x2 : Vec Ideal S3072 .f32) :
    out0_3 (F := Ideal) x0 x1 x2 = blk0 (acc0 (F := Ideal) x0 x1 x2) :=
  funext fun y => View.canon_apply_of_pieces _ _ (pieces0_3_blk x0 x1 x2) y (cover0_3 x0 x1 x2 y)

/-- The block at (g, r, j) from the three input blocks. -/
theorem out0_3_apply (x0 : Vec Ideal S512x1024 .f32) (x1 : Vec Ideal S1024x3072 .bf16) (x2 : Vec Ideal S3072 .f32)
    (g : Fin 48) (r : Fin 512) (j : Fin 64) :
    out0_3 (F := Ideal) x0 x1 x2 (ix3 g r j)
      = (∑ k : Fin 1024, x0 (ix2 r k) * x1 (ix2 k (col0 g j))) + x2 (ix1 (col0 g j)) := by
  rw [out0_3_eq]
  exact acc0_apply x0 x1 x2 r (col0 g j)

end Cert.KernelIdeal.Hand
end
-- ==== Proof.Value0.lean ====
/-
  Region 0: what the region leaves in its output array, as one function of the arrays it reads.

  Point t of the grid stages rows 512·t … 512·t+511 of the activations and the whole weights and bias, and writes
  back rows 512·t … 512·t+511 (on the middle axis) of the [48,4096,64] result. What it writes back is the block
  of G0 there: entry (g, r, j) of the block is the product-plus-bias at (512·t + r, 64·g + j). The eight points'
  blocks tile the middle axis, so the whole array ends at G0 of the arrays read.
-/
import proofs.«143892_j7258494730873_2_alg».proof.Proof.Region0
import proofs.«143892_j7258494730873_2_alg».proof.Proof.R0Blk
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

-- the TensorCore's buffer contents when the region is entered, at the exact values
variable (V : (c : Dev nD) → (b : Ref sig .tc) → Buf (Elt Ideal) ((c : Thread nD τ).loc b))

/-- The printed index maps over the grid: window 0 and the output move with the point on one axis, the others stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = t.val ∧ win0_3.index t (2 : Fin 3) = 0 :=
  (by decide +kernel : ∀ t : Fin grid0.N, _)

/-- Block t of G0, at (g, r, j), from block t of the activations and the whole weights and bias: rows 512·t … of the
    activations are rows 512·t … (on the middle axis) of the result. -/
theorem block0_at (t : Fin cfg0.N) (X : S4096x1024.Idx → EReal) (W : S1024x3072.Idx → EReal) (B : S3072.Idx → EReal)
    (g : Fin 48) (r : Fin 512) (j : Fin 64) :
    (∑ k : Fin 1024, X (((cfg0.win 0).blk t).view.emb (ix2 r k)) * W (((cfg0.win 1).blk t).view.emb (ix2 k (col0 g j))))
        + B (((cfg0.win 2).blk t).view.emb (ix1 (col0 g j)))
      = G0 X W B (((cfg0.win 3).blk t).view.emb (ix3 g r j)) := by
  have ht : t.val < 8 := lt_of_lt_of_eq t.isLt N_0
  obtain ⟨e00, e01, e10, e11, e20, e30, e31, e32⟩ := idx_facts0 t
  have h0 : ∀ k : Fin 1024, ((cfg0.win 0).blk t).view.emb (ix2 r k) = ix2 (⟨t.val * 512 + r.val, by omega⟩ : Fin 4096) k := fun k => by
    funext a; apply Fin.ext
    match a with
    | ⟨0, _⟩ => show win0_0.index t (0 : Fin 2) * 512 + 1 * r.val = t.val * 512 + r.val; rw [e00]; omega
    | ⟨1, _⟩ => show win0_0.index t (1 : Fin 2) * 1024 + 1 * k.val = k.val; rw [e01]; omega
  have h1 : ∀ (k : Fin 1024) (cc : Fin 3072), ((cfg0.win 1).blk t).view.emb (ix2 k cc) = ix2 k cc := fun k cc => by
    funext a; apply Fin.ext
    match a with
    | ⟨0, _⟩ => show win0_1.index t (0 : Fin 2) * 1024 + 1 * k.val = k.val; rw [e10]; omega
    | ⟨1, _⟩ => show win0_1.index t (1 : Fin 2) * 3072 + 1 * cc.val = cc.val; rw [e11]; omega
  have h2 : ∀ cc : Fin 3072, ((cfg0.win 2).blk t).view.emb (ix1 cc) = ix1 cc := fun cc => by
    funext a; apply Fin.ext
    match a with
    | ⟨0, _⟩ => show win0_2.index t (0 : Fin 1) * 3072 + 1 * cc.val = cc.val; rw [e20]; omega
  have h3 : ((cfg0.win 3).blk t).view.emb (ix3 g r j) = ix3 g (⟨t.val * 512 + r.val, by omega⟩ : Fin 4096) j := by
    funext a; apply Fin.ext
    match a with
    | ⟨0, _⟩ => show win0_3.index t (0 : Fin 3) * 48 + 1 * g.val = g.val; rw [e30]; omega
    | ⟨1, _⟩ => show win0_3.index t (1 : Fin 3) * 512 + 1 * r.val = t.val * 512 + r.val; rw [e31]; omega
    | ⟨2, _⟩ => show win0_3.index t (2 : Fin 3) * 64 + 1 * j.val = j.val; rw [e32]; omega
  rw [h3, G0_apply, h2]
  refine congrArg (· + _) (Finset.sum_congr rfl fun k _ => ?_)
  rw [h0 k, h1 k]

/-- What point t writes back is block t of G0 of the arrays as the region finds them. -/
theorem flushed0_eq (c : Dev nD) (t : Fin cfg0.N) :
    (dat0 (F := Ideal) V c).flushed 3 t
      = ((cfg0.win 3).blk t).view.read (Elt Ideal) (G0 (V c main_v0) (V c main_v1) (V c main_arg2)) := by
  show (cfg0.win 3).cut (grid0.coords t) ((dat0 (F := Ideal) V c).after 3 t) = _
  rw [after0_3]
  funext y
  obtain ⟨g, r, j, rfl⟩ : ∃ (g : Fin 48) (r : Fin 512) (j : Fin 64), y = ix3 g r j := ⟨y 0, y 1, y 2, eq_ix3 y⟩
  refine (out0_3_apply (iblk0 V c 0 t) (iblk0 V c 1 t) (iblk0 V c 2 t) g r j).trans ?_
  exact block0_at t (V c main_v0) (V c main_v1) (V c main_arg2) g r j

/-- An index of the result lies in point t's block iff its middle coordinate is among rows 512·t … 512·t+511. -/
theorem mem_blk0_3 (t : Fin cfg0.N) (i : S48x4096x64.Idx) :
    i ∈ ((cfg0.win 3).blk t).view.set ↔ ∀ a : Fin 3, win0_3.index t a * S48x512x64.size a ≤ (i a).val
      ∧ (i a).val < win0_3.index t a * S48x512x64.size a + S48x512x64.size a := by
  show i ∈ ((View.whole main_v3).slice (win0_3.rect t)).set ↔ _
  rw [View.set_slice_whole, Rect.mem_set_unit]
  exact Iff.rfl

/-- Every index of the result is in some point's block: the point is its row divided by 512. -/
theorem cover0_arr (i : S48x4096x64.Idx) :
    ∃ t : Fin cfg0.N, (cfg0.win 3).flush t = true ∧ i ∈ ((cfg0.win 3).blk t).view.set := by
  have hi0 : (i 0).val < 48 := (i 0).isLt
  have hi1 : (i 1).val < 4096 := (i 1).isLt
  have hi2 : (i 2).val < 64 := (i 2).isLt
  have hN : cfg0.N = 8 := N_0
  let t : Fin cfg0.N := ⟨(i 1).val / 512, by rw [hN]; omega⟩
  have htv : t.val = (i 1).val / 512 := rfl
  obtain ⟨-, -, -, -, -, e30, e31, e32⟩ := idx_facts0 t
  refine ⟨t, flush0_3 t, ?_⟩
  rw [mem_blk0_3]
  intro a
  match a with
  | ⟨0, _⟩ => show win0_3.index t (0 : Fin 3) * 48 ≤ (i 0).val ∧ (i 0).val < win0_3.index t (0 : Fin 3) * 48 + 48; rw [e30]; omega
  | ⟨1, _⟩ => show win0_3.index t (1 : Fin 3) * 512 ≤ (i 1).val ∧ (i 1).val < win0_3.index t (1 : Fin 3) * 512 + 512; rw [e31, htv]; omega
  | ⟨2, _⟩ => show win0_3.index t (2 : Fin 3) * 64 ≤ (i 2).val ∧ (i 2).val < win0_3.index t (2 : Fin 3) * 64 + 64; rw [e32]; omega

/-- The result array after the region: G0 of the arrays the region reads. -/
theorem final0 (c : Dev nD) :
    (dat0 (F := Ideal) V c).arrAt 3 cfg0.N = G0 (V c main_v0) (V c main_v1) (V c main_arg2) :=
  (dat0 (F := Ideal) V c).arrAt_eq_of_cover 3 (G0 (V c main_v0) (V c main_v1) (V c main_arg2))
    (fun t _ => flushed0_eq V c t) cover0_arr

end Cert.KernelIdeal.Hand
end
-- ==== Proof.Spec1.lean ====
/-
  What the attention region computes, as one function of the packed query/key/value array.

  The packed array has 48 slabs of 4096 rows of 64 numbers: slab 3h holds the queries of head h, slab
  3h+1 its keys, slab 3h+2 its values; rows 2048·b … 2048·b+2047 of a slab belong to batch element b.
  The region's result has one slab per pair (b, h), numbered 16·b + h, of 2048 rows of 64 numbers.

  For one query row q, keys k and values v (2048 of each), the result row is
      ∑ₜ  (p t / ∑ₜ' p t') · v t,        p t = exp (s t − max over t' of s t'),    s t = (∑_d q d · k t d) · c,
  with c the scale constant as the program writes it and the maximum taken from the program's
  starting value (the word of −∞), both kept as their binary words.  Everything is read on the extended reals.
-/
import Idealize.ShloMosaic.PureOps.Ideal.Laws
import Idealize.ShloMosaic.Lib.ValueIdx

noncomputable section

namespace Cert.KernelIdeal.Hand

open Idealize.ShloMosaic Idealize.ShloMosaic.ValueIdx

/-! ## One query row against all keys and values -/

/-- The scaled score of the query row against key `t`. -/
def rowScore (q : Fin 64 → EReal) (k : Fin 2048 → Fin 64 → EReal) (t : Fin 2048) : EReal :=
  (∑ d : Fin 64, q d * k t d) * Ideal.ofBits .f32 0x3E000000#32

/-- The largest score of the row, from the starting value the program gives the maximum. -/
def rowMax (q : Fin 64 → EReal) (k : Fin 2048 → Fin 64 → EReal) : EReal :=
  (Finset.univ : Finset (Fin 2048)).fold max (Ideal.ofBits .f32 0xFF800000#32) (rowScore q k)

/-- The unnormalised weight of key `t`. -/
def rowWeight (q : Fin 64 → EReal) (k : Fin 2048 → Fin 64 → EReal) (t : Fin 2048) : EReal :=
  Ideal.exp (rowScore q k t - rowMax q k)

/-- The sum of the row's weights. -/
def rowNorm (q : Fin 64 → EReal) (k : Fin 2048 → Fin 64 → EReal) : EReal :=
  ∑ t : Fin 2048, rowWeight q k t

/-- The result row: the values averaged with the normalised weights. -/
def attnRow (q : Fin 64 → EReal) (k v : Fin 2048 → Fin 64 → EReal) (j : Fin 64) : EReal :=
  ∑ t : Fin 2048, Ideal.div (rowWeight q k t) (rowNorm q k) * v t j

/-! ## Where a (batch, head) pair's rows sit in the packed array -/

/-- The slab of the queries of result slab `bh` (head `bh % 16`), -/
def slabQ (bh : Fin 32) : Fin 48 := ⟨bh.val % 16 * 3, by omega⟩
/-- of its keys, -/
def slabK (bh : Fin 32) : Fin 48 := ⟨bh.val % 16 * 3 + 1, by omega⟩
/-- and of its values. -/
def slabV (bh : Fin 32) : Fin 48 := ⟨bh.val % 16 * 3 + 2, by omega⟩
/-- Row `s` of batch element `bh / 16` in a slab. -/
def slabRow (bh : Fin 32) (s : Fin 2048) : Fin 4096 := ⟨bh.val / 16 * 2048 + s.val, by omega⟩

/-! ## The region's result -/

/-- The result at slab `bh`, row `s`, column `j`. -/
def G1at (qkv : (⟨3, ![48, 4096, 64]⟩ : Shape).Idx → EReal) (bh : Fin 32) (s : Fin 2048) (j : Fin 64) : EReal :=
  attnRow (fun d => qkv (ix3 (slabQ bh) (slabRow bh s) d))
    (fun t d => qkv (ix3 (slabK bh) (slabRow bh t) d))
    (fun t d => qkv (ix3 (slabV bh) (slabRow bh t) d)) j

/-- The region's result array as one function of the packed array. -/
def G1 (qkv : (⟨3, ![48, 4096, 64]⟩ : Shape).Idx → EReal) : (⟨3, ![32, 2048, 64]⟩ : Shape).Idx → EReal :=
  fun i => G1at qkv (i 0) (i 1) (i 2)

theorem G1_ix3 (qkv : (⟨3, ![48, 4096, 64]⟩ : Shape).Idx → EReal) (bh : Fin 32) (s : Fin 2048) (j : Fin 64) :
    G1 qkv (ix3 bh s j) = G1at qkv bh s j := rfl

end Cert.KernelIdeal.Hand

end
-- ==== Proof.R1Lay.lean ====
/-
  Two layout readings the row statistics of the attention body need: a vector turned into a column,
  and a column repeated along every row.
-/
import Idealize.ShloMosaic.Lib.ValueLayout

namespace Cert.KernelIdeal.Hand

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.KernelIdeal.Hand
-- ==== Proof.R1Ops.lean ====
/-
  The non-pointwise steps of the attention body, each read at one index on the extended reals:
  the query·key product (both operands contracted along their last axis), the weights·values product,
  and a row's maximum and sum over the 2048 keys together with their repetition along the row.
-/
import proofs.«143892_j7258494730873_2_alg».proof.Proof.Gen.KernelIdeal
import proofs.«143892_j7258494730873_2_alg».proof.Proof.R1Lay
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

/-! ## A row's maximum and sum -/

/-- Reducing along the key axis, the index put back at key `k` of row `r` is `(r, k)`. -/
theorem lift_row (h : S512x2048.Reduces [1] S512) (r : Fin 512) (k : Fin 2048) : h.lift (ix1 r) k = ix2 r k :=
  funext fun a => Fin.ext (by
    match a with
    | ⟨0, _⟩ => rfl
    | ⟨1, _⟩ => rfl)

/-- The maximum over the key axis, at row `r`: the fold of `max` over the row from the starting word. -/
theorem rowMax_apply (s : FVec Ideal S512x2048 .f32) (hr : S512x2048.Reduces [1] S512) (hφ : FKind.Formats .f32)
    (hacc : (0xFF800000#32 : BitVec 32) = FKind.maximumf.neutral .f32 hφ) (r : Fin 512) :
    multiReduction .maximumf [1] S512 s 0xFF800000#32 hr hφ hacc (ix1 r)
      = (Finset.univ : Finset (Fin 2048)).fold max (Ideal.ofBits .f32 0xFF800000#32) (fun t => s (ix2 r t)) := by
  refine (Ideal.multiReduction_maximumf_single s _ hr hφ hacc (ix1 r)).trans ?_
  have e : (s ∘ hr.lift (ix1 r)) = fun t : Fin 2048 => s (ix2 r t) := funext fun t => congrArg s (lift_row hr r t)
  rw [e]; rfl

/-- The sum over the key axis, at row `r`. -/
theorem rowSum_apply (s : FVec Ideal S512x2048 .f32) (hr : S512x2048.Reduces [1] S512) (hφ : FKind.Formats .f32)
    (hacc : (0x00000000#32 : BitVec 32) = FKind.add.neutral .f32 hφ) (r : Fin 512) :
    multiReduction .add [1] S512 s 0x00000000#32 hr hφ hacc (ix1 r) = ∑ t : Fin 2048, s (ix2 r t) := by
  refine (Ideal.multiReduction_add_single s _ hr hφ hacc (ix1 r)).trans ?_
  exact Finset.sum_congr rfl fun t _ => congrArg s (lift_row hr r t)

/-- A per-row number made a column and repeated along the row reads, at `(r, t)`, the number of row `r`. -/
theorem keepdims_apply (w : FVec Ideal S512 .f32) (hc : S512.ShapeCasts S512x1) (hb : S512x1.Broadcasts S512x2048)
    (r : Fin 512) (t : Fin 2048) : broadcastTo S512x2048 (shapeCast S512x1 w hc) hb (ix2 r t) = w (ix1 r) :=
  (broadcastTo_a1_ab_apply _ hb r t).trans (shapeCast_a_a1_apply w hc r 0)

/-! ## The query·key product -/

theorem lhs_qk_0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_qk_1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem rhs_qk_0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_qk_1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

/-- Query row `r` against key row `t`, into a zero accumulator: the sum over the 64 shared coordinates. -/
theorem scores_apply (q : FVec Ideal S512x64 .bf16) (k : FVec Ideal S2048x64 .bf16) (r : Fin 512) (t : Fin 2048) :
    matmul dot_S512x64_S2048x64_S512x2048_1_1_0_0_n_n none q k (constant S512x2048 .f32 0x00000000#32) (ix2 r t)
      = ∑ d : Fin 64, q (ix2 r d) * k (ix2 t d) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun d _ => ?_
  have hk := ValueIdx.contrEquiv1_symm_val dot_S512x64_S2048x64_S512x2048_1_1_0_0_n_n 64 rfl rfl d
  have el : dot_S512x64_S2048x64_S512x2048_1_1_0_0_n_n.lhsIdx (ix2 r t) ((ValueIdx.contrEquiv1 dot_S512x64_S2048x64_S512x2048_1_1_0_0_n_n 64 rfl rfl).symm d) = ix2 r d := funext fun a => Fin.ext (by
    match a with
    | ⟨0, _⟩ => exact lhs_qk_0 _ _
    | ⟨1, _⟩ => exact (lhs_qk_1 _ _).trans hk)
  have er : dot_S512x64_S2048x64_S512x2048_1_1_0_0_n_n.rhsIdx (ix2 r t) ((ValueIdx.contrEquiv1 dot_S512x64_S2048x64_S512x2048_1_1_0_0_n_n 64 rfl rfl).symm d) = ix2 t d := funext fun a => Fin.ext (by
    match a with
    | ⟨0, _⟩ => exact rhs_qk_0 _ _
    | ⟨1, _⟩ => exact (rhs_qk_1 _ _).trans hk)
  rw [el, er]

/-! ## The weights·values product -/

theorem lhs_pv_0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_pv_1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem rhs_pv_0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem rhs_pv_1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weight row `r` against value column `j`, into a zero accumulator: the sum over the 2048 keys. -/
theorem pv_apply (p : FVec Ideal S512x2048 .bf16) (v : FVec Ideal S2048x64 .bf16) (r : Fin 512) (j : Fin 64) :
    matmul dot_S512x2048_S2048x64_S512x64_1_0_0_1_n_n none p v (constant S512x64 .f32 0x00000000#32) (ix2 r j)
      = ∑ t : Fin 2048, p (ix2 r t) * v (ix2 t j) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun t _ => ?_
  have hk := ValueIdx.contrEquiv1_symm_val dot_S512x2048_S2048x64_S512x64_1_0_0_1_n_n 2048 rfl rfl t
  have el : dot_S512x2048_S2048x64_S512x64_1_0_0_1_n_n.lhsIdx (ix2 r j) ((ValueIdx.contrEquiv1 dot_S512x2048_S2048x64_S512x64_1_0_0_1_n_n 2048 rfl rfl).symm t) = ix2 r t := funext fun a => Fin.ext (by
    match a with
    | ⟨0, _⟩ => exact lhs_pv_0 _ _
    | ⟨1, _⟩ => exact (lhs_pv_1 _ _).trans hk)
  have er : dot_S512x2048_S2048x64_S512x64_1_0_0_1_n_n.rhsIdx (ix2 r j) ((ValueIdx.contrEquiv1 dot_S512x2048_S2048x64_S512x64_1_0_0_1_n_n 2048 rfl rfl).symm t) = ix2 t j := funext fun a => Fin.ext (by
    match a with
    | ⟨0, _⟩ => exact (rhs_pv_0 _ _).trans hk
    | ⟨1, _⟩ => exact rhs_pv_1 _ _)
  rw [el, er]

end Cert.KernelIdeal.Hand

end
-- ==== Proof.R1Pay.lean ====
/-
  The attention body's arithmetic read at one index.  For the loaded query block `x0`, key block `x1` and value
  block `x2` (each with a leading axis of extent one), the stored value at row `r`, column `j` is the row-level
  attention of query row `r` against all 2048 keys and values.  The steps: the scaled scores of a row, the
  exponentials of the scores shifted by the row's maximum, their quotient by the row's sum, and the product with
  the values; changes of number format are the identity on the extended reals.
-/
import proofs.«143892_j7258494730873_2_alg».proof.Proof.Gen.KernelIdeal.Skeleton
import proofs.«143892_j7258494730873_2_alg».proof.Proof.Spec1
import proofs.«143892_j7258494730873_2_alg».proof.Proof.R1Ops

set_option maxRecDepth 16384

noncomputable section

namespace Cert.KernelIdeal.Hand

open Idealize.ShloMosaic Idealize.ShloMosaic.ValueIdx
open Cert.KernelIdeal Cert.KernelIdeal.Gen

/-- The exponential of a vector reads pointwise. -/
theorem exp_apply {s : Shape} {φ : FTy} (a : FVec Ideal s φ) (i : s.Idx) : exp a i = Ideal.exp (a i) := rfl

/-! ## The scaled scores -/

/-- The scaled score of query row `r` against key row `t`, from the loaded blocks. -/
theorem score_apply (x0 : FVec Ideal S1x512x64 .bf16) (x1 : FVec Ideal S1x2048x64 .bf16)
    (h0 : S1x512x64.ShapeCasts S512x64) (h1 : S1x2048x64.ShapeCasts S2048x64) (r : Fin 512) (t : Fin 2048) :
    mulf (matmul dot_S512x64_S2048x64_S512x2048_1_1_0_0_n_n none (shapeCast S512x64 x0 h0) (shapeCast S2048x64 x1 h1) (constant S512x2048 .f32 0x00000000#32))
        (broadcast S512x2048 (FloatOps.ofBits (F := Ideal) .f32 0x3E000000#32)) (ix2 r t)
      = rowScore (fun d => x0 (ix3 (0 : Fin 1) r d)) (fun t d => x1 (ix3 (0 : Fin 1) t d)) t := by
  unfold rowScore
  refine (mulf_apply _ _ _).trans ?_
  refine congrArg₂ (· * ·) ?_ rfl
  refine (scores_apply _ _ r t).trans ?_
  exact Finset.sum_congr rfl fun d _ =>
    congrArg₂ (· * ·) (shapeCast_1ab_ab_apply x0 h0 r d) (shapeCast_1ab_ab_apply x1 h1 t d)

/-! ## The weights -/

/-- The exponentials of the scores shifted by their row's maximum, as the body writes them. -/
abbrev expShift (S : FVec Ideal S512x2048 .f32) (hr : S512x2048.Reduces [1] S512) (hφ : FKind.Formats .f32)
    (hmax : (0xFF800000#32 : BitVec 32) = FKind.maximumf.neutral .f32 hφ) (hc : S512.ShapeCasts S512x1)
    (hb : S512x1.Broadcasts S512x2048) : FVec Ideal S512x2048 .f32 :=
  exp (subf S (broadcastTo S512x2048 (shapeCast S512x1 (multiReduction .maximumf [1] S512 S 0xFF800000#32 hr hφ hmax) hc) hb))

theorem expShift_apply (S : FVec Ideal S512x2048 .f32) (hr : S512x2048.Reduces [1] S512) (hφ : FKind.Formats .f32)
    (hmax : (0xFF800000#32 : BitVec 32) = FKind.maximumf.neutral .f32 hφ) (hc : S512.ShapeCasts S512x1)
    (hb : S512x1.Broadcasts S512x2048) (r : Fin 512) (t : Fin 2048) :
    expShift S hr hφ hmax hc hb (ix2 r t)
      = Ideal.exp (S (ix2 r t)
          - (Finset.univ : Finset (Fin 2048)).fold max (Ideal.ofBits .f32 0xFF800000#32) (fun t' => S (ix2 r t'))) := by
  show Ideal.exp (S (ix2 r t) - broadcastTo S512x2048 (shapeCast S512x1 (multiReduction .maximumf [1] S512 S 0xFF800000#32 hr hφ hmax) hc) hb (ix2 r t)) = _
  rw [keepdims_apply, rowMax_apply]

/-- The normalised weight of key `t` in row `r`: the shifted exponential over the row's sum of them. -/
theorem weights_apply (S : FVec Ideal S512x2048 .f32) (hr : S512x2048.Reduces [1] S512) (hφ : FKind.Formats .f32)
    (hmax : (0xFF800000#32 : BitVec 32) = FKind.maximumf.neutral .f32 hφ)
    (hadd : (0x00000000#32 : BitVec 32) = FKind.add.neutral .f32 hφ) (hc : S512.ShapeCasts S512x1)
    (hb : S512x1.Broadcasts S512x2048) (hlt : FTy.bits .bf16 < FTy.bits .f32) (r : Fin 512) (t : Fin 2048) :
    truncf .bf16 (divf (expShift S hr hφ hmax hc hb)
        (broadcastTo S512x2048 (shapeCast S512x1
          (multiReduction .add [1] S512 (expShift S hr hφ hmax hc hb) 0x00000000#32 hr hφ hadd) hc) hb)) hlt (ix2 r t)
      = Ideal.div
          (Ideal.exp (S (ix2 r t)
            - (Finset.univ : Finset (Fin 2048)).fold max (Ideal.ofBits .f32 0xFF800000#32) (fun t' => S (ix2 r t'))))
          (∑ t'' : Fin 2048, Ideal.exp (S (ix2 r t'')
            - (Finset.univ : Finset (Fin 2048)).fold max (Ideal.ofBits .f32 0xFF800000#32) (fun t' => S (ix2 r t')))) := by
  show Ideal.div (expShift S hr hφ hmax hc hb (ix2 r t))
      (broadcastTo S512x2048 (shapeCast S512x1
        (multiReduction .add [1] S512 (expShift S hr hφ hmax hc hb) 0x00000000#32 hr hφ hadd) hc) hb (ix2 r t)) = _
  rw [keepdims_apply, rowSum_apply, expShift_apply]
  exact congrArg _ (Finset.sum_congr rfl fun t'' _ => expShift_apply S hr hφ hmax hc hb r t'')

/-! ## The stored value -/

/-- The body's stored value at row `r`, column `j` is the row-level attention of query row `r`. -/
theorem pay1_apply (x0 : FVec Ideal S1x512x64 .bf16) (x1 x2 : FVec Ideal S1x2048x64 .bf16) (u : Fin 1) (r : Fin 512) (j : Fin 64) :
    k1_pay1 (F := Ideal) x0 x1 x2 (ix3 u r j)
      = attnRow (fun d => x0 (ix3 (0 : Fin 1) r d)) (fun t d => x1 (ix3 (0 : Fin 1) t d)) (fun t d => x2 (ix3 (0 : Fin 1) t d)) j := by
  unfold k1_pay1
  dsimp only
  refine (shapeCast_ab_1ab_apply _ _ u r j).trans ?_
  refine (pv_apply _ _ r j).trans ?_
  unfold attnRow
  refine Finset.sum_congr rfl fun t _ => ?_
  refine congrArg₂ (· * ·) ?_ (shapeCast_1ab_ab_apply x2 _ t j)
  refine (weights_apply _ _ _ _ _ _ _ _ r t).trans ?_
  unfold rowNorm rowWeight rowMax
  simp only [score_apply]

end Cert.KernelIdeal.Hand

end
-- ==== Proof.Value1.lean ====
/-
  What the attention region leaves in its output array.

  The 128 grid points are the pairs (result slab bh, query tile jt), point number 4·bh + jt.  At such a point
  the query window holds rows 512·jt … 512·jt+511 of batch element bh / 16 in the query slab of head bh % 16,
  the key and value windows hold all 2048 rows of that batch element in the head's key and value slabs, and the
  output window is rows 512·jt … 512·jt+511 of result slab bh.  So what the point writes back is that block of
  the row-level attention of the packed array; the blocks of the 128 points tile the output array; hence the
  array ends as that one function of the packed array.
-/
import proofs.«143892_j7258494730873_2_alg».proof.Proof.Region1
import proofs.«143892_j7258494730873_2_alg».proof.Proof.R1Pay
import Idealize.ShloMosaic.Lib.Pipeline.Value
set_option maxRecDepth 16384
noncomputable section
namespace Cert.KernelIdeal.Hand
open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)
open Cert.KernelIdeal Cert.KernelIdeal.Gen
-- the TensorCore's buffer contents when the region is entered, on the extended reals
variable (V : (c : Dev nD) → (b : Ref sig .tc) → Buf (Elt Ideal) ((c : Thread nD τ).loc b))
variable (q1 : Fin cfg1.W → PosShare TreeShare)

theorem hz3 : (![0, 0, 0] : Fin 3 → Nat) = fun _ => 0 := funext fun a => by fin_cases a <;> rfl

/-! ## The index maps in closed form -/

/-- Which block of its array each window holds at point `t`, checked at each of the 128 points. -/
theorem idx_facts1 : ∀ t : Fin cfg1.N,
    win1_0.index t (0 : Fin 3) = t.val / 4 % 16 * 3 ∧ win1_0.index t (1 : Fin 3) = t.val / 4 / 16 * 4 + t.val % 4
      ∧ win1_0.index t (2 : Fin 3) = 0
    ∧ win1_1.index t (0 : Fin 3) = t.val / 4 % 16 * 3 + 1 ∧ win1_1.index t (1 : Fin 3) = t.val / 4 / 16
      ∧ win1_1.index t (2 : Fin 3) = 0
    ∧ win1_2.index t (0 : Fin 3) = t.val / 4 % 16 * 3 + 2 ∧ win1_2.index t (1 : Fin 3) = t.val / 4 / 16
      ∧ win1_2.index t (2 : Fin 3) = 0
    ∧ win1_3.index t (0 : Fin 3) = t.val / 4 ∧ win1_3.index t (1 : Fin 3) = t.val % 4
      ∧ win1_3.index t (2 : Fin 3) = 0 :=
  (by decide +kernel : ∀ t : Fin grid1.N, _)

/-! ## One point -/

/-- Row `r` of query tile `jt` among the 2048 rows of a batch element. -/
def tileRow (jt : Fin 4) (r : Fin 512) : Fin 2048 := ⟨jt.val * 512 + r.val, by omega⟩

/-- If the three loaded blocks are the rows of the packed array `A` that result slab `bh`, query tile `jt` reads,
    the stored value at a block index is the region's result at the array index under it. -/
theorem point_eq (A : S48x4096x64.Idx → EReal) (x0 : FVec Ideal S1x512x64 .bf16) (x1 x2 : FVec Ideal S1x2048x64 .bf16)
    (bh : Fin 32) (jt : Fin 4)
    (h0 : ∀ (r : Fin 512) (d : Fin 64), x0 (ix3 (0 : Fin 1) r d) = A (ix3 (slabQ bh) (slabRow bh (tileRow jt r)) d))
    (h1 : ∀ (t : Fin 2048) (d : Fin 64), x1 (ix3 (0 : Fin 1) t d) = A (ix3 (slabK bh) (slabRow bh t) d))
    (h2 : ∀ (t : Fin 2048) (d : Fin 64), x2 (ix3 (0 : Fin 1) t d) = A (ix3 (slabV bh) (slabRow bh t) d))
    (y : S1x512x64.Idx) (i : S32x2048x64.Idx)
    (hi0 : (i 0).val = bh.val) (hi1 : (i 1).val = jt.val * 512 + (y 1).val) (hi2 : (i 2).val = (y 2).val) :
    k1_pay1 (F := Ideal) x0 x1 x2 y = G1 A i := by
  obtain ⟨u, r, j, rfl⟩ : ∃ (u : Fin 1) (r : Fin 512) (j : Fin 64), y = ix3 u r j := ⟨y 0, y 1, y 2, eq_ix3 y⟩
  have hi : i = ix3 bh (tileRow jt r) j := funext fun a => Fin.ext (by
    match a with
    | ⟨0, _⟩ => exact hi0
    | ⟨1, _⟩ => exact hi1
    | ⟨2, _⟩ => exact hi2)
  have e0 : (fun d => x0 (ix3 (0 : Fin 1) r d)) = fun d => A (ix3 (slabQ bh) (slabRow bh (tileRow jt r)) d) :=
    funext fun d => h0 r d
  have e1 : (fun t d => x1 (ix3 (0 : Fin 1) t d)) = fun t d => A (ix3 (slabK bh) (slabRow bh t) d) :=
    funext fun t => funext fun d => h1 t d
  have e2 : (fun t d => x2 (ix3 (0 : Fin 1) t d)) = fun t d => A (ix3 (slabV bh) (slabRow bh t) d) :=
    funext fun t => funext fun d => h2 t d
  rw [hi, G1_ix3, pay1_apply, e0, e1, e2]
  rfl

/-! ## What a point writes back -/

/-- Point `t` writes back block `t` of the region's result. -/
theorem flushed1_eq (c : Dev nD) (t : Fin cfg1.N) :
    (dat1 (F := Ideal) V q1 c).flushed 3 t = ((cfg1.win 3).blk t).view.read (Elt Ideal) (G1 (V c main_v3)) := by
  show (cfg1.win 3).cut (grid1.coords t) ((dat1 V q1 c).after 3 t) = _
  rw [after1_3]
  unfold out1_3
  rw [View.canon_unit_zero hz3]
  simp only [View.ld_unit_zero (S := S1x512x64) hz3, View.ld_unit_zero (S := S1x2048x64) hz3]
  obtain ⟨e00, e01, e02, e10, e11, e12, e20, e21, e22, e30, e31, e32⟩ := idx_facts1 t
  have hN : cfg1.N = 128 := N_1
  have htN : t.val < 128 := by have h := t.isLt; omega
  funext y
  show k1_pay1 (F := Ideal) (iblk1 V c 0 t) (iblk1 V c 1 t) (iblk1 V c 2 t) y
      = G1 (V c main_v3) (((cfg1.win 3).blk t).view.emb y)
  refine point_eq (V c main_v3) _ _ _ ⟨t.val / 4, by omega⟩ ⟨t.val % 4, by omega⟩ ?_ ?_ ?_ y _ ?_ ?_ ?_
  · intro r d
    show V c main_v3 (((cfg1.win 0).blk t).view.emb (ix3 (0 : Fin 1) r d)) = _
    refine congrArg _ (funext fun a => Fin.ext ?_)
    match a with
    | ⟨0, _⟩ => show win1_0.index t (0 : Fin 3) * 1 + 1 * 0 = t.val / 4 % 16 * 3; omega
    | ⟨1, _⟩ => show win1_0.index t (1 : Fin 3) * 512 + 1 * r.val = t.val / 4 / 16 * 2048 + (t.val % 4 * 512 + r.val); omega
    | ⟨2, _⟩ => show win1_0.index t (2 : Fin 3) * 64 + 1 * d.val = d.val; omega
  · intro s d
    show V c main_v3 (((cfg1.win 1).blk t).view.emb (ix3 (0 : Fin 1) s d)) = _
    refine congrArg _ (funext fun a => Fin.ext ?_)
    match a with
    | ⟨0, _⟩ => show win1_1.index t (0 : Fin 3) * 1 + 1 * 0 = t.val / 4 % 16 * 3 + 1; omega
    | ⟨1, _⟩ => show win1_1.index t (1 : Fin 3) * 2048 + 1 * s.val = t.val / 4 / 16 * 2048 + s.val; omega
    | ⟨2, _⟩ => show win1_1.index t (2 : Fin 3) * 64 + 1 * d.val = d.val; omega
  · intro s d
    show V c main_v3 (((cfg1.win 2).blk t).view.emb (ix3 (0 : Fin 1) s d)) = _
    refine congrArg _ (funext fun a => Fin.ext ?_)
    match a with
    | ⟨0, _⟩ => show win1_2.index t (0 : Fin 3) * 1 + 1 * 0 = t.val / 4 % 16 * 3 + 2; omega
    | ⟨1, _⟩ => show win1_2.index t (1 : Fin 3) * 2048 + 1 * s.val = t.val / 4 / 16 * 2048 + s.val; omega
    | ⟨2, _⟩ => show win1_2.index t (2 : Fin 3) * 64 + 1 * d.val = d.val; omega
  · show win1_3.index t (0 : Fin 3) * 1 + 1 * (y 0).val = t.val / 4
    have hy : (y 0).val < 1 := (y 0).isLt
    omega
  · show win1_3.index t (1 : Fin 3) * 512 + 1 * (y 1).val = t.val % 4 * 512 + (y 1).val
    omega
  · show win1_3.index t (2 : Fin 3) * 64 + 1 * (y 2).val = (y 2).val
    omega

/-! ## The blocks tile the output array -/

/-- An index of the output array is in point `t`'s block iff each coordinate is in the block's range on its axis. -/
theorem mem_blk1 (t : Fin cfg1.N) (i : S32x2048x64.Idx) :
    i ∈ ((cfg1.win 3).blk t).view.set ↔ ∀ a : Fin 3, win1_3.index t a * S1x512x64.size a ≤ (i a).val
      ∧ (i a).val < win1_3.index t a * S1x512x64.size a + S1x512x64.size a := by
  show i ∈ ((View.whole main_v4).slice (win1_3.rect t)).set ↔ _
  rw [View.set_slice_whole, Rect.mem_set_unit]
  exact Iff.rfl

/-- Every index of the output array is in the block of the point of its slab and query tile. -/
theorem cover1 (i : S32x2048x64.Idx) :
    ∃ t : Fin cfg1.N, (cfg1.win 3).flush t = true ∧ i ∈ ((cfg1.win 3).blk t).view.set := by
  have h0 : (i 0).val < 32 := (i 0).isLt
  have h1 : (i 1).val < 2048 := (i 1).isLt
  have h2 : (i 2).val < 64 := (i 2).isLt
  have hN : cfg1.N = 128 := N_1
  obtain ⟨t, ht⟩ : ∃ t : Fin cfg1.N, t.val = (i 0).val * 4 + (i 1).val / 512 :=
    ⟨⟨(i 0).val * 4 + (i 1).val / 512, by omega⟩, rfl⟩
  obtain ⟨-, -, -, -, -, -, -, -, -, e30, e31, e32⟩ := idx_facts1 t
  refine ⟨t, flush1_3 t, ?_⟩
  rw [mem_blk1]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 512 ≤ (i 1).val ∧ (i 1).val < win1_3.index t (1 : Fin 3) * 512 + 512
    omega
  | ⟨2, _⟩ =>
    show win1_3.index t (2 : Fin 3) * 64 ≤ (i 2).val ∧ (i 2).val < win1_3.index t (2 : Fin 3) * 64 + 64
    omega

/-! ## The output array after the region -/

/-- What the region leaves in its output array: the row-level attention of the packed array it reads. -/
theorem final1 (c : Dev nD) : (dat1 (F := Ideal) V q1 c).arrAt 3 cfg1.N = G1 (V c main_v3) :=
  (dat1 (F := Ideal) V q1 c).arrAt_eq_of_cover 3 (G1 (V c main_v3)) (fun t _ => flushed1_eq V q1 c t) cover1

end Cert.KernelIdeal.Hand
end
-- ==== Proof.Spec2.lean ====
import Idealize.ShloMosaic.Lib.ValueIdx

noncomputable section

open scoped BigOperators

namespace Cert.KernelIdeal.Hand

open Idealize.ShloMosaic Idealize.ShloMosaic.ValueIdx

/-- The output projection at row `r` of the 4096 flattened (batch, position) rows and output feature `e`: the attention rows are stored
    per (batch, head), so row `r` = (batch `r / 2048`, position `r % 2048`) of head `h` is row `r % 2048` of slab `(r / 2048) * 16 + h`;
    the 16 heads' products with the head's 64 × 1024 slice of the weight are summed, then the bias is added. -/
def G2at (a : (⟨3, ![32, 2048, 64]⟩ : Shape).Idx → EReal) (w : (⟨3, ![16, 64, 1024]⟩ : Shape).Idx → EReal)
    (b : (⟨1, ![1024]⟩ : Shape).Idx → EReal) (r : Fin 4096) (e : Fin 1024) : EReal :=
  (∑ h : Fin 16, ∑ j : Fin 64,
      a (ix3 (⟨(r.val / 2048) * 16 + h.val, by have := r.isLt; have := h.isLt; omega⟩ : Fin 32) (⟨r.val % 2048, Nat.mod_lt _ (by decide)⟩ : Fin 2048) j)
        * w (ix3 h j e))
    + b (ix1 e)

/-- What region 2 leaves in its output array, as one function of the three arrays it reads. -/
def G2 (a : (⟨3, ![32, 2048, 64]⟩ : Shape).Idx → EReal) (w : (⟨3, ![16, 64, 1024]⟩ : Shape).Idx → EReal)
    (b : (⟨1, ![1024]⟩ : Shape).Idx → EReal) : (⟨2, ![4096, 1024]⟩ : Shape).Idx → EReal :=
  fun i => G2at a w b (i 0) (i 1)

theorem G2_ix2 (a : (⟨3, ![32, 2048, 64]⟩ : Shape).Idx → EReal) (w : (⟨3, ![16, 64, 1024]⟩ : Shape).Idx → EReal)
    (b : (⟨1, ![1024]⟩ : Shape).Idx → EReal) (r : Fin 4096) (e : Fin 1024) : G2 a w b (ix2 r e) = G2at a w b r e := rfl

end Cert.KernelIdeal.Hand

end
-- ==== Proof.Bridge.lean ====
/-
  The three regions composed are the reference.

  Region 0 writes the fused projection of the flattened activations as 48 slabs of 64 lanes: slab 3h + c, row
  2048·b + s, lane j is column h·192 + 64·c + j of row (b, s) of x·wqkv + bqkv, that is, head h's query (c = 0),
  key (c = 1) or value (c = 2) at position s. Region 1 therefore forms, for the pair (b, h) in slab 16·b + h, exactly
  the scores, row maximum, exponentials, denominator and weighted values of the reference (its scale constant, the
  word of 0.125, is the reference's 1 / sqrt 64). Region 2 sums over the 16 heads and the 64 lanes of each; the
  reference sums over the 1024 columns d = 64·h + j of the merged heads: the same sum, re-indexed by the bijection
  (h, j) ↦ 64·h + j. Only sums in a commutative monoid are rearranged; no finiteness is needed.
-/
import proofs.«143892_j7258494730873_2_alg».proof.Proof.Spec0
import proofs.«143892_j7258494730873_2_alg».proof.Proof.Spec1
import proofs.«143892_j7258494730873_2_alg».proof.Proof.Spec2
import proofs.«143892_j7258494730873_2_alg».proof.Proof.SpecRef

noncomputable section

open scoped BigOperators

namespace Cert.KernelIdeal.Bridge

open Idealize.ShloMosaic Idealize.ShloMosaic.ValueIdx
open Cert.KernelIdeal.Hand Cert.ReferenceIdeal.RefValue

/-- the activations flattened to 4096 rows -/
def flatX (x : ArrX) : (⟨2, ![4096, 1024]⟩ : Shape).Idx → EReal :=
  fun i => x (ix3 (⟨(i 0).val / 2048, by have h0 : (i 0).val < 4096 := (i 0).isLt; omega⟩ : Fin 2)
    (⟨(i 0).val % 2048, Nat.mod_lt _ (by decide)⟩ : Fin 2048) (i 1 : Fin 1024))

/-- the output weights cut into 16 heads of 64 rows -/
def headsW (wo : ArrWo) : (⟨3, ![16, 64, 1024]⟩ : Shape).Idx → EReal :=
  fun i => wo (ix2 (⟨(i 0).val * 64 + (i 1).val, by
    have h0 : (i 0).val < 16 := (i 0).isLt; have h1 : (i 1).val < 64 := (i 1).isLt; omega⟩ : Fin 1024) (i 2 : Fin 1024))

/-- Row 2048·b + s of the flattened activations is row (b, s). -/
theorem flatX_row (x : ArrX) (r : Fin 4096) (b : Fin 2) (s : Fin 2048) (hr : r.val = b.val * 2048 + s.val) (k : Fin 1024) :
    flatX x (ix2 r k) = x (ix3 b s k) := by
  have hs := s.isLt
  refine congrArg x (funext fun a => ?_)
  match a with
  | ⟨0, _⟩ => exact Fin.ext (by show r.val / 2048 = b.val; omega)
  | ⟨1, _⟩ => exact Fin.ext (by show r.val % 2048 = s.val; omega)
  | ⟨2, _⟩ => rfl

/-- Region 0 on the flattened activations: slab g, row 2048·b + s, lane j is column 64·g + j of the fused projection
    of row (b, s). -/
theorem G0_flat (x : ArrX) (wqkv : ArrWqkv) (bqkv : ArrBqkv) (g : Fin 48) (r : Fin 4096) (j : Fin 64) (b : Fin 2) (s : Fin 2048)
    (e : Fin 3072) (hr : r.val = b.val * 2048 + s.val) (he : e.val = g.val * 64 + j.val) :
    G0 (flatX x) wqkv bqkv (ix3 g r j) = qkv x wqkv bqkv b s e := by
  have hc : col0 g j = e := Fin.ext (by rw [col0_val, he])
  rw [G0_apply, hc]
  unfold qkv
  exact congrArg (· + bqkv (ix1 e)) (Finset.sum_congr rfl fun k _ => by rw [flatX_row x r b s hr k])

/-! ## One query row: the kernel's row functions on head h's queries, keys and values are the reference's -/

section Row
variable (x : ArrX) (wqkv : ArrWqkv) (bqkv : ArrBqkv) (b : Fin 2) (h : Fin 16) (s : Fin 2048)
  (q : Fin 64 → EReal) (k v : Fin 2048 → Fin 64 → EReal)
  (hq : ∀ d, q d = qh x wqkv bqkv b h s d) (hk : ∀ t d, k t d = kh x wqkv bqkv b h t d)
  (hv : ∀ t d, v t d = vh x wqkv bqkv b h t d)
include hq hk

theorem rowScore_eq (t : Fin 2048) : rowScore q k t = score x wqkv bqkv b h s t := by
  unfold rowScore score
  rw [scale_eq_word]
  exact congrArg (· * Ideal.ofBits .f32 0x3E000000#32) (Finset.sum_congr rfl fun d _ => by rw [hq d, hk t d])

theorem rowMax_eq : rowMax q k = rowmax x wqkv bqkv b h s := by
  unfold rowMax rowmax
  exact congrArg (fun f : Fin 2048 → EReal => (Finset.univ : Finset (Fin 2048)).fold max (Ideal.ofBits .f32 0xFF800000#32) f)
    (funext fun t => rowScore_eq x wqkv bqkv b h s q k hq hk t)

theorem rowWeight_eq (t : Fin 2048) : rowWeight q k t = pexp x wqkv bqkv b h s t := by
  unfold rowWeight pexp
  rw [rowScore_eq x wqkv bqkv b h s q k hq hk t, rowMax_eq x wqkv bqkv b h s q k hq hk]

theorem rowNorm_eq : rowNorm q k = den x wqkv bqkv b h s := by
  unfold rowNorm den
  exact Finset.sum_congr rfl fun t _ => rowWeight_eq x wqkv bqkv b h s q k hq hk t

include hv in
theorem attnRow_eq (j : Fin 64) : attnRow q k v j = values x wqkv bqkv b h s j := by
  unfold attnRow values attn
  exact Finset.sum_congr rfl fun t _ => by
    rw [rowWeight_eq x wqkv bqkv b h s q k hq hk t, rowNorm_eq x wqkv bqkv b h s q k hq hk, hv t j]

end Row

/-- Region 1 on region 0's result: slab 16·b + h, row s, lane j is the reference's attention output of head h of batch
    element b at position s, lane j. -/
theorem G1at_eq (x : ArrX) (wqkv : ArrWqkv) (bqkv : ArrBqkv) (b : Fin 2) (h : Fin 16) (s : Fin 2048) (bh : Fin 32) (s' : Fin 2048)
    (hbh : bh.val = b.val * 16 + h.val) (hs : s'.val = s.val) (j : Fin 64) :
    G1at (G0 (flatX x) wqkv bqkv) bh s' j = values x wqkv bqkv b h s j := by
  obtain rfl : s' = s := Fin.ext hs
  have hh := h.isLt
  have hrow : ∀ t : Fin 2048, (slabRow bh t).val = b.val * 2048 + t.val := fun t => by
    show bh.val / 16 * 2048 + t.val = b.val * 2048 + t.val; omega
  unfold G1at
  refine attnRow_eq x wqkv bqkv b h s' _ _ _ (fun d => ?_) (fun t d => ?_) (fun t d => ?_) j
  · exact G0_flat x wqkv bqkv (slabQ bh) (slabRow bh s') d b s' (headCol h 0 (by omega) d) (hrow s')
      (by show h.val * 192 + 0 + d.val = bh.val % 16 * 3 * 64 + d.val; omega)
  · exact G0_flat x wqkv bqkv (slabK bh) (slabRow bh t) d b t (headCol h 64 (by omega) d) (hrow t)
      (by show h.val * 192 + 64 + d.val = (bh.val % 16 * 3 + 1) * 64 + d.val; omega)
  · exact G0_flat x wqkv bqkv (slabV bh) (slabRow bh t) d b t (headCol h 128 (by omega) d) (hrow t)
      (by show h.val * 192 + 128 + d.val = (bh.val % 16 * 3 + 2) * 64 + d.val; omega)

/-! ## The sum over the merged heads' 1024 columns is the double sum over heads and lanes -/

/-- Column 64·h + j of the merged heads is (head h, lane j). -/
def headLane : Fin 16 × Fin 64 ≃ Fin 1024 where
  toFun p := ⟨p.1.val * 64 + p.2.val, by have := p.1.isLt; have := p.2.isLt; omega⟩
  invFun d := (headOf d, laneOf d)
  left_inv p := by
    have h1 := p.1.isLt; have h2 := p.2.isLt
    refine Prod.ext (Fin.ext ?_) (Fin.ext ?_)
    · show (p.1.val * 64 + p.2.val) / 64 = p.1.val; omega
    · show (p.1.val * 64 + p.2.val) % 64 = p.2.val; omega
  right_inv d := Fin.ext (by show d.val / 64 * 64 + d.val % 64 = d.val; omega)

theorem headOf_headLane (h : Fin 16) (j : Fin 64) : headOf (headLane (h, j)) = h :=
  congrArg Prod.fst (headLane.left_inv (h, j))
theorem laneOf_headLane (h : Fin 16) (j : Fin 64) : laneOf (headLane (h, j)) = j :=
  congrArg Prod.snd (headLane.left_inv (h, j))

/-- Region 2 on region 1's result, at row 2048·b + s: the reference's output projection at (b, s). -/
theorem G2at_bridge (x : ArrX) (wqkv : ArrWqkv) (bqkv : ArrBqkv) (wo : ArrWo) (bo : ArrBo) (r : Fin 4096) (b : Fin 2) (s : Fin 2048)
    (hr : r.val = b.val * 2048 + s.val) (e : Fin 1024) :
    G2at (G1 (G0 (flatX x) wqkv bqkv)) (headsW wo) bo r e = out x wqkv bqkv wo bo b s e := by
  have hs := s.isLt
  unfold G2at out
  refine congrArg (· + bo (ix1 e)) ?_
  rw [← Equiv.sum_comp headLane, Fintype.sum_prod_type]
  refine Finset.sum_congr rfl fun h _ => Finset.sum_congr rfl fun j _ => ?_
  rw [G1_ix3, G1at_eq x wqkv bqkv b h s _ _ (by show r.val / 2048 * 16 + h.val = b.val * 16 + h.val; omega)
    (by show r.val % 2048 = s.val; omega) j, headOf_headLane, laneOf_headLane]
  rfl

/-- The three regions composed, at row 2048·b + s and column e, are the reference's output at (b, s, e). -/
theorem bridge (x : ArrX) (wqkv : ArrWqkv) (bqkv : ArrBqkv) (wo : ArrWo) (bo : ArrBo) (b : Fin 2) (s : Fin 2048) (e : Fin 1024) :
    G2 (G1 (G0 (flatX x) wqkv bqkv)) (headsW wo) bo
        (ix2 (⟨b.val * 2048 + s.val, by have := b.isLt; have := s.isLt; omega⟩ : Fin 4096) e)
      = out x wqkv bqkv wo bo b s e := by
  rw [G2_ix2]
  exact G2at_bridge x wqkv bqkv wo bo _ b s rfl e

end Cert.KernelIdeal.Bridge

end
-- ==== Proof.BridgeCasts.lean ====
/-
  The host's layout changes around the three regions, read at an index on the extended reals.

  The activations [2, 2048, 1024] are flattened to [4096, 1024]: row r is (r / 2048, r % 2048). The output weights
  [1024, 1024] are cut into [16, 64, 1024]: (h, j) is row 64·h + j. The result [4096, 1024] is folded back to
  [2, 2048, 1024]: (b, s) is row 2048·b + s. Each is the same elements in row-major order, so an index on one
  side and the index with the same row-major position on the other hold the same element. A narrowing of the
  float format changes nothing on the extended reals.
-/
import proofs.«143892_j7258494730873_2_alg».proof.Proof.Bridge
import Idealize.ShloMosaic.Lib.Pipeline.Value

noncomputable section

namespace Cert.KernelIdeal.Bridge

open Idealize.ShloMosaic Idealize.ShloMosaic.ValueIdx
open Cert.ReferenceIdeal.RefValue

/-- The activations flattened to [4096, 1024]. -/
theorem cast_flatX (x : ArrX) (h : (⟨3, ![2, 2048, 1024]⟩ : Shape).ShapeCasts ⟨2, ![4096, 1024]⟩) :
    shapeCast ⟨2, ![4096, 1024]⟩ x h = flatX x := by
  funext i
  have h0 : (i 0).val < 4096 := (i 0).isLt
  have h1 : (i 1).val < 1024 := (i 1).isLt
  unfold flatX
  refine shapeCast_apply x h i _ ?_
  rw [Shape.rowMajor_val_three, Shape.rowMajor_val_two]
  show ((i 0).val / 2048 * 2048 + (i 0).val % 2048) * 1024 + (i 1).val = (i 0).val * 1024 + (i 1).val
  omega

/-- The output weights cut into [16, 64, 1024]. -/
theorem cast_headsW (wo : ArrWo) (h : (⟨2, ![1024, 1024]⟩ : Shape).ShapeCasts ⟨3, ![16, 64, 1024]⟩) :
    shapeCast ⟨3, ![16, 64, 1024]⟩ wo h = headsW wo := by
  funext i
  have h0 : (i 0).val < 16 := (i 0).isLt
  have h1 : (i 1).val < 64 := (i 1).isLt
  have h2 : (i 2).val < 1024 := (i 2).isLt
  unfold headsW
  refine shapeCast_apply wo h i _ ?_
  rw [Shape.rowMajor_val_two, Shape.rowMajor_val_three]
  show ((i 0).val * 64 + (i 1).val) * 1024 + (i 2).val = ((i 0).val * 64 + (i 1).val) * 1024 + (i 2).val
  rfl

/-- The result folded back to [2, 2048, 1024], at (b, s, e): row 2048·b + s, column e. -/
theorem cast_out_apply (y : (⟨2, ![4096, 1024]⟩ : Shape).Idx → EReal)
    (h : (⟨2, ![4096, 1024]⟩ : Shape).ShapeCasts ⟨3, ![2, 2048, 1024]⟩) (b : Fin 2) (s : Fin 2048) (e : Fin 1024) :
    shapeCast ⟨3, ![2, 2048, 1024]⟩ y h (ix3 b s e)
      = y (ix2 (⟨b.val * 2048 + s.val, by have := b.isLt; have := s.isLt; omega⟩ : Fin 4096) e) := by
  refine shapeCast_apply y h (ix3 b s e) _ ?_
  rw [Shape.rowMajor_val_two, Shape.rowMajor_val_three]
  rfl

/-- A narrowing to bf16 is the identity on the extended reals. -/
theorem truncf_bf16_id {s : Shape} (x : FVec Ideal s .f32) (h : FTy.bits .bf16 < FTy.bits .f32) :
    (truncf .bf16 x h : FVec Ideal s .bf16) = x := rfl

/-- The whole kernel program on the extended reals — flatten, narrow the two weight arrays, the three regions, cut the
    narrowed output weights into heads, fold the result back — is the reference's result. -/
theorem program_eq_RefG (x : ArrX) (wqkv : ArrWqkv) (bqkv : ArrBqkv) (wo : ArrWo) (bo : ArrBo)
    (h0 : (⟨3, ![2, 2048, 1024]⟩ : Shape).ShapeCasts ⟨2, ![4096, 1024]⟩)
    (h2 : (⟨2, ![1024, 1024]⟩ : Shape).ShapeCasts ⟨3, ![16, 64, 1024]⟩)
    (h3 : (⟨2, ![4096, 1024]⟩ : Shape).ShapeCasts ⟨3, ![2, 2048, 1024]⟩)
    (hb : FTy.bits .bf16 < FTy.bits .f32) :
    shapeCast ⟨3, ![2, 2048, 1024]⟩
        (Cert.KernelIdeal.Hand.G2
          (Cert.KernelIdeal.Hand.G1
            (Cert.KernelIdeal.Hand.G0 (shapeCast ⟨2, ![4096, 1024]⟩ x h0) (truncf (F := Ideal) .bf16 wqkv hb) bqkv))
          (shapeCast ⟨3, ![16, 64, 1024]⟩ (truncf (F := Ideal) .bf16 wo hb) h2) bo) h3
      = RefG x wqkv bqkv wo bo := by
  funext i
  obtain ⟨b, s, e, rfl⟩ : ∃ (b : Fin 2) (s : Fin 2048) (e : Fin 1024), i = ix3 b s e := ⟨i 0, i 1, i 2, eq_ix3 i⟩
  rw [cast_out_apply, RefG_ix3, ← bridge x wqkv bqkv wo bo b s e, ← cast_flatX x h0, ← cast_headsW wo h2]
  rfl

end Cert.KernelIdeal.Bridge

end
-- ==== Proof.R2Pieces.lean ====
import proofs.«143892_j7258494730873_2_alg».proof.Proof.R2Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz1 : (![0] : Fin 1 → Nat) = fun _ => 0 := funext fun a => by fin_cases a <;> rfl
theorem hz2 : (![0, 0] : Fin 2 → Nat) = fun _ => 0 := funext fun a => by fin_cases a <;> rfl
theorem zero_offsets3 : (![0, 0, 0] : Fin 3 → Nat) = fun _ => 0 := funext fun a => by fin_cases a <;> rfl

/-- A middle head leaves in the scratch what it held plus the head's product: the one covering store's payload, its loads reading the whole buffers. -/
theorem sout_B (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i) (x0 : Vec F S1x512x64 .bf16) (x1 : Vec F S1x64x1024 .bf16) (x2 : Vec F S1024 .f32) (xs0 : Vec F S512x1024 .f32) : sout2_B_0 c i arg2 harg2 arg3 harg3 arg4 harg4 arg5 harg5 arg6 harg6 hc0 hc1 x0 x1 x2 xs0 = k2_pay2 x0 x1 xs0 := by
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  rw [View.canon_unit_zero hz2]
  simp only [View.readAt_eq_ld, harg2.read_unread, harg3.read_unread, harg4.read_unread, harg6.read_unread, View.ld_unit_zero (S := S1x512x64) zero_offsets3, View.ld_unit_zero (S := S1x64x1024) zero_offsets3, View.ld_unit_zero (S := S512x1024) hz2, View.ld_unit_zero (S := S1024) hz1]

/-- The last head leaves the same in the scratch (its second store goes to the output's buffer). -/
theorem sout_C (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i) (x0 : Vec F S1x512x64 .bf16) (x1 : Vec F S1x64x1024 .bf16) (x2 : Vec F S1024 .f32) (xs0 : Vec F S512x1024 .f32) : sout2_C_0 c i arg2 harg2 arg3 harg3 arg4 harg4 arg5 harg5 arg6 harg6 hc0 hc1 x0 x1 x2 xs0 = k2_pay2 x0 x1 xs0 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  sl_unfold_words
  rw [View.canon_unit_zero hz2]
  simp only [View.readAt_eq_ld, harg2.read_unread, harg3.read_unread, harg4.read_unread, harg6.read_unread, View.ld_unit_zero (S := S1x512x64) zero_offsets3, View.ld_unit_zero (S := S1x64x1024) zero_offsets3, View.ld_unit_zero (S := S512x1024) hz2, View.ld_unit_zero (S := S1024) hz1]

/-- The first head stores the zero block into the scratch, reads it back, and leaves the zero block plus the head's product. -/
theorem sout_A (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i) (x0 : Vec F S1x512x64 .bf16) (x1 : Vec F S1x64x1024 .bf16) (x2 : Vec F S1024 .f32) : sout2_A_0 c i arg2 harg2 arg3 harg3 arg4 harg4 arg5 harg5 arg6 harg6 hc0 hc1 x0 x1 x2 = k2_pay2 x0 x1 (k2_pay1 (F := F)) := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  sl_unfold_words
  rw [View.canon_cons_unit_zero (S := S512x1024) hz2, View.readCov_unit_zero (S := S512x1024) _ hz2]
  simp only [View.readAt_eq_ld, harg2.read_unread, harg3.read_unread, harg4.read_unread, harg6.read_unread, View.ld_unit_zero (S := S1x512x64) zero_offsets3, View.ld_unit_zero (S := S1x64x1024) zero_offsets3, View.ld_unit_zero (S := S512x1024) hz2, View.ld_unit_zero (S := S1024) hz1]

/-- The last head stores into the output's buffer the scratch it has just updated, read back, plus the bias row. -/
theorem out_C (c : Dev nD) (i : grid2.Coords) (arg2 : Memref sig .tc .vmem S1x512x64 .bf16) (harg2 : arg2.IsWhole) (arg3 : Memref sig .tc .vmem S1x64x1024 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i) (x0 : Vec F S1x512x64 .bf16) (x1 : Vec F S1x64x1024 .bf16) (x2 : Vec F S1024 .f32) (xs0 : Vec F S512x1024 .f32) : out2_C_3 c i arg2 harg2 arg3 harg3 arg4 harg4 arg5 harg5 arg6 harg6 hc0 hc1 x0 x1 x2 xs0 = k2_pay3 (k2_pay2 x0 x1 xs0) x2 := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  sl_unfold_words
  rw [View.canon_unit_zero hz2, View.readCov_unit_zero (S := S512x1024) _ hz2]
  simp only [View.readAt_eq_ld, harg2.read_unread, harg3.read_unread, harg4.read_unread, harg6.read_unread, View.ld_unit_zero (S := S1x512x64) zero_offsets3, View.ld_unit_zero (S := S1x64x1024) zero_offsets3, View.ld_unit_zero (S := S512x1024) hz2, View.ld_unit_zero (S := S1024) hz1]

end Cert.KernelIdeal.Hand

end
-- ==== Proof.R2Acc.lean ====
import proofs.«143892_j7258494730873_2_alg».proof.Proof.R2Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- At a first head the scratch ends at the zero block plus the head's product of its two blocks. -/
theorem sc_A (c : Dev nD) (t : Fin cfg2.N) (h0 : t.val % 16 = 0) :
    (outsAt2 V c t.val t.isLt).2 = k2_pay2 (iblk2 V c 0 t) (iblk2 V c 1 t) (k2_pay1 (F := F)) := by
  have h1 : ¬ t.val % 16 = 15 := by omega
  rw [outsAt2_A V c t h0 h1]
  dsimp only
  rw [sout_A c (grid2.coords t) (ms2_0 t) (hs2_0 t) (ms2_1 t) (hs2_1 t) (ms2_2 t) (hs2_2 t) (ms2_3 t) (hs2_3 t) scM2_0 (Memref.isWhole_whole _) ((hcond2_0 t).mpr h0) (fun hh => h1 ((hcond2_1 t).mp hh)) (iblk2 V c 0 t) (iblk2 V c 1 t) (iblk2 V c 2 t)]

/-- At every other head it ends at what the head before left plus the head's product. -/
theorem sc_BC (c : Dev nD) (t : Fin cfg2.N) (h0 : ¬t.val % 16 = 0) :
    (outsAt2 V c t.val t.isLt).2 = k2_pay2 (iblk2 V c 0 t) (iblk2 V c 1 t) (outsAt2 V c (t.val - 1) (Nat.lt_of_le_of_lt (Nat.sub_le _ _) t.isLt)).2 := by
  by_cases h1 : t.val % 16 = 15
  · rw [outsAt2_C V c t h0 h1]
    dsimp only
    rw [sout_C c (grid2.coords t) (ms2_0 t) (hs2_0 t) (ms2_1 t) (hs2_1 t) (ms2_2 t) (hs2_2 t) (ms2_3 t) (hs2_3 t) scM2_0 (Memref.isWhole_whole _) (fun hh => h0 ((hcond2_0 t).mp hh)) ((hcond2_1 t).mpr h1) (iblk2 V c 0 t) (iblk2 V c 1 t) (iblk2 V c 2 t) (outsAt2 V c (t.val - 1) (Nat.lt_of_le_of_lt (Nat.sub_le _ _) t.isLt)).2]
  · rw [outsAt2_B V c t h0 h1]
    dsimp only
    rw [sout_B c (grid2.coords t) (ms2_0 t) (hs2_0 t) (ms2_1 t) (hs2_1 t) (ms2_2 t) (hs2_2 t) (ms2_3 t) (hs2_3 t) scM2_0 (Memref.isWhole_whole _) (fun hh => h0 ((hcond2_0 t).mp hh)) (fun hh => h1 ((hcond2_1 t).mp hh)) (iblk2 V c 0 t) (iblk2 V c 1 t) (iblk2 V c 2 t) (outsAt2 V c (t.val - 1) (Nat.lt_of_le_of_lt (Nat.sub_le _ _) t.isLt)).2]

/-- At a last head the output's buffer holds the scratch just updated plus the bias row. -/
theorem out_last (c : Dev nD) (t : Fin cfg2.N) (h1 : t.val % 16 = 15) :
    (outsAt2 V c t.val t.isLt).1 = k2_pay3 (outsAt2 V c t.val t.isLt).2 (iblk2 V c 2 t) := by
  have h0 : ¬ t.val % 16 = 0 := by omega
  rw [outsAt2_C V c t h0 h1]
  dsimp only
  rw [out_C c (grid2.coords t) (ms2_0 t) (hs2_0 t) (ms2_1 t) (hs2_1 t) (ms2_2 t) (hs2_2 t) (ms2_3 t) (hs2_3 t) scM2_0 (Memref.isWhole_whole _) (fun hh => h0 ((hcond2_0 t).mp hh)) ((hcond2_1 t).mpr h1) (iblk2 V c 0 t) (iblk2 V c 1 t) (iblk2 V c 2 t) (outsAt2 V c (t.val - 1) (Nat.lt_of_le_of_lt (Nat.sub_le _ _) t.isLt)).2,
    sout_C c (grid2.coords t) (ms2_0 t) (hs2_0 t) (ms2_1 t) (hs2_1 t) (ms2_2 t) (hs2_2 t) (ms2_3 t) (hs2_3 t) scM2_0 (Memref.isWhole_whole _) (fun hh => h0 ((hcond2_0 t).mp hh)) ((hcond2_1 t).mpr h1) (iblk2 V c 0 t) (iblk2 V c 1 t) (iblk2 V c 2 t) (outsAt2 V c (t.val - 1) (Nat.lt_of_le_of_lt (Nat.sub_le _ _) t.isLt)).2]

/-- The scratch after a position depends on the position only. -/
theorem sc_congr (c : Dev nD) (n n' : ℕ) (h : n < cfg2.N) (h' : n' < cfg2.N) (e : n = n') : (outsAt2 V c n h).2 = (outsAt2 V c n' h').2 := by
  subst e; rfl

/-- What a first head leaves in the scratch, by position. -/
def accA (c : Dev nD) (n : ℕ) (h : n < cfg2.N) : Vec F S512x1024 .f32 :=
  k2_pay2 (iblk2 V c 0 ⟨n, h⟩) (iblk2 V c 1 ⟨n, h⟩) (k2_pay1 (F := F))

/-- What a later head leaves in the scratch, from what the head before left, by position. -/
def accG (c : Dev nD) (n : ℕ) (h : n < cfg2.N) (acc : Vec F S512x1024 .f32) : Vec F S512x1024 .f32 :=
  k2_pay2 (iblk2 V c 0 ⟨n, h⟩) (iblk2 V c 1 ⟨n, h⟩) acc

theorem sc_reset (c : Dev nD) (n : ℕ) (h : n < cfg2.N) (h0 : n % 16 = 0) : (outsAt2 V c n h).2 = accA V c n h :=
  sc_A V c ⟨n, h⟩ h0

theorem sc_step (c : Dev nD) (n : ℕ) (h : n + 1 < cfg2.N) (hne : ¬(n + 1) % 16 = 0) :
    (outsAt2 V c (n + 1) h).2 = accG V c (n + 1) h (outsAt2 V c n (Nat.lt_of_succ_lt h)).2 :=
  (sc_BC V c ⟨n + 1, h⟩ hne).trans (congrArg (accG V c (n + 1) h) (sc_congr V c _ _ _ _ (Nat.add_sub_cancel n 1)))

/-- So the scratch after point `t` is the fold over the run of heads of `t`'s row tile, up to `t`. -/
theorem sc_eq_accAt (c : Dev nD) (t : ℕ) (ht : t < cfg2.N) (h' : 16 * (t / 16) + t % 16 < cfg2.N) :
    (outsAt2 V c t ht).2 = Pipeline.accAt (accA V c) (accG V c) (16 * (t / 16)) (t % 16) h' :=
  Pipeline.eq_accAt_of_mod (fun n h => (outsAt2 V c n h).2) 16 (accA V c) (accG V c)
    (fun n h h0 => sc_reset V c n h h0) (fun n h hne => sc_step V c n h hne) (by decide) t ht h'

end Region2

end Cert.KernelIdeal.Hand

end
-- ==== Proof.R2Ideal.lean ====
import proofs.«143892_j7258494730873_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-- The zero block reads the extended real `0` everywhere. -/
theorem outproj_pay1_apply (i : S512x1024.Idx) : k2_pay1 (F := Ideal) i = 0 := by
  unfold k2_pay1
  rw [shapeCast_self]
  exact Ideal.ofBits_zero_f32

/-- The contraction index of the 512×64 by 64×1024 product is its one coordinate. -/
def contr2 : dot_S512x64_S64x1024_S512x1024_1_0_0_1_n_n.contr.Idx ≃ Fin 64 :=
  contrEquiv1 dot_S512x64_S64x1024_S512x1024_1_0_0_1_n_n 64 rfl rfl

/-- The accumulating store's payload at (r, e): what the scratch held there plus row r of the attention block times column e of the weight block. -/
theorem outproj_pay2_apply (x0 : Vec Ideal S1x512x64 .bf16) (x1 : Vec Ideal S1x64x1024 .bf16) (acc : Vec Ideal S512x1024 .f32) (r : Fin 512) (e : Fin 1024) :
    k2_pay2 (F := Ideal) x0 x1 acc (ix2 r e) = acc (ix2 r e) + ∑ j : Fin 64, x0 (ix3 (0 : Fin 1) r j) * x1 (ix3 (0 : Fin 1) j e) := by
  unfold k2_pay2
  rw [shapeCast_self]
  refine congrArg (acc (ix2 r e) + ·) ?_
  refine (Ideal.matmul_constant_zero_apply dot_S512x64_S64x1024_S512x1024_1_0_0_1_n_n none _ _ (ix2 r e)).trans ?_
  rw [← Equiv.sum_comp contr2.symm]
  refine Finset.sum_congr rfl fun j _ => ?_
  have hl : shapeCast S512x64 x0 shapeCasts_S1x512x64_S512x64
      (dot_S512x64_S64x1024_S512x1024_1_0_0_1_n_n.lhsIdx (ix2 r e) (contr2.symm j)) = x0 (ix3 (0 : Fin 1) r j) := by
    refine (shapeCast_dropUnit_apply (n := 2) ![512, 64] x0 _ _).trans ?_
    refine congrArg x0 (funext fun a => ?_)
    match a with
    | ⟨0, _⟩ => rfl
    | ⟨1, _⟩ => rfl
    | ⟨2, _⟩ => rfl
  have hr : shapeCast S64x1024 x1 shapeCasts_S1x64x1024_S64x1024
      (dot_S512x64_S64x1024_S512x1024_1_0_0_1_n_n.rhsIdx (ix2 r e) (contr2.symm j)) = x1 (ix3 (0 : Fin 1) j e) := by
    refine (shapeCast_dropUnit_apply (n := 2) ![64, 1024] x1 _ _).trans ?_
    refine congrArg x1 (funext fun a => ?_)
    match a with
    | ⟨0, _⟩ => rfl
    | ⟨1, _⟩ => rfl
    | ⟨2, _⟩ => rfl
  rw [hl, hr]

/-- The output store's payload at (r, e): the scratch there plus the bias at e. -/
theorem outproj_pay3_apply (acc : Vec Ideal S512x1024 .f32) (x2 : Vec Ideal S1024 .f32) (r : Fin 512) (e : Fin 1024) :
    k2_pay3 (F := Ideal) acc x2 (ix2 r e) = acc (ix2 r e) + x2 (ix1 e) := by
  unfold k2_pay3
  refine congrArg (acc (ix2 r e) + ·) ?_
  refine (broadcastTo_apply _ _ (ix2 r e) (ix2 (0 : Fin 1) e) ?_).trans ?_
  · intro a
    match a with
    | ⟨0, _⟩ => rfl
    | ⟨1, _⟩ => rfl
  · refine (shapeCast_addUnit_apply (n := 1) ![1024] x2 _ (ix2 (0 : Fin 1) e)).trans ?_
    refine congrArg x2 (funext fun a => ?_)
    match a with
    | ⟨0, _⟩ => rfl

end Cert.KernelIdeal.Hand

end
-- ==== Proof.R2Blocks.lean ====
import proofs.«143892_j7258494730873_2_alg».proof.Proof.R2Runs
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## The index maps in closed form, decided over the grid: point `t` is row tile `t / 16`, head `t % 16` -/

/-- The attention block of point `t`: slab `(t / 64) * 16 + t % 16` (batch `t / 64`, head `t % 16`), row tile `(t / 16) % 4` within the batch. -/
theorem idx2_0 : ∀ t : Fin cfg2.N, win2_0.index t 0 = t.val / 64 * 16 + t.val % 16 ∧ win2_0.index t 1 = t.val / 16 % 4 ∧ win2_0.index t 2 = 0 :=
  (by decide +kernel : ∀ t : Fin grid2.N, win2_0.index t 0 = t.val / 64 * 16 + t.val % 16 ∧ win2_0.index t 1 = t.val / 16 % 4 ∧ win2_0.index t 2 = 0)
/-- The weight block of point `t`: the head's slice. -/
theorem idx2_1 : ∀ t : Fin cfg2.N, win2_1.index t 0 = t.val % 16 ∧ win2_1.index t 1 = 0 ∧ win2_1.index t 2 = 0 :=
  (by decide +kernel : ∀ t : Fin grid2.N, win2_1.index t 0 = t.val % 16 ∧ win2_1.index t 1 = 0 ∧ win2_1.index t 2 = 0)
/-- The bias is one block. -/
theorem idx2_2 : ∀ t : Fin cfg2.N, win2_2.index t 0 = 0 :=
  (by decide +kernel : ∀ t : Fin grid2.N, win2_2.index t 0 = 0)
/-- The output block of point `t`: row tile `t / 16`, all columns. -/
theorem idx2_3 : ∀ t : Fin cfg2.N, win2_3.index t 0 = t.val / 16 ∧ win2_3.index t 1 = 0 :=
  (by decide +kernel : ∀ t : Fin grid2.N, win2_3.index t 0 = t.val / 16 ∧ win2_3.index t 1 = 0)

/-- The output block is uncut: 512 rows by 1024 columns at every point. -/
theorem xs2_3 : ∀ t : Fin cfg2.N, win2_3.xsize (grid2.coords t) 0 = 512 ∧ win2_3.xsize (grid2.coords t) 1 = 1024 ∧ win2_3.size 0 = 512 ∧ win2_3.size 1 = 1024 :=
  (by decide +kernel : ∀ t : Fin grid2.N, win2_3.xsize (grid2.coords t) 0 = 512 ∧ win2_3.xsize (grid2.coords t) 1 = 1024 ∧ win2_3.size 0 = 512 ∧ win2_3.size 1 = 1024)

section Region2
variable (V : (c : Dev nD) → (b : Ref sig .tc) → Buf (Elt F) ((c : Thread nD τ).loc b))

/-- The attention block of point `t` at (0, r, j) is the array at (slab, row tile * 512 + r, j). -/
theorem iblk2_0_apply (c : Dev nD) (t : Fin cfg2.N) (r : Fin 512) (j : Fin 64)
    (h0 : t.val / 64 * 16 + t.val % 16 < 32) (h1 : t.val / 16 % 4 * 512 + r.val < 2048) :
    iblk2 V c 0 t (ix3 (0 : Fin 1) r j) = V c main_v4 (ix3 (⟨t.val / 64 * 16 + t.val % 16, h0⟩ : Fin 32) (⟨t.val / 16 % 4 * 512 + r.val, h1⟩ : Fin 2048) j) := by
  have hi := idx2_0 t
  unfold iblk2
  rw [View.read_apply]
  show V c main_v4 _ = V c main_v4 _
  refine congrArg (V c main_v4) (funext fun a => Fin.ext ?_)
  match a with
  | ⟨0, _⟩ => show win2_0.index t 0 * 1 + 1 * 0 = t.val / 64 * 16 + t.val % 16; rw [hi.1]; omega
  | ⟨1, _⟩ => show win2_0.index t 1 * 512 + 1 * r.val = t.val / 16 % 4 * 512 + r.val; rw [hi.2.1]; omega
  | ⟨2, _⟩ => show win2_0.index t 2 * 64 + 1 * j.val = j.val; rw [hi.2.2]; omega

/-- The weight block of point `t` at (0, j, e) is the array at (head, j, e). -/
theorem iblk2_1_apply (c : Dev nD) (t : Fin cfg2.N) (j : Fin 64) (e : Fin 1024) :
    iblk2 V c 1 t (ix3 (0 : Fin 1) j e) = V c main_v5 (ix3 (⟨t.val % 16, Nat.mod_lt _ (by decide)⟩ : Fin 16) j e) := by
  have hi := idx2_1 t
  unfold iblk2
  rw [View.read_apply]
  show V c main_v5 _ = V c main_v5 _
  refine congrArg (V c main_v5) (funext fun a => Fin.ext ?_)
  match a with
  | ⟨0, _⟩ => show win2_1.index t 0 * 1 + 1 * 0 = t.val % 16; rw [hi.1]; omega
  | ⟨1, _⟩ => show win2_1.index t 1 * 64 + 1 * j.val = j.val; rw [hi.2.1]; omega
  | ⟨2, _⟩ => show win2_1.index t 2 * 1024 + 1 * e.val = e.val; rw [hi.2.2]; omega

/-- The bias block is the bias. -/
theorem iblk2_2_apply (c : Dev nD) (t : Fin cfg2.N) (e : Fin 1024) :
    iblk2 V c 2 t (ix1 e) = V c main_arg4 (ix1 e) := by
  have hi := idx2_2 t
  unfold iblk2
  rw [View.read_apply]
  show V c main_arg4 _ = V c main_arg4 _
  refine congrArg (V c main_arg4) (funext fun a => Fin.ext ?_)
  match a with
  | ⟨0, _⟩ => show win2_2.index t 0 * 1024 + 1 * e.val = e.val; rw [hi]; omega

end Region2

end Cert.KernelIdeal.Hand

end
-- ==== Proof.R2Fold.lean ====
import proofs.«143892_j7258494730873_2_alg».proof.Proof.R2Acc
import proofs.«143892_j7258494730873_2_alg».proof.Proof.R2Ideal
import proofs.«143892_j7258494730873_2_alg».proof.Proof.R2Blocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-- The fold depends on the number of steps only. -/
theorem accAt_congr_j {α : Type*} {N : ℕ} (a : (n : ℕ) → n < N → α) (g : (n : ℕ) → n < N → α → α) (b j j' : ℕ) (h : b + j < N) (h' : b + j' < N)
    (e : j = j') : Pipeline.accAt a g b j h = Pipeline.accAt a g b j' h' := by
  subst e; rfl

/-- Row r of a 512 × 64 block times column e of a 64 × 1024 block. -/
def prod2 (x0 : Vec Ideal S1x512x64 .bf16) (x1 : Vec Ideal S1x64x1024 .bf16) (i : S512x1024.Idx) : EReal :=
  ∑ j : Fin 64, x0 (ix3 (0 : Fin 1) (⟨(i 0).val, idx2_lt0 i⟩ : Fin 512) j) * x1 (ix3 (0 : Fin 1) j (⟨(i 1).val, idx2_lt1 i⟩ : Fin 1024))

theorem prod2_ix2 (x0 : Vec Ideal S1x512x64 .bf16) (x1 : Vec Ideal S1x64x1024 .bf16) (r : Fin 512) (e : Fin 1024) :
    prod2 x0 x1 (ix2 r e) = ∑ j : Fin 64, x0 (ix3 (0 : Fin 1) r j) * x1 (ix3 (0 : Fin 1) j e) := rfl

section Region2
variable (V : (c : Dev nD) → (b : Ref sig .tc) → Buf (Elt Ideal) ((c : Thread nD τ).loc b))

/-- Point `n`'s addend to the scratch: the product of its attention block and its weight block (zero past the grid). -/
def M2 (c : Dev nD) (n : ℕ) (i : S512x1024.Idx) : EReal :=
  if h : n < cfg2.N then prod2 (iblk2 V c 0 ⟨n, h⟩) (iblk2 V c 1 ⟨n, h⟩) i else 0

theorem M2_pos (c : Dev nD) (n : ℕ) (h : n < cfg2.N) (i : S512x1024.Idx) :
    M2 V c n i = prod2 (iblk2 V c 0 ⟨n, h⟩) (iblk2 V c 1 ⟨n, h⟩) i := by
  unfold M2; rw [dif_pos h]

/-- A first head leaves `0 +` its addend. -/
theorem accA_apply (c : Dev nD) (n : ℕ) (h : n < cfg2.N) (i : S512x1024.Idx) : accA V c n h i = 0 + M2 V c n i := by
  obtain ⟨r, e, rfl⟩ : ∃ (r : Fin 512) (e : Fin 1024), i = ix2 r e := ⟨i 0, i 1, eq_ix2 i⟩
  unfold accA
  rw [outproj_pay2_apply, outproj_pay1_apply, M2_pos V c n h, prod2_ix2]

/-- A later head adds its addend to what the head before left. -/
theorem accG_apply (c : Dev nD) (n : ℕ) (h : n < cfg2.N) (acc : Vec Ideal S512x1024 .f32) (i : S512x1024.Idx) :
    accG V c n h acc i = acc i + M2 V c n i := by
  obtain ⟨r, e, rfl⟩ : ∃ (r : Fin 512) (e : Fin 1024), i = ix2 r e := ⟨i 0, i 1, eq_ix2 i⟩
  unfold accG
  rw [outproj_pay2_apply, M2_pos V c n h, prod2_ix2]

/-- After the last head of a row tile the scratch holds the sum of the sixteen heads' addends. -/
theorem sc_last (c : Dev nD) (t : Fin cfg2.N) (h15 : t.val % 16 = 15) (i : S512x1024.Idx) :
    (outsAt2 V c t.val t.isLt).2 i = 0 + ∑ s ∈ Finset.range 16, M2 V c (16 * (t.val / 16) + s) i := by
  have hN : cfg2.N = 128 := N_2
  have h' : 16 * (t.val / 16) + t.val % 16 < cfg2.N := by have := t.isLt; omega
  have h'' : 16 * (t.val / 16) + 15 < cfg2.N := by have := t.isLt; omega
  rw [sc_eq_accAt V c t.val t.isLt h', accAt_congr_j _ _ _ _ 15 h' h'' h15]
  exact Pipeline.accAt_add_apply (accA V c) (accG V c) (fun _ => (0 : EReal)) (M2 V c) (16 * (t.val / 16)) 15
    (fun h i => accA_apply V c _ h i) (fun n h acc i _ _ => accG_apply V c n h acc i) 15 le_rfl h'' i

end Region2

end Cert.KernelIdeal.Hand

end
-- ==== Proof.Value2.lean ====
import proofs.«143892_j7258494730873_2_alg».proof.Proof.R2Fold
import proofs.«143892_j7258494730873_2_alg».proof.Proof.Region2
import proofs.«143892_j7258494730873_2_alg».proof.Proof.Spec2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

section Region2
variable (V : (c : Dev nD) → (b : Ref sig .tc) → Buf (Elt Ideal) ((c : Thread nD τ).loc b))

/-- The three arrays the region reads, as functions into the extended reals. -/
abbrev a2 (c : Dev nD) : (⟨3, ![32, 2048, 64]⟩ : Shape).Idx → EReal := V c main_v4
abbrev w2 (c : Dev nD) : (⟨3, ![16, 64, 1024]⟩ : Shape).Idx → EReal := V c main_v5
abbrev b2 (c : Dev nD) : (⟨1, ![1024]⟩ : Shape).Idx → EReal := V c main_arg4

/-- The attention array read at equal coordinates. -/
theorem v4_congr (c : Dev nD) (a a' : ℕ) (ha : a < 32) (ha' : a' < 32) (b b' : ℕ) (hb : b < 2048) (hb' : b' < 2048) (j : Fin 64)
    (ea : a = a') (eb : b = b') :
    V c main_v4 (ix3 (⟨a, ha⟩ : Fin 32) (⟨b, hb⟩ : Fin 2048) j) = V c main_v4 (ix3 (⟨a', ha'⟩ : Fin 32) (⟨b', hb'⟩ : Fin 2048) j) := by
  subst ea eb; rfl

/-- The weight array read at equal coordinates. -/
theorem v5_congr (c : Dev nD) (a a' : ℕ) (ha : a < 16) (ha' : a' < 16) (j : Fin 64) (e : Fin 1024) (ea : a = a') :
    V c main_v5 (ix3 (⟨a, ha⟩ : Fin 16) j e) = V c main_v5 (ix3 (⟨a', ha'⟩ : Fin 16) j e) := by
  subst ea; rfl

/-- Head `s` of row tile `q` adds, at (r, e), the products over the 64 head features of the attention array at
    (slab of the tile's batch and head s, the global row's position in the batch, j) with the weight array at (s, j, e). -/
theorem M2_arr (c : Dev nD) (q s : ℕ) (hq : q < 8) (hs : s < 16) (r : Fin 512) (e : Fin 1024)
    (hA : (q * 512 + r.val) / 2048 * 16 + s < 32) :
    M2 V c (16 * q + s) (ix2 r e)
      = ∑ j : Fin 64, a2 V c (ix3 (⟨(q * 512 + r.val) / 2048 * 16 + s, hA⟩ : Fin 32) (⟨(q * 512 + r.val) % 2048, Nat.mod_lt _ (by decide)⟩ : Fin 2048) j)
          * w2 V c (ix3 (⟨s, hs⟩ : Fin 16) j e) := by
  have hN : cfg2.N = 128 := N_2
  have hr := r.isLt
  have h : 16 * q + s < cfg2.N := by omega
  rw [M2_pos V c _ h, prod2_ix2]
  refine Finset.sum_congr rfl fun j _ => ?_
  have e0 := (iblk2_0_apply V c ⟨16 * q + s, h⟩ r j (show (16 * q + s) / 64 * 16 + (16 * q + s) % 16 < 32 by omega)
      (show (16 * q + s) / 16 % 4 * 512 + r.val < 2048 by omega)).trans
    (v4_congr V c ((16 * q + s) / 64 * 16 + (16 * q + s) % 16) ((q * 512 + r.val) / 2048 * 16 + s) _ hA
      ((16 * q + s) / 16 % 4 * 512 + r.val) ((q * 512 + r.val) % 2048) _ (Nat.mod_lt _ (by decide)) j (by omega) (by omega))
  have e1 := (iblk2_1_apply V c ⟨16 * q + s, h⟩ j e).trans
    (v5_congr V c ((16 * q + s) % 16) s (Nat.mod_lt _ (by decide)) hs j e (by omega))
  rw [e0, e1]

/-- At a last head the output's buffer holds, at (r, e), the projection at the tile's global row. -/
theorem out_at (c : Dev nD) (t : Fin cfg2.N) (h15 : t.val % 16 = 15) (r : Fin 512) (e : Fin 1024) (hR : t.val / 16 * 512 + r.val < 4096) :
    (outsAt2 V c t.val t.isLt).1 (ix2 r e) = G2at (a2 V c) (w2 V c) (b2 V c) ⟨t.val / 16 * 512 + r.val, hR⟩ e := by
  have hN : cfg2.N = 128 := N_2
  have ht := t.isLt
  have hr := r.isLt
  rw [out_last V c t h15, outproj_pay3_apply, sc_last V c t h15 (ix2 r e), iblk2_2_apply V c t e]
  unfold G2at
  rw [zero_add, Finset.sum_range]
  refine congrArg (· + b2 V c (ix1 e)) ?_
  refine Finset.sum_congr rfl fun hh _ => ?_
  have hh' := hh.isLt
  rw [M2_arr V c (t.val / 16) hh.val (by omega) hh.isLt r e (by omega)]

/-- What a last head writes back is its block of the projection. -/
theorem flushed2_eq (c : Dev nD) (t : Fin cfg2.N) (hf : (cfg2.win 3).flush t = true) :
    (dat2 V c).flushed 3 t = ((cfg2.win 3).blk t).view.read (Elt Ideal) (G2 (V c main_v4) (V c main_v5) (V c main_arg4)) := by
  have h15 : t.val % 16 = 15 := (flush2_3 t).mp hf
  have hN : cfg2.N = 128 := N_2
  have ht := t.isLt
  have hi := idx2_3 t
  show (cfg2.win 3).cut (grid2.coords t) ((dat2 V c).after 3 t) = _
  rw [after2_3]
  funext y
  obtain ⟨r, e, rfl⟩ : ∃ (r : Fin 512) (e : Fin 1024), y = ix2 r e := ⟨y 0, y 1, eq_ix2 y⟩
  have hr := r.isLt
  rw [View.read_apply]
  show (outsAt2 V c t.val t.isLt).1 (ix2 r e) = G2 (V c main_v4) (V c main_v5) (V c main_arg4) (((cfg2.win 3).blk t).view.emb (ix2 r e))
  rw [out_at V c t h15 r e (by omega), ← G2_ix2]
  refine congrArg (G2 (V c main_v4) (V c main_v5) (V c main_arg4)) (funext fun a => Fin.ext ?_)
  match a with
  | ⟨0, _⟩ => show t.val / 16 * 512 + r.val = win2_3.index t 0 * 512 + 1 * r.val; rw [hi.1]; omega
  | ⟨1, _⟩ => show e.val = win2_3.index t 1 * 1024 + 1 * e.val; rw [hi.2]; omega

/-- Every element of the output array lies in the block a last head writes back: row R in row tile R / 512. -/
theorem cover2 (c : Dev nD) (i : ((cfg2.win 3).arr.view.loc (c.tc : Thread nD τ)).2.ty.Idx) :
    ∃ t : Fin cfg2.N, (cfg2.win 3).flush t = true ∧ i ∈ ((cfg2.win 3).blk t).view.set := by
  have hN : cfg2.N = 128 := N_2
  have h0 : (i 0 : ℕ) < 4096 := (i 0).isLt
  have h1 : (i 1 : ℕ) < 1024 := (i 1).isLt
  have hlt : (i 0 : ℕ) / 512 * 16 + 15 < cfg2.N := by omega
  refine ⟨⟨(i 0 : ℕ) / 512 * 16 + 15, hlt⟩, (flush2_3 _).mpr (show ((i 0 : ℕ) / 512 * 16 + 15) % 16 = 15 by omega), ?_⟩
  have hx := xs2_3 ⟨(i 0 : ℕ) / 512 * 16 + 15, hlt⟩
  have hi := idx2_3 ⟨(i 0 : ℕ) / 512 * 16 + 15, hlt⟩
  have hi0 : win2_3.index ⟨(i 0 : ℕ) / 512 * 16 + 15, hlt⟩ 0 = ((i 0 : ℕ) / 512 * 16 + 15) / 16 := hi.1
  show i ∈ ((View.whole main_v6).slice (win2_3.rect ⟨(i 0 : ℕ) / 512 * 16 + 15, hlt⟩)).set
  rw [View.set_slice_whole, Rect.mem_set_unit]
  intro a
  match a with
  | ⟨0, _⟩ =>
    show win2_3.index ⟨(i 0 : ℕ) / 512 * 16 + 15, hlt⟩ 0 * win2_3.size 0 ≤ (i 0 : ℕ)
      ∧ (i 0 : ℕ) < win2_3.index ⟨(i 0 : ℕ) / 512 * 16 + 15, hlt⟩ 0 * win2_3.size 0 + win2_3.xsize (grid2.coords ⟨(i 0 : ℕ) / 512 * 16 + 15, hlt⟩) 0
    rw [hi0, hx.1, hx.2.2.1]; omega
  | ⟨1, _⟩ =>
    show win2_3.index ⟨(i 0 : ℕ) / 512 * 16 + 15, hlt⟩ 1 * win2_3.size 1 ≤ (i 1 : ℕ)
      ∧ (i 1 : ℕ) < win2_3.index ⟨(i 0 : ℕ) / 512 * 16 + 15, hlt⟩ 1 * win2_3.size 1 + win2_3.xsize (grid2.coords ⟨(i 0 : ℕ) / 512 * 16 + 15, hlt⟩) 1
    rw [hi.2, hx.2.1, hx.2.2.2]; omega

/-- What the region leaves in its output array: the head-summed projection plus the bias, as one function of the three arrays it reads. -/
theorem final2 (c : Dev nD) :
    (dat2 (F := Ideal) V c).arrAt 3 cfg2.N = G2 (V c main_v4) (V c main_v5) (V c main_arg4) :=
  (dat2 V c).arrAt_eq_of_cover 3 (G2 (V c main_v4) (V c main_v5) (V c main_arg4)) (flushed2_eq V c) (cover2 c)

end Region2

end Cert.KernelIdeal.Hand

end
-- ==== Proof.KernelValue.lean ====
/-
  What the program's result array holds at the end, as a function of the five arguments.
  Following the buffers through the six items: the flattened activations and the two narrowed weight matrices (narrowing is
  the identity on extended reals) feed region 0, whose output G0 is the packed query/key/value array; region 1 makes G1 of
  it, the attention rows per (batch, head); the output weights cut into heads, G1's result and the bias feed region 2,
  whose output is G2; the last reshape unflattens it. That composite is the reference's function of the arguments.
-/
import proofs.«143892_j7258494730873_2_alg».proof.Proof.Assembly
import proofs.«143892_j7258494730873_2_alg».proof.Proof.Value0
import proofs.«143892_j7258494730873_2_alg».proof.Proof.Value1
import proofs.«143892_j7258494730873_2_alg».proof.Proof.BridgeCasts
import Idealize.ShloMosaic.Lib.StableHlo.Run
import Idealize.ShloMosaic.PureOps.Ideal
import proofs.«143892_j7258494730873_2_alg».proof.Proof.Value2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-! ## What the host stretches make of the buffers -/

theorem E1_v0 (c : Dev nD) : (E1 m c main_v0 : S4096x1024.Idx → EReal)
    = shapeCast S4096x1024 (m ((c.tc : Thread nD τ).loc main_arg0)) shapeCasts_S2x2048x1024_S4096x1024 := by
  show StableHlo.after (hostOps0 (F := Ideal)) (V0 m c) (Proc.devRef .tc main_v0) = _
  after_results; rfl
theorem E1_v1 (c : Dev nD) : (E1 m c main_v1 : S1024x3072.Idx → EReal)
    = (truncf (F := Ideal) .bf16 (show FVec Ideal S1024x3072 .f32 from (m ((c.tc : Thread nD τ).loc main_arg1))) bitsLt_bf16_f32 : FVec Ideal S1024x3072 .bf16) := by
  show StableHlo.after (hostOps0 (F := Ideal)) (V0 m c) (Proc.devRef .tc main_v1) = _
  after_results
theorem V1_v2 (c : Dev nD) : (V1 m c main_v2 : S1024x1024.Idx → EReal)
    = (truncf (F := Ideal) .bf16 (show FVec Ideal S1024x1024 .f32 from (m ((c.tc : Thread nD τ).loc main_arg3))) bitsLt_bf16_f32 : FVec Ideal S1024x1024 .bf16) := by
  show StableHlo.after (hostOps0 (F := Ideal)) (V0 m c) (Proc.devRef .tc main_v2) = _
  after_results
theorem E1_arg2 (c : Dev nD) : E1 m c main_arg2 = (m ((c.tc : Thread nD τ).loc main_arg2)) := V1_of m c main_arg2 (by decide)

theorem U4_of (c : Dev nD) (r : Ref sig .tc) (h : r ∉ hostOps2_W) : U4 m c r = U3 m c r :=
  StableHlo.after_of_writes_sub hostOps2 _ hostOps2_writes h

theorem E4_v5 (c : Dev nD) : (E4 m c main_v5 : S16x64x1024.Idx → EReal)
    = shapeCast S16x64x1024 (truncf (F := Ideal) .bf16 (show FVec Ideal S1024x1024 .f32 from (m ((c.tc : Thread nD τ).loc main_arg3))) bitsLt_bf16_f32 : FVec Ideal S1024x1024 .bf16) shapeCasts_S1024x1024_S16x64x1024 := by
  have e : (U3 m c main_v2 : S1024x1024.Idx → EReal) = (truncf (F := Ideal) .bf16 (show FVec Ideal S1024x1024 .f32 from (m ((c.tc : Thread nD τ).loc main_arg3))) bitsLt_bf16_f32 : FVec Ideal S1024x1024 .bf16) :=
    (U3_of m c main_v2 (by decide)).trans ((U2_of m c main_v2 (by decide)).trans (V1_v2 m c))
  rw [← e]
  show StableHlo.after (hostOps2 (F := Ideal)) (U3 m c) (Proc.devRef .tc main_v5) = _
  after_results; rfl
theorem E4_arg4 (c : Dev nD) : E4 m c main_arg4 = (m ((c.tc : Thread nD τ).loc main_arg4)) :=
  (U4_of m c main_arg4 (by decide)).trans ((U3_of m c main_arg4 (by decide)).trans ((U2_of m c main_arg4 (by decide)).trans (V1_of m c main_arg4 (by decide))))

/-! ## What the regions leave -/

/-- the packed query/key/value array after region 0 -/
theorem X2_eq (c : Dev nD) : (X2 m c : S48x4096x64.Idx → EReal)
    = G0 (shapeCast S4096x1024 (m ((c.tc : Thread nD τ).loc main_arg0)) shapeCasts_S2x2048x1024_S4096x1024)
        (truncf (F := Ideal) .bf16 (show FVec Ideal S1024x3072 .f32 from (m ((c.tc : Thread nD τ).loc main_arg1))) bitsLt_bf16_f32 : FVec Ideal S1024x3072 .bf16) (m ((c.tc : Thread nD τ).loc main_arg2)) := by
  unfold X2; rw [final0 (E1 m) c, E1_v0, E1_v1, E1_arg2]
/-- the attention output after region 1 -/
theorem X3_eq (c : Dev nD) : (X3 m c : S32x2048x64.Idx → EReal) = G1 (X2 m c) := by
  unfold X3; rw [final1 (E2 m) q1 c]; exact congrArg G1 (U2_self m c)
theorem E4_v4 (c : Dev nD) : (E4 m c main_v4 : S32x2048x64.Idx → EReal) = X3 m c :=
  (U4_of m c main_v4 (by decide)).trans (U3_self m c)
/-- the projected output after region 2 -/
theorem X5_eq (c : Dev nD) : (X5 m c : S4096x1024.Idx → EReal)
    = G2 (X3 m c) (shapeCast S16x64x1024 (truncf (F := Ideal) .bf16 (show FVec Ideal S1024x1024 .f32 from (m ((c.tc : Thread nD τ).loc main_arg3))) bitsLt_bf16_f32 : FVec Ideal S1024x1024 .bf16) shapeCasts_S1024x1024_S16x64x1024) (m ((c.tc : Thread nD τ).loc main_arg4)) := by
  unfold X5; rw [final2 (E4 m) c, E4_v4, E4_v5, E4_arg4]

/-- The result array at the end: the reference's function of the five arguments. -/
theorem kernel_value (c : Dev nD) : (U6 m c main_v7 : S2x2048x1024.Idx → EReal)
    = Cert.ReferenceIdeal.RefValue.RefG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : (U6 m c main_v7 : S2x2048x1024.Idx → EReal) = shapeCast S2x2048x1024 (X5 m c) shapeCasts_S4096x1024_S2x2048x1024 := by
    rw [← U5_self m c]
    show StableHlo.after (hostOps3 (F := Ideal)) (U5 m c) (Proc.devRef .tc main_v7) = _
    after_results; rfl
  rw [e, X5_eq, X3_eq, X2_eq]
  exact Cert.KernelIdeal.Bridge.program_eq_RefG _ _ _ _ _ _ _ _ _

end Cert.KernelIdeal.Hand
end
-- ==== Proof.lean ====
/-
  Multi-head attention over x : [2, 2048, 1024] with 16 heads of 64 lanes:
      qkv = x · W_qkv + b_qkv;   per (batch, head):  softmax(q · kᵀ / 8) · v;   out = (heads side by side) · W_o + b_o.
  The kernel program computes it in three regions — the fused projection stored as 48 slabs of 64 columns, attention per
  (batch, head) and query tile with the whole key axis present, the output projection accumulated head by head — and the
  reference with whole matrix products, transposes and a split. On extended reals the two are the same function: a change of
  float format is the identity, the scale 1 / sqrt 64 is the number 1/8 that the kernel's literal 0.125 denotes, the row
  maximum, exponential, sum and quotient of the softmax are the same operations on the same numbers, and a sum over the
  1024 concatenated columns is the sum over 16 heads of the sums over 64 lanes (addition of extended reals is associative
  and commutative; no finiteness of the inputs is used).
  Each of the three programs runs to the end without fault and leaves its arguments unchanged; the idealization rewrote
  no operation.
-/
import proofs.«143892_j7258494730873_2_alg».proof.Defs
import proofs.«143892_j7258494730873_2_alg».proof.Proof.Gen.Kernel
import proofs.«143892_j7258494730873_2_alg».proof.Proof.Gen.KernelIdeal
import proofs.«143892_j7258494730873_2_alg».proof.Proof.Gen.ReferenceIdeal
import proofs.«143892_j7258494730873_2_alg».proof.Proof.Gen.Pre_finite_inputs
import proofs.«143892_j7258494730873_2_alg».proof.Proof.Gen.ReferenceIdeal.Read
import proofs.«143892_j7258494730873_2_alg».proof.Proof.RefIsSpec
import proofs.«143892_j7258494730873_2_alg».proof.Proof.Bits.Assembly
import proofs.«143892_j7258494730873_2_alg».proof.Proof.KernelValue
import Idealize.ShloMosaic.Adequacy
import Idealize.ShloMosaic.Init

noncomputable section

namespace Cert.Proof

open Idealize.ShloMosaic Idealize.SL.Sem

/-- The word-level program runs to the end and leaves its arguments as they were: its run with the result dropped. -/
theorem frame_k : Cert.frame_Kernel := fun m ρ _ =>
  (θ_run Cert.Kernel.defs _ _).mono (fun _ h c => (h c).2) (Cert.Kernel.Hand.run_main (F := Bits) m ρ)

/-- The same of the idealized program. -/
theorem frame_ki : Cert.frame_KernelIdeal := fun m ρ _ =>
  (θ_run Cert.KernelIdeal.defs _ _).mono (fun _ h c => (h c).2) (Cert.KernelIdeal.Hand.run_main (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same function of the five arguments: multi-head attention written once with the heads'
    columns dealt out in slabs and the output projection summed head by head (the kernels), once with transposes and whole
    matrix products (the reference). -/
theorem algebraic : Cert.algebraic_KernelIdeal_ReferenceIdeal := by
  intro m ρ m' ρ' _ hagree
  refine ⟨fun c => Cert.ReferenceIdeal.RefValue.RefG
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Hand.kernel_value m c), (h c).2⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.RefValue.res_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
